-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x65536x3 : Shape := ⟨3, ![8, 65536, 3]⟩
abbrev S3x64 : Shape := ⟨2, ![3, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S8x65536x3 : S_.BroadcastsInDim S8x65536x3 (![] : Fin 0 → Fin S8x65536x3.rank)
  reducesTo_S8x65536x3_S_d0_1_2 : S8x65536x3.ReducesTo [0, 1, 2] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S64x1 .f32) (main_arg5 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S8x65536x3 .f32) (main_arg1 : FVec F S8x65536x3 .f32) (main_arg2 : FVec F S3x64 .f32) (main_arg3 : FVec F S64 .f32) (main_arg4 : FVec F S64x1 .f32) (main_arg5 : FVec F S1 .f32) : IVec S_ 1 :=
  let main_v0 : FVec F S8x65536x3 .f32 := Host.absf main_arg0
  let main_cst : FVec F S_ .f32 := constant S_ .f32 0x7F800000#32
  let main_v1 : FVec F S8x65536x3 .f32 := broadcastInDim S8x65536x3 ![] bcast_S_S8x65536x3 main_cst
  let main_v2 : IVec S8x65536x3 1 := cmpf .olt main_v0 main_v1
  let main_c : IVec S_ 1 := constantI S_ 1 1#1
  let main_v3 : IVec S_ 1 := (fun x v => Host.reduce IntOp.andi x v reducesTo_S8x65536x3_S_d0_1_2 h_S_) main_v2 main_c
  let main_v4 : FVec F S8x65536x3 .f32 := Host.absf main_arg1
  let main_cst_0 : FVec F S_ .f32 := constant S_ .f32 0x7F800000#32
  let main_v5 : FVec F S8x65536x3 .f32 := broadcastInDim S8x65536x3 ![] bcast_S_S8x65536x3 main_cst_0
  let main_v6 : IVec S8x65536x3 1 := cmpf .olt main_v4 main_v5
  let main_c_1 : IVec S_ 1 := constantI S_ 1 1#1
  let main_v7 : IVec S_ 1 := (fun x v => Host.reduce IntOp.andi x v reducesTo_S8x65536x3_S_d0_1_2 h_S_) main_v6 main_c_1
  let main_v8 : IVec S_ 1 := andi main_v3 main_v7
  let main_v9 : FVec F S3x64 .f32 := Host.absf main_arg2
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S8x65536x3 : Shape := ⟨3, ![8, 65536, 3]⟩
abbrev S3x64 : Shape := ⟨2, ![3, 64]⟩
abbrev S64 : Shape := ⟨1, ![64]⟩
abbrev S64x1 : Shape := ⟨2, ![64, 1]⟩
abbrev S1 : Shape := ⟨1, ![1]⟩
abbrev S3x8x65536 : Shape := ⟨3, ![3, 8, 65536]⟩
abbrev S_ : Shape := ⟨0, ![]⟩
abbrev S64x3 : Shape := ⟨2, ![64, 3]⟩
abbrev S64x7 : Shape := ⟨2, ![64, 7]⟩
abbrev S128x7 : Shape := ⟨2, ![128, 7]⟩
abbrev S1x64 : Shape := ⟨2, ![1, 64]⟩
abbrev S1x128 : Shape := ⟨2, ![1, 128]⟩
abbrev S2x128 : Shape := ⟨2, ![2, 128]⟩
abbrev S1x1 : Shape := ⟨2, ![1, 1]⟩
abbrev S3x8x32768 : Shape := ⟨3, ![3, 8, 32768]⟩
abbrev S8x1 : Shape := ⟨2, ![8, 1]⟩
abbrev S1x32768 : Shape := ⟨2, ![1, 32768]⟩
abbrev S3x1x32768 : Shape := ⟨3, ![3, 1, 32768]⟩
abbrev S3x32768 : Shape := ⟨2, ![3, 32768]⟩
abbrev S7x32768 : Shape := ⟨2, ![7, 32768]⟩
abbrev S128x32768 : Shape := ⟨2, ![128, 32768]⟩
abbrev S2x32768 : Shape := ⟨2, ![2, 32768]⟩
abbrev S1x8x1 : Shape := ⟨3, ![1, 8, 1]⟩
abbrev S1x1x1 : Shape := ⟨3, ![1, 1, 1]⟩

abbrev nBuf : Space → Nat
  | .hbm => 27
  | .vmem => 9
  | .smem => 0
  | _ => 0

abbrev bufTy : (tb : Table) → Fin (tcTables nBuf tb) → BufTy
  | .hbm, ⟨0, _⟩ => ⟨S8x65536x3, .f32⟩
  | .hbm, ⟨1, _⟩ => ⟨S8x65536x3, .f32⟩
  | .hbm, ⟨2, _⟩ => ⟨S3x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S3x8x65536, .f32⟩
  | .hbm, ⟨7, _⟩ => ⟨S3x8x65536, .f32⟩
  | .hbm, ⟨8, _⟩ => ⟨S_, .f32⟩
  | .hbm, ⟨9, _⟩ => ⟨S64x3, .f32⟩
  | .hbm, ⟨10, _⟩ => ⟨S64x3, .f32⟩
  | .hbm, ⟨11, _⟩ => ⟨S64x1, .f32⟩
  | .hbm, ⟨12, _⟩ => ⟨S64x7, .f32⟩
  | .hbm, ⟨13, _⟩ => ⟨S64x3, .f32⟩
  | .hbm, ⟨14, _⟩ => ⟨S64x1, .f32⟩
  | .hbm, ⟨15, _⟩ => ⟨S64x7, .f32⟩
  | .hbm, ⟨16, _⟩ => ⟨S128x7, .f32⟩
  | .hbm, ⟨17, _⟩ => ⟨S_, .f32⟩
  | .hbm, ⟨18, _⟩ => ⟨S1x64, .f32⟩
  | .hbm, ⟨19, _⟩ => ⟨S1x64, .f32⟩
  | .hbm, ⟨20, _⟩ => ⟨S1x128, .f32⟩
  | .hbm, ⟨21, _⟩ => ⟨S1x64, .f32⟩
  | .hbm, ⟨22, _⟩ => ⟨S1x128, .f32⟩
  | .hbm, ⟨23, _⟩ => ⟨S2x128, .f32⟩
  | .hbm, ⟨24, _⟩ => ⟨S1x1, .f32⟩
  | .hbm, ⟨25, _⟩ => ⟨S1x1, .f32⟩
  | .hbm, ⟨26, _⟩ => ⟨S_, .f32⟩
  | .local _ .vmem, ⟨0, _⟩ => ⟨S3x8x32768, .f32⟩
  | .local _ .vmem, ⟨1, _⟩ => ⟨S3x8x32768, .f32⟩
  | .local _ .vmem, ⟨2, _⟩ => ⟨S3x8x32768, .f32⟩
  | .local _ .vmem, ⟨3, _⟩ => ⟨S3x8x32768, .f32⟩
  | .local _ .vmem, ⟨4, _⟩ => ⟨S128x7, .f32⟩
  | .local _ .vmem, ⟨5, _⟩ => ⟨S2x128, .f32⟩
  | .local _ .vmem, ⟨6, _⟩ => ⟨S1x1, .f32⟩
  | .local _ .vmem, ⟨7, _⟩ => ⟨S1x1, .f32⟩
  | .local _ .vmem, ⟨8, _⟩ => ⟨S8x1, .f32⟩
  | _, _ => ⟨S8x65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v194 : BitVec 1 := Scalar.cmpi .eq arg0 c1_i32
  let v195 : BitVec 32 := Scalar.extui v194
  let c0_i32_119 : BitVec 32 := 0#32
  let v196 : BitVec 1 := Scalar.cmpi .ne v195 c0_i32_119
  v196

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x8x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  transposes_S8x65536x3_S3x8x65536_2_0_1 : S8x65536x3.Transposes [2, 0, 1] S3x8x65536
  bcast_S_S64x3 : S_.BroadcastsInDim S64x3 (![] : Fin 0 → Fin S64x3.rank)
  transposes_S3x64_S64x3_1_0 : S3x64.Transposes [1, 0] S64x3
  bcast_S64_S64x1_0 : S64.BroadcastsInDim S64x1 (![0] : Fin 1 → Fin S64x1.rank)
  concatenates_S64x3_S64x3_S64x1_S64x7_d1 : Shape.Concatenates [S64x3, S64x3, S64x1] S64x7 1
  concatenates_S64x7_S64x7_S128x7_d0 : Shape.Concatenates [S64x7, S64x7] S128x7 0
  bcast_S_S1x64 : S_.BroadcastsInDim S1x64 (![] : Fin 0 → Fin S1x64.rank)
  transposes_S64x1_S1x64_1_0 : S64x1.Transposes [1, 0] S1x64
  concatenates_S1x64_S1x64_S1x128_d1 : Shape.Concatenates [S1x64, S1x64] S1x128 1
  concatenates_S1x128_S1x128_S2x128_d0 : Shape.Concatenates [S1x128, S1x128] S2x128 0
  shapeCasts_S1_S1x1 : S1.ShapeCasts S1x1
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S128x7_S128x7_0_0 : ∀ a, (![0, 0] : Fin 2 → Nat) a + S128x7.size a ≤ S128x7.size a
  h_S128x7 : 0 < S128x7.numel
  shapeCasts_S128x7_S128x7 : S128x7.ShapeCasts S128x7
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S3x8x32768_S3x1x32768_0_0_0 : ∀ a, (![0, 0, 0] : Fin 3 → Nat) a + S3x1x32768.size a ≤ S3x8x32768.size a
  h_S3x1x32768 : 0 < S3x1x32768.numel
  shapeCasts_S3x1x32768_S3x32768 : S3x1x32768.ShapeCasts S3x32768
  concatenates_S3x32768_S3x32768_S1x32768_S7x32768_d0 : Shape.Concatenates [S3x32768, S3x32768, S1x32768] S7x32768 0
  broadcasts_S1x1_S2x32768 : S1x1.Broadcasts S2x32768
  slices_S2x32768_o0_0_S1x32768 : S2x32768.Slices ![0, 0] S1x32768
  slices_S2x32768_o1_0_S1x32768 : S2x32768.Slices ![1, 0] S1x32768
  inb_S8x1_S1x1_0_0 : ∀ a, (![0, 0] : Fin 2 → Nat) a + S1x1.size a ≤ S8x1.size a
  reduces_S1x32768_S1 : S1x32768.Reduces [1] S1
  inb_S3x8x32768_S3x1x32768_0_1_0 : ∀ a, (![0, 1, 0] : Fin 3 → Nat) a + S3x1x32768.size a ≤ S3x8x32768.size a
  inb_S8x1_S1x1_1_0 : ∀ a, (![1, 0] : Fin 2 → Nat) a + S1x1.size a ≤ S8x1.size a
  inb_S3x8x32768_S3x1x32768_0_2_0 : ∀ a, (![0, 2, 0] : Fin 3 → Nat) a + S3x1x32768.size a ≤ S3x8x32768.size a
  inb_S8x1_S1x1_2_0 : ∀ a, (![2, 0] : Fin 2 → Nat) a + S1x1.size a ≤ S8x1.size a
  inb_S3x8x32768_S3x1x32768_0_3_0 : ∀ a, (![0, 3, 0] : Fin 3 → Nat) a + S3x1x32768.size a ≤ S3x8x32768.size a
  inb_S8x1_S1x1_3_0 : ∀ a, (![3, 0] : Fin 2 → Nat) a + S1x1.size a ≤ S8x1.size a
  inb_S3x8x32768_S3x1x32768_0_4_0 : ∀ a, (![0, 4, 0] : Fin 3 → Nat) a + S3x1x32768.size a ≤ S3x8x32768.size a
  inb_S8x1_S1x1_4_0 : ∀ a, (![4, 0] : Fin 2 → Nat) a + S1x1.size a ≤ S8x1.size a
  inb_S3x8x32768_S3x1x32768_0_5_0 : ∀ a, (![0, 5, 0] : Fin 3 → Nat) a + S3x1x32768.size a ≤ S3x8x32768.size a
  inb_S8x1_S1x1_5_0 : ∀ a, (![5, 0] : Fin 2 → Nat) a + S1x1.size a ≤ S8x1.size a
  inb_S3x8x32768_S3x1x32768_0_6_0 : ∀ a, (![0, 6, 0] : Fin 3 → Nat) a + S3x1x32768.size a ≤ S3x8x32768.size a
  inb_S8x1_S1x1_6_0 : ∀ a, (![6, 0] : Fin 2 → Nat) a + S1x1.size a ≤ S8x1.size a
  inb_S3x8x32768_S3x1x32768_0_7_0 : ∀ a, (![0, 7, 0] : Fin 3 → Nat) a + S3x1x32768.size a ≤ S3x8x32768.size a
  inb_S8x1_S1x1_7_0 : ∀ a, (![7, 0] : Fin 2 → Nat) a + S1x1.size a ≤ S8x1.size a
  shapeCasts_S8x1_S1x8x1 : S8x1.ShapeCasts S1x8x1
  reduces_S1x8x1_S1 : S1x8x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  dot_S128x7_S7x32768_S128x32768_1_0_0_1_n_n_wf : DotDims.WF S128x7 S7x32768 S128x32768 [1] [0] [0] [1] [] []
  dot_S2x128_S128x32768_S2x32768_1_0_0_1_n_n_wf : DotDims.WF S2x128 S128x32768 S2x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x8x32768.size a ≤ S3x8x65536.size a
  hwx0_0 : ∀ i : grid0.Coords, EltTy.bits .f32 = 32 ∨ (Rect.block (s := S3x8x65536) S3x8x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x8x32768.size a ≤ S3x8x65536.size a
  hwx0_1 : ∀ i : grid0.Coords, EltTy.bits .f32 = 32 ∨ (Rect.block (s := S3x8x65536) S3x8x32768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x7.size a ≤ S128x7.size a
  hwx0_2 : ∀ i : grid0.Coords, EltTy.bits .f32 = 32 ∨ (Rect.block (s := S128x7) S128x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128.size a ≤ S2x128.size a
  hwx0_3 : ∀ i : grid0.Coords, EltTy.bits .f32 = 32 ∨ (Rect.block (s := S2x128) S2x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S128x7_S7x32768_S128x32768_1_0_0_1_n_n : DotDims S128x7 S7x32768 S128x32768 where
  lhsContracting := [1]
  rhsContracting := [0]
  lhsNonContracting := [0]
  rhsNonContracting := [1]
  lhsBatch := []
  rhsBatch := []
  wf := dot_S128x7_S7x32768_S128x32768_1_0_0_1_n_n_wf
def dot_S2x128_S128x32768_S2x32768_1_0_0_1_n_n : DotDims S2x128 S128x32768 S2x32768 where
  lhsContracting := [1]
  rhsContracting := [0]
  lhsNonContracting := [0]
  rhsNonContracting := [1]
  lhsBatch := []
  rhsBatch := []
  wf := dot_S2x128_S128x32768_S2x32768_1_0_0_1_n_n_wf

abbrev win0_0 : Pipeline.Window sig grid0 :=
  Pipeline.Window.ofSpec (Memref.whole main_v0) S3x8x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x8x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x65536x3 : Shape := ⟨3, ![8, 65536, 3]⟩
abbrev S3x64 : Shape := ⟨2, ![3, 64]⟩
abbrev S64 : Shape := ⟨1, ![64]⟩
abbrev S64x1 : Shape := ⟨2, ![64, 1]⟩
abbrev S1 : Shape := ⟨1, ![1]⟩
abbrev S8x65536x64 : Shape := ⟨3, ![8, 65536, 64]⟩
abbrev S1x1x64 : Shape := ⟨3, ![1, 1, 64]⟩
abbrev S_ : Shape := ⟨0, ![]⟩
abbrev S8x65536x1 : Shape := ⟨3, ![8, 65536, 1]⟩
abbrev S1x1x1 : Shape := ⟨3, ![1, 1, 1]⟩
abbrev S8 : Shape := ⟨1, ![8]⟩

abbrev nBuf : Space → Nat
  | .hbm => 44
  | .vmem => 0
  | .smem => 0
  | _ => 0

abbrev bufTy : (tb : Table) → Fin (tcTables nBuf tb) → BufTy
  | .hbm, ⟨0, _⟩ => ⟨S8x65536x3, .f32⟩
  | .hbm, ⟨1, _⟩ => ⟨S8x65536x3, .f32⟩
  | .hbm, ⟨2, _⟩ => ⟨S3x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S8x65536x64, .f32⟩
  | .hbm, ⟨7, _⟩ => ⟨S1x1x64, .f32⟩
  | .hbm, ⟨8, _⟩ => ⟨S8x65536x64, .f32⟩
  | .hbm, ⟨9, _⟩ => ⟨S8x65536x64, .f32⟩
  | .hbm, ⟨10, _⟩ => ⟨S_, .f32⟩
  | .hbm, ⟨11, _⟩ => ⟨S8x65536x64, .f32⟩
  | .hbm, ⟨12, _⟩ => ⟨S8x65536x64, .f32⟩
  | .hbm, ⟨13, _⟩ => ⟨S8x65536x1, .f32⟩
  | .hbm, ⟨14, _⟩ => ⟨S1x1x1, .f32⟩
  | .hbm, ⟨15, _⟩ => ⟨S8x65536x1, .f32⟩
  | .hbm, ⟨16, _⟩ => ⟨S8x65536x1, .f32⟩
  | .hbm, ⟨17, _⟩ => ⟨S_, .f32⟩
  | .hbm, ⟨18, _⟩ => ⟨S8x65536x1, .f32⟩
  | .hbm, ⟨19, _⟩ => ⟨S8x65536x1, .f32⟩
  | .hbm, ⟨20, _⟩ => ⟨S_, .f32⟩
  | .hbm, ⟨21, _⟩ => ⟨S8, .f32⟩
  | .hbm, ⟨22, _⟩ => ⟨S8x65536x64, .f32⟩
  | .hbm, ⟨23, _⟩ => ⟨S1x1x64, .f32⟩
  | .hbm, ⟨24, _⟩ => ⟨S8x65536x64, .f32⟩
  | .hbm, ⟨25, _⟩ => ⟨S8x65536x64, .f32⟩
  | .hbm, ⟨26, _⟩ => ⟨S_, .f32⟩
  | .hbm, ⟨27, _⟩ => ⟨S8x65536x64, .f32⟩
  | .hbm, ⟨28, _⟩ => ⟨S8x65536x64, .f32⟩
  | .hbm, ⟨29, _⟩ => ⟨S8x65536x1, .f32⟩
  | .hbm, ⟨30, _⟩ => ⟨S1x1x1, .f32⟩
  | .hbm, ⟨31, _⟩ => ⟨S8x65536x1, .f32⟩
  | .hbm, ⟨32, _⟩ => ⟨S8x65536x1, .f32⟩
  | .hbm, ⟨33, _⟩ => ⟨S_, .f32⟩
  | .hbm, ⟨34, _⟩ => ⟨S8x65536x1, .f32⟩
  | .hbm, ⟨35, _⟩ => ⟨S8x65536x1, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S8, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S8x65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call1_cst : Ref sig .tc := ⟨.hbm, 17, rfl⟩
abbrev main_call1_v0 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call2_cst : Ref sig .tc := ⟨.hbm, 26, rfl⟩
abbrev main_call2_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call3_cst : Ref sig .tc := ⟨.hbm, 33, rfl⟩
abbrev main_call3_v0 : Ref sig .tc := ⟨.hbm, 34, rfl⟩
abbrev main_v20 : Ref sig .tc := ⟨.hbm, 35, rfl⟩
abbrev main_cst_0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x65536x64_0_1_2 : S1x1x64.BroadcastsInDim S8x65536x64 (![0, 1, 2] : Fin 3 → Fin S8x65536x64.rank)
  bcast_S_S8x65536x64 : S_.BroadcastsInDim S8x65536x64 (![] : Fin 0 → Fin S8x65536x64.rank)
  bcast_S1_S1x1x1_2 : S1.BroadcastsInDim S1x1x1 (![2] : Fin 1 → Fin S1x1x1.rank)
  bcast_S1x1x1_S8x65536x1_0_1_2 : S1x1x1.BroadcastsInDim S8x65536x1 (![0, 1, 2] : Fin 3 → Fin S8x65536x1.rank)
  bcast_S_S8x65536x1 : S_.BroadcastsInDim S8x65536x1 (![] : Fin 0 → Fin S8x65536x1.rank)
  reducesTo_S8x65536x1_S8_d1_2 : S8x65536x1.ReducesTo [1, 2] S8
  h_S_ : 0 < S_.numel
  reducesTo_S8_S_d0 : S8.ReducesTo [0] S_
  dot_S8x65536x3_S3x64_S8x65536x64_2_0_01_1_n_n_wf : DotDims.WF S8x65536x3 S3x64 S8x65536x64 [2] [0] [0, 1] [1] [] []
  dot_S8x65536x64_S64x1_S8x65536x1_2_0_01_1_n_n_wf : DotDims.WF S8x65536x64 S64x1 S8x65536x1 [2] [0] [0, 1] [1] [] []

variable [Facts₀]

def dot_S8x65536x3_S3x64_S8x65536x64_2_0_01_1_n_n : DotDims S8x65536x3 S3x64 S8x65536x64 where
  lhsContracting := [2]
  rhsContracting := [0]
  lhsNonContracting := [0, 1]
  rhsNonContracting := [1]
  lhsBatch := []
  rhsBatch := []
  wf := dot_S8x65536x3_S3x64_S8x65536x64_2_0_01_1_n_n_wf
def dot_S8x65536x64_S64x1_S8x65536x1_2_0_01_1_n_n : DotDims S8x65536x64 S64x1 S8x65536x1 where
  lhsContracting := [2]
  rhsContracting := [0]
  lhsNonContracting := [0, 1]
  rhsNonContracting := [1]
  lhsBatch := []
  rhsBatch := []
  wf := dot_S8x65536x64_S64x1_S8x65536x1_2_0_01_1_n_n_wf

class Facts : Prop extends Facts₀ where

variable [Facts]
-- ==== Proof.KernelEntry.lean ====
/-
  The kernel's one region inside @main, before anything is run.

  @main is nineteen host lines (two transposes of the point clouds to coordinate-major planes, the two packed weight
  matrices built by concatenation, the second bias reshaped), the region, and one reshape of the region's 1×1 result
  to a scalar.  This module fixes what the region finds: the contents `V` of every buffer after the host lines
  before it; that those lines write no argument; each window's block at a grid point read off `V`; and that every
  input window's staging buffer holds its block at every point, fetched there or kept from the point before.

  The grid has two points.  The body zeroes its 8×1 accumulator when the coordinate is 0 and writes the result block
  when it is 1; both conditions are decided here over the grid, with the idleness of the output window they imply.
-/
import proofs.«119227_g12171937316930_cont_fleet_1064_14_alg».proof.Proof.Gen.Kernel.Launch
import proofs.«119227_g12171937316930_cont_fleet_1064_14_alg».proof.Proof.Gen.Kernel.Skeleton
import proofs.«119227_g12171937316930_cont_fleet_1064_14_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the nineteen host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines before the region allocate nothing. -/
theorem hostOps0_fresh : (hostOps0 : List (HloOp τ sig (Elt F))).Forall fun op => op.fresh = ∅ := by
  simp only [List.Forall]; repeat' constructor

/-- Nor does the reshape after it. -/
theorem hostOps1_fresh : (hostOps1 : List (HloOp τ sig (Elt F))).Forall fun op => op.fresh = ∅ := by
  simp only [List.Forall]; rfl

/-- @main is the host lines, the region, the reshape: it reduces to the region continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches the region's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And it writes the scalar result only, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- No host line before the region writes an argument: the region finds each as launched. -/
theorem V_arg (b : Ref sig .tc)
    (hb : ∀ op ∈ (List.flatten [hostOps0] : List (HloOp τ sig (Elt F))), Proc.devRef .tc b ∉ op.writes) (c : Dev nD) :
    V m c b = m ((c : Thread nD τ).loc b) :=
  StableHlo.after_of_forall_not_mem (b := Proc.devRef .tc b) _ _ hb

/-- The host lines before the region write none of the six arguments. -/
theorem hostOps0_keeps_args : ∀ b ∈ ([main_arg0, main_arg1, main_arg2, main_arg3, main_arg4, main_arg5] : List (Ref sig .tc)),
    ∀ op ∈ (List.flatten [hostOps0] : List (HloOp τ sig (Elt F))), Proc.devRef .tc b ∉ op.writes := by
  intro b hb
  refine List.forall_iff_forall_mem.mp ?_
  simp only [List.mem_cons, List.mem_nil_iff, or_false] at hb
  rcases hb with rfl | rfl | rfl | rfl | rfl | rfl
  all_goals
    simp only [hostOps0, List.flatten_cons, List.flatten_nil, List.append_nil, List.cons_append,
      List.nil_append, List.Forall, StableHlo.nullary_writes, StableHlo.unary_writes, StableHlo.binary_writes,
      StableHlo.nary_writes, StableHlo.reshape_writes, Finset.mem_singleton]
    repeat' apply And.intro
    all_goals exact StableHlo.devRef_ne_of_ne (by decide)

theorem V_main_arg0 (c : Dev nD) : V m c main_arg0 = m ((c : Thread nD τ).loc main_arg0) :=
  V_arg m main_arg0 (hostOps0_keeps_args main_arg0 (by simp)) c
theorem V_main_arg1 (c : Dev nD) : V m c main_arg1 = m ((c : Thread nD τ).loc main_arg1) :=
  V_arg m main_arg1 (hostOps0_keeps_args main_arg1 (by simp)) c
theorem V_main_arg2 (c : Dev nD) : V m c main_arg2 = m ((c : Thread nD τ).loc main_arg2) :=
  V_arg m main_arg2 (hostOps0_keeps_args main_arg2 (by simp)) c
theorem V_main_arg3 (c : Dev nD) : V m c main_arg3 = m ((c : Thread nD τ).loc main_arg3) :=
  V_arg m main_arg3 (hostOps0_keeps_args main_arg3 (by simp)) c
theorem V_main_arg4 (c : Dev nD) : V m c main_arg4 = m ((c : Thread nD τ).loc main_arg4) :=
  V_arg m main_arg4 (hostOps0_keeps_args main_arg4 (by simp)) c
theorem V_main_arg5 (c : Dev nD) : V m c main_arg5 = m ((c : Thread nD τ).loc main_arg5) :=
  V_arg m main_arg5 (hostOps0_keeps_args main_arg5 (by simp)) c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the entry contents and whose body leaves the block in place: the two point-cloud windows are
    fetched at both points, the three weight windows at the first only and their index does not move. One statement
    per window, the window a literal so that its block's shape computes. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- The accumulator is zeroed: the coordinate is 0. -/
abbrev condInit (i : grid0.Coords) : Prop := (Scalar.cmpi .ne (Scalar.extui (Scalar.cmpi .eq (BitVec.ofNat 32 (i 0).val) 0#32)) 0#32) = 1#1
theorem hcondInit : ∀ t : Fin cfg0.N, condInit (grid0.coords t) ↔ t.val = 0 :=
  (by decide +kernel : ∀ t : Fin grid0.N, condInit (grid0.coords t) ↔ t.val = 0)

/-- The result is written: the coordinate is 1. -/
abbrev condFin (i : grid0.Coords) : Prop := k0_cond2 i = 1#1
theorem hcondFin : ∀ t : Fin cfg0.N, condFin (grid0.coords t) ↔ t.val = 1 :=
  (by decide +kernel : ∀ t : Fin grid0.N, condFin (grid0.coords t) ↔ t.val = 1)

/-- The five input windows are never idle. -/
theorem liveIn : ∀ w : Fin cfg0.W, w.val < 5 → ∀ i, cfg0.idle w i = false := by decide +kernel
/-- At the first point the output window is idle and not written back. -/
theorem idleOut_first : ∀ t : Fin cfg0.N, ¬condFin (grid0.coords t) → cfg0.idle 5 (grid0.coords t) = true := by decide +kernel
theorem noFlushOut_first : ∀ t : Fin cfg0.N, ¬condFin (grid0.coords t) → (cfg0.win 5).flush t = false := by decide +kernel
/-- At the last point it is live. -/
theorem liveOut_last : ∀ t : Fin cfg0.N, condFin (grid0.coords t) → cfg0.idle 5 (grid0.coords t) = false := by decide +kernel

/-! ## The memrefs the body is called on -/

abbrev ms0 (t : Fin cfg0.N) : Memref sig .tc .vmem S3x8x32768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x8x32768 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x7 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)
/-- The 8×1 accumulator: a whole scoped buffer of the kernel's own. -/
abbrev accM : Memref sig .tc .vmem S8x1 .f32 := Memref.whole cc0_scratch0
/-- The accumulator as a view: what it holds is stated through it. -/
abbrev accV : View sig .tc .vmem S8x1 .f32 := accM.view
/-- The output window's one staging buffer as a view. -/
abbrev outV : View sig .tc .vmem S1x1 .f32 := (Memref.whole cc0_stg5_0 : Memref sig .tc .vmem S1x1 .f32).view

/-- The region's invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Fr

end
-- ==== Proof.KernelRunFirst.lean ====
/-
  The body at the grid's FIRST point: the accumulator is zeroed, the result block is not written.

  On whole staging memrefs holding the five input blocks, the output window's buffer at any contents (handed back
  untouched: the window is idle here) and the accumulator at any contents, the body runs to its end and leaves the
  inputs as they were and the accumulator with a list of stores written: the whole-buffer zero, then one 1×1 store
  per diagram row.  The list is not stated but found: it is the witness the symbolic run produces.
-/
import proofs.«119227_g12171937316930_cont_fleet_1064_14_alg».proof.Proof.KernelEntry

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first point's run: the pieces the accumulator ends with (last store first), with the triple. -/
noncomputable def runFirst (c : Dev nD) (i : grid0.Coords) (arg1 : Memref sig .tc .vmem S3x8x32768 .f32) (harg1 : arg1.IsWhole) (arg2 : Memref sig .tc .vmem S3x8x32768 .f32) (harg2 : arg2.IsWhole) (arg3 : Memref sig .tc .vmem S128x7 .f32) (harg3 : arg3.IsWhole) (arg4 : Memref sig .tc .vmem S2x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x1 .f32) (harg7 : arg7.IsWhole) (hc0 : condInit i) (hc1 : ¬condFin i)
    (x1 : Vec F S3x8x32768 .f32) (x2 : Vec F S3x8x32768 .f32) (x3 : Vec F S128x7 .f32) (x4 : Vec F S2x128 .f32) (x5 : Vec F S1x1 .f32) :
    { LS : List (View.Piece (Elt F) S8x1 .f32) //
      ∀ (xi6 : Vec F S1x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi6 ∗ (∃ d, owns (c : Thread nD τ) arg7 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi6 ∗ (∃ f, arg7.view.loc (c : Thread nD τ) ↦[arg7.view.set]{fullShare} arg7.view.writes (Elt F) f LS)) -∗ K ⟨⟩))
          ⊢ wp frame (wpE (defs₀ (F := F)) Variants.none c none) E (cc0__mlp_kernel i arg1 harg1 arg2 harg2 arg3 harg3 arg4 harg4 arg5 harg5 arg6 harg6 arg7 harg7) K } := by
  refine ⟨?_, fun xi6 E K => ?run⟩
  case run =>
    simp only [cc0__mlp_kernel_eq_skeleton]; unfold cc0__mlp_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

end Cert.Kernel.Fr

end
-- ==== Proof.KernelRunLast.lean ====
/-
  The body at the grid's LAST point: the accumulator is not zeroed, the result block is written.

  On whole staging memrefs holding the five input blocks, the accumulator at what the first point left in it and the
  output window's buffer at any contents, the body runs to its end and leaves the inputs as they were, the accumulator
  with one 1×1 store per diagram row written over what it held, and the output buffer with its one store written.
  Both lists of stores are the witness the symbolic run produces.
-/
import proofs.«119227_g12171937316930_cont_fleet_1064_14_alg».proof.Proof.KernelRunFirst

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The last point's run: the pieces the output buffer and the accumulator end with (last store first), with the triple. -/
noncomputable def runLast (c : Dev nD) (i : grid0.Coords) (arg1 : Memref sig .tc .vmem S3x8x32768 .f32) (harg1 : arg1.IsWhole) (arg2 : Memref sig .tc .vmem S3x8x32768 .f32) (harg2 : arg2.IsWhole) (arg3 : Memref sig .tc .vmem S128x7 .f32) (harg3 : arg3.IsWhole) (arg4 : Memref sig .tc .vmem S2x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x1 .f32) (harg7 : arg7.IsWhole) (hc0 : ¬condInit i) (hc1 : condFin i)
    (x1 : Vec F S3x8x32768 .f32) (x2 : Vec F S3x8x32768 .f32) (x3 : Vec F S128x7 .f32) (x4 : Vec F S2x128 .f32) (x5 : Vec F S1x1 .f32) (xs : Vec F S8x1 .f32) :
    Σ' (L6 : List (View.Piece (Elt F) S1x1 .f32)), { LS : List (View.Piece (Elt F) S8x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS)) -∗ K ⟨⟩))
          ⊢ wp frame (wpE (defs₀ (F := F)) Variants.none c none) E (cc0__mlp_kernel i arg1 harg1 arg2 harg2 arg3 harg3 arg4 harg4 arg5 harg5 arg6 harg6 arg7 harg7) K } := by
  refine ⟨?_, ?_, fun E K => ?run⟩
  case run =>
    simp only [cc0__mlp_kernel_eq_skeleton]; unfold cc0__mlp_kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg1.eq_unread hf1; obtain rfl := harg2.eq_unread hf2; obtain rfl := harg3.eq_unread hf3
    obtain rfl := harg4.eq_unread hf4; obtain rfl := harg5.eq_unread hf5; obtain rfl := harg7.eq_unread hfs
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact HS

end Cert.Kernel.Fr

end
-- ==== Proof.KernelFrame.lean ====
/-
  The kernel's region run over its two grid points, and @main's frame.

  After the first point the 8×1 accumulator holds what that point's stores left (a zero, then each diagram row's sum
  over the first half of the points added to it); after the last point it holds the second half added on top, and the
  output window's 1×1 buffer holds the mean of the squared accumulator.  These contents are read back from the store
  lists the two runs found.  The proof data hands each input window its block at both points, the output window what
  the last point stored, and carries the accumulator through the region's invariant.  The library's launch theorem
  then gives the run of the whole @main, and the frame claim follows: no argument is an array the region writes.
-/
import proofs.«119227_g12171937316930_cont_fleet_1064_14_alg».proof.Proof.KernelRunLast

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- The first point's stores into the accumulator cover it: the eight row stores tile it in 1×1 blocks. -/
theorem coverAccFirst (c : Dev nD) (y : S8x1.Idx) :
    ∃ pc ∈ (runFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) accM (Memref.isWhole_whole _) ((hcondInit t0_0).mpr rfl) (fun h => absurd ((hcondFin t0_0).mp h) (by decide)) (iblk m c 0 t0_0) (iblk m c 1 t0_0) (iblk m c 2 t0_0) (iblk m c 3 t0_0) (iblk m c 4 t0_0)).1, y ∈ pc.1.set :=
  View.cover_of_tiledL (s := S8x1) _ S1x1.size (by sl_kernel_rfl) y

/-- What the first point leaves in the accumulator: its stores read back. -/
def accFirst (c : Dev nD) : Vec F S8x1 .f32 :=
  accV.read (Elt F) (accV.writes (Elt F) accV.junk (runFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) accM (Memref.isWhole_whole _) ((hcondInit t0_0).mpr rfl) (fun h => absurd ((hcondFin t0_0).mp h) (by decide)) (iblk m c 0 t0_0) (iblk m c 1 t0_0) (iblk m c 2 t0_0) (iblk m c 3 t0_0) (iblk m c 4 t0_0)).1)

/-- The last point's stores into the accumulator cover it likewise. -/
theorem coverAccLast (c : Dev nD) (y : S8x1.Idx) :
    ∃ pc ∈ (runLast c (grid0.coords t0_1) (ms0 t0_1) (hs0 t0_1) (ms1 t0_1) (hs1 t0_1) (ms2 t0_1) (hs2 t0_1) (ms3 t0_1) (hs3 t0_1) (ms4 t0_1) (hs4 t0_1) (ms5 t0_1) (hs5 t0_1) accM (Memref.isWhole_whole _) (fun h => absurd ((hcondInit t0_1).mp h) (by decide)) ((hcondFin t0_1).mpr rfl) (iblk m c 0 t0_1) (iblk m c 1 t0_1) (iblk m c 2 t0_1) (iblk m c 3 t0_1) (iblk m c 4 t0_1) (accFirst m c)).2.1, y ∈ pc.1.set :=
  View.cover_of_tiledL (s := S8x1) _ S1x1.size (by sl_kernel_rfl) y

/-- What the last point leaves in the accumulator. -/
def accLast (c : Dev nD) : Vec F S8x1 .f32 :=
  accV.read (Elt F) (accV.writes (Elt F) accV.junk (runLast c (grid0.coords t0_1) (ms0 t0_1) (hs0 t0_1) (ms1 t0_1) (hs1 t0_1) (ms2 t0_1) (hs2 t0_1) (ms3 t0_1) (hs3 t0_1) (ms4 t0_1) (hs4 t0_1) (ms5 t0_1) (hs5 t0_1) accM (Memref.isWhole_whole _) (fun h => absurd ((hcondInit t0_1).mp h) (by decide)) ((hcondFin t0_1).mpr rfl) (iblk m c 0 t0_1) (iblk m c 1 t0_1) (iblk m c 2 t0_1) (iblk m c 3 t0_1) (iblk m c 4 t0_1) (accFirst m c)).2.1)

/-- The last point's one store into the output window's buffer covers it. -/
theorem coverOutLast (c : Dev nD) (y : S1x1.Idx) :
    ∃ pc ∈ (runLast c (grid0.coords t0_1) (ms0 t0_1) (hs0 t0_1) (ms1 t0_1) (hs1 t0_1) (ms2 t0_1) (hs2 t0_1) (ms3 t0_1) (hs3 t0_1) (ms4 t0_1) (hs4 t0_1) (ms5 t0_1) (hs5 t0_1) accM (Memref.isWhole_whole _) (fun h => absurd ((hcondInit t0_1).mp h) (by decide)) ((hcondFin t0_1).mpr rfl) (iblk m c 0 t0_1) (iblk m c 1 t0_1) (iblk m c 2 t0_1) (iblk m c 3 t0_1) (iblk m c 4 t0_1) (accFirst m c)).1, y ∈ pc.1.set :=
  View.cover_of_tiledL (s := S1x1) _ S1x1.size (by sl_kernel_rfl) y

/-- What the last point leaves in the output window's buffer. -/
def outLast (c : Dev nD) : Vec F S1x1 .f32 :=
  outV.read (Elt F) (outV.writes (Elt F) outV.junk (runLast c (grid0.coords t0_1) (ms0 t0_1) (hs0 t0_1) (ms1 t0_1) (hs1 t0_1) (ms2 t0_1) (hs2 t0_1) (ms3 t0_1) (hs3 t0_1) (ms4 t0_1) (hs4 t0_1) (ms5 t0_1) (hs5 t0_1) accM (Memref.isWhole_whole _) (fun h => absurd ((hcondInit t0_1).mp h) (by decide)) ((hcondFin t0_1).mpr rfl) (iblk m c 0 t0_1) (iblk m c 1 t0_1) (iblk m c 2 t0_1) (iblk m c 3 t0_1) (iblk m c 4 t0_1) (accFirst m c)).1)

/-- The output window's buffer after each point: at the first it is idle (a placeholder nothing consults), at the last
    it holds the result. -/
def outAt (c : Dev nD) (t : Fin cfg0.N) : Vec F S1x1 .f32 :=
  if t.val = 0 then outV.read (Elt F) outV.junk else outLast m c

/-- The region's invariant before position `n`: before the first point the accumulator at anything; then at what the
    point before left. -/
def PhiS (c : Dev nD) : (n : ℕ) → sProp 𝕄
  | 0 => Pipeline.ΦA spec0 c
  | 1 => iprop(iprop(owns (c : Thread nD τ) accM fullShare (accFirst m c)) ∗ (∃ r, prngReg c r))
  | _ + 2 => iprop(iprop(owns (c : Thread nD τ) accM fullShare (accLast m c)) ∗ (∃ r, prngReg c r))

/-! ## The proof data -/

/-- Core `c`'s proof data: the arrays as the region finds them; after the body each input's buffer at its block, the
    output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves_in (c : Dev nD) (t : Fin cfg0.N) :
    (dats m 0 c).leavesExact 0 t = owns (c : Thread nD τ) (ms0 t) fullShare (iblk m c 0 t)
    ∧ (dats m 0 c).leavesExact 1 t = owns (c : Thread nD τ) (ms1 t) fullShare (iblk m c 1 t)
    ∧ (dats m 0 c).leavesExact 2 t = owns (c : Thread nD τ) (ms2 t) fullShare (iblk m c 2 t)
    ∧ (dats m 0 c).leavesExact 3 t = owns (c : Thread nD τ) (ms3 t) fullShare (iblk m c 3 t)
    ∧ (dats m 0 c).leavesExact 4 t = owns (c : Thread nD τ) (ms4 t) fullShare (iblk m c 4 t) := by
  refine ⟨?_, ?_, ?_, ?_, ?_⟩
  · unfold Dat.leavesExact; rw [liveIn 0 (by decide) _, after0]
  · unfold Dat.leavesExact; rw [liveIn 1 (by decide) _, after1]
  · unfold Dat.leavesExact; rw [liveIn 2 (by decide) _, after2]
  · unfold Dat.leavesExact; rw [liveIn 3 (by decide) _, after3]
  · unfold Dat.leavesExact; rw [liveIn 4 (by decide) _, after4]

set_option maxHeartbeats 4000000 in
/-- The body at the first point: the invariant hands it the accumulator at anything and takes it back at what the
    point's stores left; the output window is idle and handed back untouched. -/
theorem sound_first (c : Dev nD) :
    bodyPre m c t0_0 ⊢ wp frame (wpE (defs₀ (F := F)) Variants.none c none) Set.univ (bodyAt0 t0_0) (fun _ => bodyPost m c t0_0) := by
  unfold bodyPre bodyPost bodyAt0
  simp only [before0, before1, before2, before3, before4]
  rw [show (dats m 0 c).owesAt () t0_0.succ = (dats m 0 c).owesAt () t0_0.castSucc from rfl]
  rw [show (dats m 0 c).Φ t0_0.succ = iprop(iprop(owns (c : Thread nD τ) accM fullShare (accFirst m c)) ∗ (∃ r, prngReg c r)) from rfl]
  rw [show (dats m 0 c).Φ t0_0.castSucc = Pipeline.ΦA spec0 c from rfl, PhiA_eq]
  obtain ⟨e0, e1, e2, e3, e4⟩ := leaves_in m c t0_0
  rw [e0, e1, e2, e3, e4]
  rw [Dat.leavesExact_idle (dats m 0 c) 5 t0_0 (idleOut_first t0_0 (fun h => absurd ((hcondFin t0_0).mp h) (by decide))) (noFlushOut_first t0_0 (fun h => absurd ((hcondFin t0_0).mp h) (by decide)))]
  unfold accFirst
  iintro ⟨⟨HS, Hg⟩, Ho, ⟨%d0, H0⟩, ⟨%d1, H1⟩, ⟨%d2, H2⟩, ⟨%d3, H3⟩, ⟨%d4, H4⟩, ⟨%d5, H5⟩⟩
  iapply ((runFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) accM (Memref.isWhole_whole _) ((hcondInit t0_0).mpr rfl) (fun h => absurd ((hcondFin t0_0).mp h) (by decide)) (iblk m c 0 t0_0) (iblk m c 1 t0_0) (iblk m c 2 t0_0) (iblk m c 3 t0_0) (iblk m c 4 t0_0)).2 _ Set.univ _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, ⟨%es, HS⟩⟩
  isplitl [HS Hg]
  · isplitl [HS]
    · unfold owns; iexists _; isplitr
      swap; · iexact HS
      ipureintro; exact View.read_writes_of_cover _ _ _ _ _ (coverAccFirst m c)
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4000000 in
/-- The body at the last point: the invariant hands it the accumulator at what the first point left and takes it back
    at what this point's stores left; the output window's buffer ends at its one store. -/
theorem sound_last (c : Dev nD) :
    bodyPre m c t0_1 ⊢ wp frame (wpE (defs₀ (F := F)) Variants.none c none) Set.univ (bodyAt0 t0_1) (fun _ => bodyPost m c t0_1) := by
  unfold bodyPre bodyPost bodyAt0
  simp only [before0, before1, before2, before3, before4]
  rw [show (dats m 0 c).owesAt () t0_1.succ = (dats m 0 c).owesAt () t0_1.castSucc from rfl]
  rw [show (dats m 0 c).Φ t0_1.succ = iprop(iprop(owns (c : Thread nD τ) accM fullShare (accLast m c)) ∗ (∃ r, prngReg c r)) from rfl]
  rw [show (dats m 0 c).Φ t0_1.castSucc = iprop(iprop(owns (c : Thread nD τ) accM fullShare (accFirst m c)) ∗ (∃ r, prngReg c r)) from rfl]
  obtain ⟨e0, e1, e2, e3, e4⟩ := leaves_in m c t0_1
  rw [e0, e1, e2, e3, e4]
  rw [show (dats m 0 c).leavesExact 5 t0_1 = owns (c : Thread nD τ) (ms5 t0_1) fullShare ((dats m 0 c).after 5 t0_1) from by
    unfold Dat.leavesExact; rw [liveOut_last t0_1 ((hcondFin t0_1).mpr rfl)], after5]
  rw [show outAt m c t0_1 = outLast m c from rfl]
  unfold accLast outLast
  iintro ⟨⟨HS, Hg⟩, Ho, ⟨%d0, H0⟩, ⟨%d1, H1⟩, ⟨%d2, H2⟩, ⟨%d3, H3⟩, ⟨%d4, H4⟩, ⟨%d5, H5⟩⟩
  iapply ((runLast c (grid0.coords t0_1) (ms0 t0_1) (hs0 t0_1) (ms1 t0_1) (hs1 t0_1) (ms2 t0_1) (hs2 t0_1) (ms3 t0_1) (hs3 t0_1) (ms4 t0_1) (hs4 t0_1) (ms5 t0_1) (hs5 t0_1) accM (Memref.isWhole_whole _) (fun h => absurd ((hcondInit t0_1).mp h) (by decide)) ((hcondFin t0_1).mpr rfl) (iblk m c 0 t0_1) (iblk m c 1 t0_1) (iblk m c 2 t0_1) (iblk m c 3 t0_1) (iblk m c 4 t0_1) (accFirst m c)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%e5, H5⟩, ⟨%es, HS⟩⟩
  isplitl [HS Hg]
  · isplitl [HS]
    · unfold owns; iexists _; isplitr
      swap; · iexact HS
      ipureintro; exact View.read_writes_of_cover _ _ _ _ _ (coverAccLast m c)
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (coverOutLast m c)

/-- The library's body obligation, at both points. -/
theorem body_obligation (c : Dev nD) : BodyObligation (dats (F := F) m 0 c) (defs₀ (F := F)) Variants.none () Set.univ := fun t => by
  rw [bigSep_W0, bigSep_W0]
  rcases fin_N0 t with rfl | rfl
  · exact sound_first m c
  · exact sound_last m c

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives the launch its own back: the accumulator's contents are forgotten. -/
theorem hout (c : Dev nD) : (dats m 0 c).Φ (Fin.last cfg0.N) ⊢ Pipeline.ΦA spec0 c := by
  rw [show (dats m 0 c).Φ (Fin.last cfg0.N) = iprop(iprop(owns (c : Thread nD τ) accM fullShare (accLast m c)) ∗ (∃ r, prngReg c r)) from rfl, PhiA_eq]
  iintro ⟨HS, Hg⟩
  isplitl [HS]
  · iexists _; iexact HS
  iexact Hg

/-! ## The run and the frame -/

set_option backward.isDefEq.respectTransparency.types false in
/-- Every weakly fair execution of @main terminates, and every final state has every array of the region at what the
    library computes from the proof data and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- An argument is no array of the region and the reshape after the region does not write it: it ends as launched. -/
theorem tail_arg (c : Dev nD) (b : Ref sig .tc) (hb : ∀ w, Pipeline.arrRef spec0 w ≠ b)
    (hw : ∀ op ∈ (List.flatten [hostOps1] : List (HloOp τ sig (Elt F))), Proc.devRef .tc b ∉ op.writes)
    (hV : V m c b = m ((c : Thread nD τ).loc b)) :
    Pipeline.afterTail₀ cfgs (dats m) 0 (V0 m) [hostOps1] c b = m ((c : Thread nD τ).loc b) := by
  unfold Pipeline.afterTail₀
  rw [StableHlo.after_of_forall_not_mem (b := Proc.devRef .tc b) _ _ hw]
  exact (Pipeline.withArrays_of_ne _ c _ _ b hb).trans hV

theorem tail_keeps (b : Ref sig .tc) (hne : main_v18 ≠ b) :
    ∀ op ∈ (List.flatten [hostOps1] : List (HloOp τ sig (Elt F))), Proc.devRef .tc b ∉ op.writes := by
  refine List.forall_iff_forall_mem.mp ?_
  simp only [hostOps1, List.flatten_cons, List.flatten_nil, List.append_nil, List.Forall, StableHlo.reshape_writes, Finset.mem_singleton]
  exact StableHlo.devRef_ne_of_ne (Ne.symm hne)

/-- THE FRAME: @main runs to its end and its six arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_arg0 (Pipeline.mem_restRefs_of main_arg0 (by decide) (by decide))).trans (tail_arg m c main_arg0 (by decide) (tail_keeps main_arg0 (by decide)) (V_main_arg0 m c)),
      ((h c).2 main_arg1 (Pipeline.mem_restRefs_of main_arg1 (by decide) (by decide))).trans (tail_arg m c main_arg1 (by decide) (tail_keeps main_arg1 (by decide)) (V_main_arg1 m c)),
      ((h c).2 main_arg2 (Pipeline.mem_restRefs_of main_arg2 (by decide) (by decide))).trans (tail_arg m c main_arg2 (by decide) (tail_keeps main_arg2 (by decide)) (V_main_arg2 m c)),
      ((h c).2 main_arg3 (Pipeline.mem_restRefs_of main_arg3 (by decide) (by decide))).trans (tail_arg m c main_arg3 (by decide) (tail_keeps main_arg3 (by decide)) (V_main_arg3 m c)),
      ((h c).2 main_arg4 (Pipeline.mem_restRefs_of main_arg4 (by decide) (by decide))).trans (tail_arg m c main_arg4 (by decide) (tail_keeps main_arg4 (by decide)) (V_main_arg4 m c)),
      ((h c).2 main_arg5 (Pipeline.mem_restRefs_of main_arg5 (by decide) (by decide))).trans (tail_arg m c main_arg5 (by decide) (tail_keeps main_arg5 (by decide)) (V_main_arg5 m c))⟩)
    (run_main m ρ)

end Cert.Kernel.Fr

end
-- ==== Proof.KernelIdealEntry.lean ====
/-
  The kernel's one region inside @main, before anything is run.

  @main is nineteen host lines (two transposes of the point clouds to coordinate-major planes, the two packed weight
  matrices built by concatenation, the second bias reshaped), the region, and one reshape of the region's 1×1 result
  to a scalar.  This module fixes what the region finds: the contents `V` of every buffer after the host lines
  before it; that those lines write no argument; each window's block at a grid point read off `V`; and that every
  input window's staging buffer holds its block at every point, fetched there or kept from the point before.

  The grid has two points.  The body zeroes its 8×1 accumulator when the coordinate is 0 and writes the result block
  when it is 1; both conditions are decided here over the grid, with the idleness of the output window they imply.
-/
import proofs.«119227_g12171937316930_cont_fleet_1064_14_alg».proof.Proof.Gen.KernelIdeal.Launch
import proofs.«119227_g12171937316930_cont_fleet_1064_14_alg».proof.Proof.Gen.KernelIdeal.Skeleton
import proofs.«119227_g12171937316930_cont_fleet_1064_14_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the nineteen host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines before the region allocate nothing. -/
theorem hostOps0_fresh : (hostOps0 : List (HloOp τ sig (Elt F))).Forall fun op => op.fresh = ∅ := by
  simp only [List.Forall]; repeat' constructor

/-- Nor does the reshape after it. -/
theorem hostOps1_fresh : (hostOps1 : List (HloOp τ sig (Elt F))).Forall fun op => op.fresh = ∅ := by
  simp only [List.Forall]; rfl

/-- @main is the host lines, the region, the reshape: it reduces to the region continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches the region's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And it writes the scalar result only, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- No host line before the region writes an argument: the region finds each as launched. -/
theorem V_arg (b : Ref sig .tc)
    (hb : ∀ op ∈ (List.flatten [hostOps0] : List (HloOp τ sig (Elt F))), Proc.devRef .tc b ∉ op.writes) (c : Dev nD) :
    V m c b = m ((c : Thread nD τ).loc b) :=
  StableHlo.after_of_forall_not_mem (b := Proc.devRef .tc b) _ _ hb

/-- The host lines before the region write none of the six arguments. -/
theorem hostOps0_keeps_args : ∀ b ∈ ([main_arg0, main_arg1, main_arg2, main_arg3, main_arg4, main_arg5] : List (Ref sig .tc)),
    ∀ op ∈ (List.flatten [hostOps0] : List (HloOp τ sig (Elt F))), Proc.devRef .tc b ∉ op.writes := by
  intro b hb
  refine List.forall_iff_forall_mem.mp ?_
  simp only [List.mem_cons, List.mem_nil_iff, or_false] at hb
  rcases hb with rfl | rfl | rfl | rfl | rfl | rfl
  all_goals
    simp only [hostOps0, List.flatten_cons, List.flatten_nil, List.append_nil, List.cons_append,
      List.nil_append, List.Forall, StableHlo.nullary_writes, StableHlo.unary_writes, StableHlo.binary_writes,
      StableHlo.nary_writes, StableHlo.reshape_writes, Finset.mem_singleton]
    repeat' apply And.intro
    all_goals exact StableHlo.devRef_ne_of_ne (by decide)

theorem V_main_arg0 (c : Dev nD) : V m c main_arg0 = m ((c : Thread nD τ).loc main_arg0) :=
  V_arg m main_arg0 (hostOps0_keeps_args main_arg0 (by simp)) c
theorem V_main_arg1 (c : Dev nD) : V m c main_arg1 = m ((c : Thread nD τ).loc main_arg1) :=
  V_arg m main_arg1 (hostOps0_keeps_args main_arg1 (by simp)) c
theorem V_main_arg2 (c : Dev nD) : V m c main_arg2 = m ((c : Thread nD τ).loc main_arg2) :=
  V_arg m main_arg2 (hostOps0_keeps_args main_arg2 (by simp)) c
theorem V_main_arg3 (c : Dev nD) : V m c main_arg3 = m ((c : Thread nD τ).loc main_arg3) :=
  V_arg m main_arg3 (hostOps0_keeps_args main_arg3 (by simp)) c
theorem V_main_arg4 (c : Dev nD) : V m c main_arg4 = m ((c : Thread nD τ).loc main_arg4) :=
  V_arg m main_arg4 (hostOps0_keeps_args main_arg4 (by simp)) c
theorem V_main_arg5 (c : Dev nD) : V m c main_arg5 = m ((c : Thread nD τ).loc main_arg5) :=
  V_arg m main_arg5 (hostOps0_keeps_args main_arg5 (by simp)) c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the entry contents and whose body leaves the block in place: the two point-cloud windows are
    fetched at both points, the three weight windows at the first only and their index does not move. One statement
    per window, the window a literal so that its block's shape computes. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- The accumulator is zeroed: the coordinate is 0. -/
abbrev condInit (i : grid0.Coords) : Prop := (Scalar.cmpi .ne (Scalar.extui (Scalar.cmpi .eq (BitVec.ofNat 32 (i 0).val) 0#32)) 0#32) = 1#1
theorem hcondInit : ∀ t : Fin cfg0.N, condInit (grid0.coords t) ↔ t.val = 0 :=
  (by decide +kernel : ∀ t : Fin grid0.N, condInit (grid0.coords t) ↔ t.val = 0)

/-- The result is written: the coordinate is 1. -/
abbrev condFin (i : grid0.Coords) : Prop := k0_cond2 i = 1#1
theorem hcondFin : ∀ t : Fin cfg0.N, condFin (grid0.coords t) ↔ t.val = 1 :=
  (by decide +kernel : ∀ t : Fin grid0.N, condFin (grid0.coords t) ↔ t.val = 1)

/-- The five input windows are never idle. -/
theorem liveIn : ∀ w : Fin cfg0.W, w.val < 5 → ∀ i, cfg0.idle w i = false := by decide +kernel
/-- At the first point the output window is idle and not written back. -/
theorem idleOut_first : ∀ t : Fin cfg0.N, ¬condFin (grid0.coords t) → cfg0.idle 5 (grid0.coords t) = true := by decide +kernel
theorem noFlushOut_first : ∀ t : Fin cfg0.N, ¬condFin (grid0.coords t) → (cfg0.win 5).flush t = false := by decide +kernel
/-- At the last point it is live. -/
theorem liveOut_last : ∀ t : Fin cfg0.N, condFin (grid0.coords t) → cfg0.idle 5 (grid0.coords t) = false := by decide +kernel

/-! ## The memrefs the body is called on -/

abbrev ms0 (t : Fin cfg0.N) : Memref sig .tc .vmem S3x8x32768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S3x8x32768 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x7 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)
/-- The 8×1 accumulator: a whole scoped buffer of the kernel's own. -/
abbrev accM : Memref sig .tc .vmem S8x1 .f32 := Memref.whole cc0_scratch0
/-- The accumulator as a view: what it holds is stated through it. -/
abbrev accV : View sig .tc .vmem S8x1 .f32 := accM.view
/-- The output window's one staging buffer as a view. -/
abbrev outV : View sig .tc .vmem S1x1 .f32 := (Memref.whole cc0_stg5_0 : Memref sig .tc .vmem S1x1 .f32).view

/-- The region's invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Fr

end
-- ==== Proof.KernelIdealRunFirst.lean ====
/-
  The body at the grid's FIRST point: the accumulator is zeroed, the result block is not written.

  On whole staging memrefs holding the five input blocks, the output window's buffer at any contents (handed back
  untouched: the window is idle here) and the accumulator at any contents, the body runs to its end and leaves the
  inputs as they were and the accumulator with a list of stores written: the whole-buffer zero, then one 1×1 store
  per diagram row.  The list is not stated but found: it is the witness the symbolic run produces.
-/
import proofs.«119227_g12171937316930_cont_fleet_1064_14_alg».proof.Proof.KernelIdealEntry

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first point's run: the pieces the accumulator ends with (last store first), with the triple. -/
noncomputable def runFirst (c : Dev nD) (i : grid0.Coords) (arg1 : Memref sig .tc .vmem S3x8x32768 .f32) (harg1 : arg1.IsWhole) (arg2 : Memref sig .tc .vmem S3x8x32768 .f32) (harg2 : arg2.IsWhole) (arg3 : Memref sig .tc .vmem S128x7 .f32) (harg3 : arg3.IsWhole) (arg4 : Memref sig .tc .vmem S2x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x1 .f32) (harg7 : arg7.IsWhole) (hc0 : condInit i) (hc1 : ¬condFin i)
    (x1 : Vec F S3x8x32768 .f32) (x2 : Vec F S3x8x32768 .f32) (x3 : Vec F S128x7 .f32) (x4 : Vec F S2x128 .f32) (x5 : Vec F S1x1 .f32) :
    { LS : List (View.Piece (Elt F) S8x1 .f32) //
      ∀ (xi6 : Vec F S1x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi6 ∗ (∃ d, owns (c : Thread nD τ) arg7 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare xi6 ∗ (∃ f, arg7.view.loc (c : Thread nD τ) ↦[arg7.view.set]{fullShare} arg7.view.writes (Elt F) f LS)) -∗ K ⟨⟩))
          ⊢ wp frame (wpE (defs₀ (F := F)) Variants.none c none) E (cc0__mlp_kernel i arg1 harg1 arg2 harg2 arg3 harg3 arg4 harg4 arg5 harg5 arg6 harg6 arg7 harg7) K } := by
  refine ⟨?_, fun xi6 E K => ?run⟩
  case run =>
    simp only [cc0__mlp_kernel_eq_skeleton]; unfold cc0__mlp_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists _; iexact HS

end Cert.KernelIdeal.Fr

end
-- ==== Proof.KernelIdealRunLast.lean ====
/-
  The body at the grid's LAST point: the accumulator is not zeroed, the result block is written.

  On whole staging memrefs holding the five input blocks, the accumulator at what the first point left in it and the
  output window's buffer at any contents, the body runs to its end and leaves the inputs as they were, the accumulator
  with one 1×1 store per diagram row written over what it held, and the output buffer with its one store written.
  Both lists of stores are the witness the symbolic run produces.
-/
import proofs.«119227_g12171937316930_cont_fleet_1064_14_alg».proof.Proof.KernelIdealRunFirst

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The last point's run: the pieces the output buffer and the accumulator end with (last store first), with the triple. -/
noncomputable def runLast (c : Dev nD) (i : grid0.Coords) (arg1 : Memref sig .tc .vmem S3x8x32768 .f32) (harg1 : arg1.IsWhole) (arg2 : Memref sig .tc .vmem S3x8x32768 .f32) (harg2 : arg2.IsWhole) (arg3 : Memref sig .tc .vmem S128x7 .f32) (harg3 : arg3.IsWhole) (arg4 : Memref sig .tc .vmem S2x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x1 .f32) (harg7 : arg7.IsWhole) (hc0 : ¬condInit i) (hc1 : condFin i)
    (x1 : Vec F S3x8x32768 .f32) (x2 : Vec F S3x8x32768 .f32) (x3 : Vec F S128x7 .f32) (x4 : Vec F S2x128 .f32) (x5 : Vec F S1x1 .f32) (xs : Vec F S8x1 .f32) :
    Σ' (L6 : List (View.Piece (Elt F) S1x1 .f32)), { LS : List (View.Piece (Elt F) S8x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS)) -∗ K ⟨⟩))
          ⊢ wp frame (wpE (defs₀ (F := F)) Variants.none c none) E (cc0__mlp_kernel i arg1 harg1 arg2 harg2 arg3 harg3 arg4 harg4 arg5 harg5 arg6 harg6 arg7 harg7) K } := by
  refine ⟨?_, ?_, fun E K => ?run⟩
  case run =>
    simp only [cc0__mlp_kernel_eq_skeleton]; unfold cc0__mlp_kernel_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg1.eq_unread hf1; obtain rfl := harg2.eq_unread hf2; obtain rfl := harg3.eq_unread hf3
    obtain rfl := harg4.eq_unread hf4; obtain rfl := harg5.eq_unread hf5; obtain rfl := harg7.eq_unread hfs
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    iexists _; iexact HS

end Cert.KernelIdeal.Fr

end
-- ==== Proof.KernelIdealFrame.lean ====
/-
  The kernel's region run over its two grid points, and @main's frame.

  After the first point the 8×1 accumulator holds what that point's stores left (a zero, then each diagram row's sum
  over the first half of the points added to it); after the last point it holds the second half added on top, and the
  output window's 1×1 buffer holds the mean of the squared accumulator.  These contents are read back from the store
  lists the two runs found.  The proof data hands each input window its block at both points, the output window what
  the last point stored, and carries the accumulator through the region's invariant.  The library's launch theorem
  then gives the run of the whole @main, and the frame claim follows: no argument is an array the region writes.
-/
import proofs.«119227_g12171937316930_cont_fleet_1064_14_alg».proof.Proof.KernelIdealRunLast

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- The first point's stores into the accumulator cover it: the eight row stores tile it in 1×1 blocks. -/
theorem coverAccFirst (c : Dev nD) (y : S8x1.Idx) :
    ∃ pc ∈ (runFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) accM (Memref.isWhole_whole _) ((hcondInit t0_0).mpr rfl) (fun h => absurd ((hcondFin t0_0).mp h) (by decide)) (iblk m c 0 t0_0) (iblk m c 1 t0_0) (iblk m c 2 t0_0) (iblk m c 3 t0_0) (iblk m c 4 t0_0)).1, y ∈ pc.1.set :=
  View.cover_of_tiledL (s := S8x1) _ S1x1.size (by sl_kernel_rfl) y

/-- What the first point leaves in the accumulator: its stores read back. -/
def accFirst (c : Dev nD) : Vec F S8x1 .f32 :=
  accV.read (Elt F) (accV.writes (Elt F) accV.junk (runFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) accM (Memref.isWhole_whole _) ((hcondInit t0_0).mpr rfl) (fun h => absurd ((hcondFin t0_0).mp h) (by decide)) (iblk m c 0 t0_0) (iblk m c 1 t0_0) (iblk m c 2 t0_0) (iblk m c 3 t0_0) (iblk m c 4 t0_0)).1)

/-- The last point's stores into the accumulator cover it likewise. -/
theorem coverAccLast (c : Dev nD) (y : S8x1.Idx) :
    ∃ pc ∈ (runLast c (grid0.coords t0_1) (ms0 t0_1) (hs0 t0_1) (ms1 t0_1) (hs1 t0_1) (ms2 t0_1) (hs2 t0_1) (ms3 t0_1) (hs3 t0_1) (ms4 t0_1) (hs4 t0_1) (ms5 t0_1) (hs5 t0_1) accM (Memref.isWhole_whole _) (fun h => absurd ((hcondInit t0_1).mp h) (by decide)) ((hcondFin t0_1).mpr rfl) (iblk m c 0 t0_1) (iblk m c 1 t0_1) (iblk m c 2 t0_1) (iblk m c 3 t0_1) (iblk m c 4 t0_1) (accFirst m c)).2.1, y ∈ pc.1.set :=
  View.cover_of_tiledL (s := S8x1) _ S1x1.size (by sl_kernel_rfl) y

/-- What the last point leaves in the accumulator. -/
def accLast (c : Dev nD) : Vec F S8x1 .f32 :=
  accV.read (Elt F) (accV.writes (Elt F) accV.junk (runLast c (grid0.coords t0_1) (ms0 t0_1) (hs0 t0_1) (ms1 t0_1) (hs1 t0_1) (ms2 t0_1) (hs2 t0_1) (ms3 t0_1) (hs3 t0_1) (ms4 t0_1) (hs4 t0_1) (ms5 t0_1) (hs5 t0_1) accM (Memref.isWhole_whole _) (fun h => absurd ((hcondInit t0_1).mp h) (by decide)) ((hcondFin t0_1).mpr rfl) (iblk m c 0 t0_1) (iblk m c 1 t0_1) (iblk m c 2 t0_1) (iblk m c 3 t0_1) (iblk m c 4 t0_1) (accFirst m c)).2.1)

/-- The last point's one store into the output window's buffer covers it. -/
theorem coverOutLast (c : Dev nD) (y : S1x1.Idx) :
    ∃ pc ∈ (runLast c (grid0.coords t0_1) (ms0 t0_1) (hs0 t0_1) (ms1 t0_1) (hs1 t0_1) (ms2 t0_1) (hs2 t0_1) (ms3 t0_1) (hs3 t0_1) (ms4 t0_1) (hs4 t0_1) (ms5 t0_1) (hs5 t0_1) accM (Memref.isWhole_whole _) (fun h => absurd ((hcondInit t0_1).mp h) (by decide)) ((hcondFin t0_1).mpr rfl) (iblk m c 0 t0_1) (iblk m c 1 t0_1) (iblk m c 2 t0_1) (iblk m c 3 t0_1) (iblk m c 4 t0_1) (accFirst m c)).1, y ∈ pc.1.set :=
  View.cover_of_tiledL (s := S1x1) _ S1x1.size (by sl_kernel_rfl) y

/-- What the last point leaves in the output window's buffer. -/
def outLast (c : Dev nD) : Vec F S1x1 .f32 :=
  outV.read (Elt F) (outV.writes (Elt F) outV.junk (runLast c (grid0.coords t0_1) (ms0 t0_1) (hs0 t0_1) (ms1 t0_1) (hs1 t0_1) (ms2 t0_1) (hs2 t0_1) (ms3 t0_1) (hs3 t0_1) (ms4 t0_1) (hs4 t0_1) (ms5 t0_1) (hs5 t0_1) accM (Memref.isWhole_whole _) (fun h => absurd ((hcondInit t0_1).mp h) (by decide)) ((hcondFin t0_1).mpr rfl) (iblk m c 0 t0_1) (iblk m c 1 t0_1) (iblk m c 2 t0_1) (iblk m c 3 t0_1) (iblk m c 4 t0_1) (accFirst m c)).1)

/-- The output window's buffer after each point: at the first it is idle (a placeholder nothing consults), at the last
    it holds the result. -/
def outAt (c : Dev nD) (t : Fin cfg0.N) : Vec F S1x1 .f32 :=
  if t.val = 0 then outV.read (Elt F) outV.junk else outLast m c

/-- The region's invariant before position `n`: before the first point the accumulator at anything; then at what the
    point before left. -/
def PhiS (c : Dev nD) : (n : ℕ) → sProp 𝕄
  | 0 => Pipeline.ΦA spec0 c
  | 1 => iprop(iprop(owns (c : Thread nD τ) accM fullShare (accFirst m c)) ∗ (∃ r, prngReg c r))
  | _ + 2 => iprop(iprop(owns (c : Thread nD τ) accM fullShare (accLast m c)) ∗ (∃ r, prngReg c r))

/-! ## The proof data -/

/-- Core `c`'s proof data: the arrays as the region finds them; after the body each input's buffer at its block, the
    output's at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves_in (c : Dev nD) (t : Fin cfg0.N) :
    (dats m 0 c).leavesExact 0 t = owns (c : Thread nD τ) (ms0 t) fullShare (iblk m c 0 t)
    ∧ (dats m 0 c).leavesExact 1 t = owns (c : Thread nD τ) (ms1 t) fullShare (iblk m c 1 t)
    ∧ (dats m 0 c).leavesExact 2 t = owns (c : Thread nD τ) (ms2 t) fullShare (iblk m c 2 t)
    ∧ (dats m 0 c).leavesExact 3 t = owns (c : Thread nD τ) (ms3 t) fullShare (iblk m c 3 t)
    ∧ (dats m 0 c).leavesExact 4 t = owns (c : Thread nD τ) (ms4 t) fullShare (iblk m c 4 t) := by
  refine ⟨?_, ?_, ?_, ?_, ?_⟩
  · unfold Dat.leavesExact; rw [liveIn 0 (by decide) _, after0]
  · unfold Dat.leavesExact; rw [liveIn 1 (by decide) _, after1]
  · unfold Dat.leavesExact; rw [liveIn 2 (by decide) _, after2]
  · unfold Dat.leavesExact; rw [liveIn 3 (by decide) _, after3]
  · unfold Dat.leavesExact; rw [liveIn 4 (by decide) _, after4]

set_option maxHeartbeats 4000000 in
/-- The body at the first point: the invariant hands it the accumulator at anything and takes it back at what the
    point's stores left; the output window is idle and handed back untouched. -/
theorem sound_first (c : Dev nD) :
    bodyPre m c t0_0 ⊢ wp frame (wpE (defs₀ (F := F)) Variants.none c none) Set.univ (bodyAt0 t0_0) (fun _ => bodyPost m c t0_0) := by
  unfold bodyPre bodyPost bodyAt0
  simp only [before0, before1, before2, before3, before4]
  rw [show (dats m 0 c).owesAt () t0_0.succ = (dats m 0 c).owesAt () t0_0.castSucc from rfl]
  rw [show (dats m 0 c).Φ t0_0.succ = iprop(iprop(owns (c : Thread nD τ) accM fullShare (accFirst m c)) ∗ (∃ r, prngReg c r)) from rfl]
  rw [show (dats m 0 c).Φ t0_0.castSucc = Pipeline.ΦA spec0 c from rfl, PhiA_eq]
  obtain ⟨e0, e1, e2, e3, e4⟩ := leaves_in m c t0_0
  rw [e0, e1, e2, e3, e4]
  rw [Dat.leavesExact_idle (dats m 0 c) 5 t0_0 (idleOut_first t0_0 (fun h => absurd ((hcondFin t0_0).mp h) (by decide))) (noFlushOut_first t0_0 (fun h => absurd ((hcondFin t0_0).mp h) (by decide)))]
  unfold accFirst
  iintro ⟨⟨HS, Hg⟩, Ho, ⟨%d0, H0⟩, ⟨%d1, H1⟩, ⟨%d2, H2⟩, ⟨%d3, H3⟩, ⟨%d4, H4⟩, ⟨%d5, H5⟩⟩
  iapply ((runFirst c (grid0.coords t0_0) (ms0 t0_0) (hs0 t0_0) (ms1 t0_0) (hs1 t0_0) (ms2 t0_0) (hs2 t0_0) (ms3 t0_0) (hs3 t0_0) (ms4 t0_0) (hs4 t0_0) (ms5 t0_0) (hs5 t0_0) accM (Memref.isWhole_whole _) ((hcondInit t0_0).mpr rfl) (fun h => absurd ((hcondFin t0_0).mp h) (by decide)) (iblk m c 0 t0_0) (iblk m c 1 t0_0) (iblk m c 2 t0_0) (iblk m c 3 t0_0) (iblk m c 4 t0_0)).2 _ Set.univ _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, ⟨%es, HS⟩⟩
  isplitl [HS Hg]
  · isplitl [HS]
    · unfold owns; iexists _; isplitr
      swap; · iexact HS
      ipureintro; exact View.read_writes_of_cover _ _ _ _ _ (coverAccFirst m c)
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 4000000 in
/-- The body at the last point: the invariant hands it the accumulator at what the first point left and takes it back
    at what this point's stores left; the output window's buffer ends at its one store. -/
theorem sound_last (c : Dev nD) :
    bodyPre m c t0_1 ⊢ wp frame (wpE (defs₀ (F := F)) Variants.none c none) Set.univ (bodyAt0 t0_1) (fun _ => bodyPost m c t0_1) := by
  unfold bodyPre bodyPost bodyAt0
  simp only [before0, before1, before2, before3, before4]
  rw [show (dats m 0 c).owesAt () t0_1.succ = (dats m 0 c).owesAt () t0_1.castSucc from rfl]
  rw [show (dats m 0 c).Φ t0_1.succ = iprop(iprop(owns (c : Thread nD τ) accM fullShare (accLast m c)) ∗ (∃ r, prngReg c r)) from rfl]
  rw [show (dats m 0 c).Φ t0_1.castSucc = iprop(iprop(owns (c : Thread nD τ) accM fullShare (accFirst m c)) ∗ (∃ r, prngReg c r)) from rfl]
  obtain ⟨e0, e1, e2, e3, e4⟩ := leaves_in m c t0_1
  rw [e0, e1, e2, e3, e4]
  rw [show (dats m 0 c).leavesExact 5 t0_1 = owns (c : Thread nD τ) (ms5 t0_1) fullShare ((dats m 0 c).after 5 t0_1) from by
    unfold Dat.leavesExact; rw [liveOut_last t0_1 ((hcondFin t0_1).mpr rfl)], after5]
  rw [show outAt m c t0_1 = outLast m c from rfl]
  unfold accLast outLast
  iintro ⟨⟨HS, Hg⟩, Ho, ⟨%d0, H0⟩, ⟨%d1, H1⟩, ⟨%d2, H2⟩, ⟨%d3, H3⟩, ⟨%d4, H4⟩, ⟨%d5, H5⟩⟩
  iapply ((runLast c (grid0.coords t0_1) (ms0 t0_1) (hs0 t0_1) (ms1 t0_1) (hs1 t0_1) (ms2 t0_1) (hs2 t0_1) (ms3 t0_1) (hs3 t0_1) (ms4 t0_1) (hs4 t0_1) (ms5 t0_1) (hs5 t0_1) accM (Memref.isWhole_whole _) (fun h => absurd ((hcondInit t0_1).mp h) (by decide)) ((hcondFin t0_1).mpr rfl) (iblk m c 0 t0_1) (iblk m c 1 t0_1) (iblk m c 2 t0_1) (iblk m c 3 t0_1) (iblk m c 4 t0_1) (accFirst m c)).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%e5, H5⟩, ⟨%es, HS⟩⟩
  isplitl [HS Hg]
  · isplitl [HS]
    · unfold owns; iexists _; isplitr
      swap; · iexact HS
      ipureintro; exact View.read_writes_of_cover _ _ _ _ _ (coverAccLast m c)
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (coverOutLast m c)

/-- The library's body obligation, at both points. -/
theorem body_obligation (c : Dev nD) : BodyObligation (dats (F := F) m 0 c) (defs₀ (F := F)) Variants.none () Set.univ := fun t => by
  rw [bigSep_W0, bigSep_W0]
  rcases fin_N0 t with rfl | rfl
  · exact sound_first m c
  · exact sound_last m c

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives the launch its own back: the accumulator's contents are forgotten. -/
theorem hout (c : Dev nD) : (dats m 0 c).Φ (Fin.last cfg0.N) ⊢ Pipeline.ΦA spec0 c := by
  rw [show (dats m 0 c).Φ (Fin.last cfg0.N) = iprop(iprop(owns (c : Thread nD τ) accM fullShare (accLast m c)) ∗ (∃ r, prngReg c r)) from rfl, PhiA_eq]
  iintro ⟨HS, Hg⟩
  isplitl [HS]
  · iexists _; iexact HS
  iexact Hg

/-! ## The run and the frame -/

set_option backward.isDefEq.respectTransparency.types false in
/-- Every weakly fair execution of @main terminates, and every final state has every array of the region at what the
    library computes from the proof data and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- An argument is no array of the region and the reshape after the region does not write it: it ends as launched. -/
theorem tail_arg (c : Dev nD) (b : Ref sig .tc) (hb : ∀ w, Pipeline.arrRef spec0 w ≠ b)
    (hw : ∀ op ∈ (List.flatten [hostOps1] : List (HloOp τ sig (Elt F))), Proc.devRef .tc b ∉ op.writes)
    (hV : V m c b = m ((c : Thread nD τ).loc b)) :
    Pipeline.afterTail₀ cfgs (dats m) 0 (V0 m) [hostOps1] c b = m ((c : Thread nD τ).loc b) := by
  unfold Pipeline.afterTail₀
  rw [StableHlo.after_of_forall_not_mem (b := Proc.devRef .tc b) _ _ hw]
  exact (Pipeline.withArrays_of_ne _ c _ _ b hb).trans hV

theorem tail_keeps (b : Ref sig .tc) (hne : main_v18 ≠ b) :
    ∀ op ∈ (List.flatten [hostOps1] : List (HloOp τ sig (Elt F))), Proc.devRef .tc b ∉ op.writes := by
  refine List.forall_iff_forall_mem.mp ?_
  simp only [hostOps1, List.flatten_cons, List.flatten_nil, List.append_nil, List.Forall, StableHlo.reshape_writes, Finset.mem_singleton]
  exact StableHlo.devRef_ne_of_ne (Ne.symm hne)

/-- THE FRAME: @main runs to its end and its six arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_arg0 (Pipeline.mem_restRefs_of main_arg0 (by decide) (by decide))).trans (tail_arg m c main_arg0 (by decide) (tail_keeps main_arg0 (by decide)) (V_main_arg0 m c)),
      ((h c).2 main_arg1 (Pipeline.mem_restRefs_of main_arg1 (by decide) (by decide))).trans (tail_arg m c main_arg1 (by decide) (tail_keeps main_arg1 (by decide)) (V_main_arg1 m c)),
      ((h c).2 main_arg2 (Pipeline.mem_restRefs_of main_arg2 (by decide) (by decide))).trans (tail_arg m c main_arg2 (by decide) (tail_keeps main_arg2 (by decide)) (V_main_arg2 m c)),
      ((h c).2 main_arg3 (Pipeline.mem_restRefs_of main_arg3 (by decide) (by decide))).trans (tail_arg m c main_arg3 (by decide) (tail_keeps main_arg3 (by decide)) (V_main_arg3 m c)),
      ((h c).2 main_arg4 (Pipeline.mem_restRefs_of main_arg4 (by decide) (by decide))).trans (tail_arg m c main_arg4 (by decide) (tail_keeps main_arg4 (by decide)) (V_main_arg4 m c)),
      ((h c).2 main_arg5 (Pipeline.mem_restRefs_of main_arg5 (by decide) (by decide))).trans (tail_arg m c main_arg5 (by decide) (tail_keeps main_arg5 (by decide)) (V_main_arg5 m c))⟩)
    (run_main m ρ)

end Cert.KernelIdeal.Fr

end
-- ==== Proof.KernelIdealRow.lean ====
/-
  One diagram row of the kernel body, as one function.

  Between its loads and its store, the body does the same arithmetic for each of the eight diagrams b: from the three
  student coordinate planes and the three teacher coordinate planes of row b (each 32 768 lanes), a row of ones, the
  packed 128×7 and 2×128 weight matrices and the 1×1 second bias, it forms the 7×32768 right-hand side (student planes,
  teacher planes, ones), multiplies by the first packed matrix, clamps at 0, multiplies by the second, adds the bias,
  clamps at 0, subtracts row 1 from row 0, sums over the lanes, and adds the sum to the accumulator's entry.
  The printed body is cut by statement count, so the eight rows' payloads are spelt in eight different ways; each is
  this one function by unfolding.  The last point's final step, the mean of the squared accumulator, is `meanSq`.
-/
import proofs.«119227_g12171937316930_cont_fleet_1064_14_alg».proof.Proof.Gen.KernelIdeal.Skeleton

set_option maxRecDepth 16384

noncomputable section

namespace Cert.KernelIdeal.Fr

open Idealize.ShloMosaic Idealize.SL.Sem
open Cert.KernelIdeal Cert.KernelIdeal.Gen

variable {F : FTy → Type} [FloatOps F]

/-- The 7×32768 right-hand side of row b: student planes, teacher planes, ones. -/
def rowRhs (ones : FVec F S1x32768 .f32) (vs vt : Vec F S3x1x32768 .f32) : FVec F S7x32768 .f32 :=
  concatenate S7x32768 0 [⟨S3x32768, shapeCast S3x32768 vs shapeCasts_S3x1x32768_S3x32768⟩,
    ⟨S3x32768, shapeCast S3x32768 vt shapeCasts_S3x1x32768_S3x32768⟩, ⟨S1x32768, ones⟩] concatenates_S3x32768_S3x32768_S1x32768_S7x32768_d0

/-- The two clamped output rows (row 0 the student's scalars, row 1 the teacher's) over the 32 768 lanes. -/
def rowOut (w1 : FVec F S128x7 .f32) (w2 : FVec F S2x128 .f32) (b2 : FVec F S1x1 .f32) (rhs : FVec F S7x32768 .f32) : FVec F S2x32768 .f32 :=
  maximumf (addf (matmul dot_S2x128_S128x32768_S2x32768_1_0_0_1_n_n none w2
      (maximumf (matmul dot_S128x7_S7x32768_S128x32768_1_0_0_1_n_n none w1 rhs (constant S128x32768 .f32 0x00000000#32))
        (broadcast S128x32768 (Scalar.ofBits .f32 0x00000000#32)))
      (constant S2x32768 .f32 0x00000000#32))
    (broadcastTo S2x32768 b2 broadcasts_S1x1_S2x32768)) (broadcast S2x32768 (Scalar.ofBits .f32 0x00000000#32))

/-- The lane sum of (row 0 − row 1), as a 1×1 array. -/
def rowDiffSum (o : FVec F S2x32768 .f32) : FVec F S1x1 .f32 :=
  shapeCast S1x1 (multiReduction .add [1] S1
    (subf (extractStridedSlice S1x32768 ![0, 0] o slices_S2x32768_o0_0_S1x32768) (extractStridedSlice S1x32768 ![1, 0] o slices_S2x32768_o1_0_S1x32768))
    0x00000000#32 reduces_S1x32768_S1 (.inl rfl) rfl) shapeCasts_S1_S1x1

/-- The accumulator entry of a row after the body: what it held plus the lane sum. -/
def rowUpdate (ones : FVec F S1x32768 .f32) (w1 : FVec F S128x7 .f32) (w2 : FVec F S2x128 .f32) (b2 : FVec F S1x1 .f32)
    (vs vt : Vec F S3x1x32768 .f32) (acc : Vec F S1x1 .f32) : FVec F S1x1 .f32 :=
  shapeCast S1x1 (addf acc (rowDiffSum (rowOut w1 w2 b2 (rowRhs ones vs vt)))) shapeCasts_S1x1_S1x1

/-- Row 0, spelt over the first part's own loads. -/
theorem pay8_eq (v4 : Vec F S128x7 .f32) (v6 : Vec F S2x128 .f32) (v8 : Vec F S1x1 .f32) (v10 v12 : Vec F S3x1x32768 .f32) (v26 : Vec F S1x1 .f32) :
    k0_pay8 v4 v6 v8 v10 v12 v26 = rowUpdate (k0_pay4 (F := F)) (k0_pay5 v4) (k0_pay6 v6) (k0_pay7 v8) v10 v12 v26 := rfl
/-- Row 1. -/
theorem pay9_eq (v3 : FVec F S1x32768 .f32) (v5 : FVec F S128x7 .f32) (v7 : FVec F S2x128 .f32) (v9 : FVec F S1x1 .f32) (vs vt : Vec F S3x1x32768 .f32) (acc : Vec F S1x1 .f32) :
    k0_pay9 v3 v5 v7 v9 vs vt acc = rowUpdate v3 v5 v7 v9 vs vt acc := rfl
/-- Row 2: cut after the second clamp. -/
theorem pay11_eq (v3 : FVec F S1x32768 .f32) (v5 : FVec F S128x7 .f32) (v7 : FVec F S2x128 .f32) (v9 : FVec F S1x1 .f32) (vs vt : Vec F S3x1x32768 .f32) (acc : Vec F S1x1 .f32) :
    k0_pay11 (k0_pay10 v3 v5 v7 v9 vs vt) (Scalar.ofBits .f32 0x00000000#32) acc = rowUpdate v3 v5 v7 v9 vs vt acc := rfl
/-- Rows 3 and 4. -/
theorem pay12_eq (v3 : FVec F S1x32768 .f32) (v5 : FVec F S128x7 .f32) (v7 : FVec F S2x128 .f32) (v9 : FVec F S1x1 .f32) (vs vt : Vec F S3x1x32768 .f32) (acc : Vec F S1x1 .f32) :
    k0_pay12 v3 v5 v7 v9 vs vt acc = rowUpdate v3 v5 v7 v9 vs vt acc := rfl
theorem pay13_eq (v3 : FVec F S1x32768 .f32) (v5 : FVec F S128x7 .f32) (v7 : FVec F S2x128 .f32) (v9 : FVec F S1x1 .f32) (vs vt : Vec F S3x1x32768 .f32) (acc : Vec F S1x1 .f32) :
    k0_pay13 v3 v5 v7 v9 vs vt acc = rowUpdate v3 v5 v7 v9 vs vt acc := rfl
/-- Row 5: cut between the two slices. -/
theorem pay16_eq (v3 : FVec F S1x32768 .f32) (v5 : FVec F S128x7 .f32) (v7 : FVec F S2x128 .f32) (v9 : FVec F S1x1 .f32) (vs vt : Vec F S3x1x32768 .f32) (acc : Vec F S1x1 .f32) :
    k0_pay16 (k0_pay14 v3 v5 v7 v9 vs vt) (k0_pay15 v3 v5 v7 v9 vs vt) acc = rowUpdate v3 v5 v7 v9 vs vt acc := rfl
/-- Row 6. -/
theorem pay17_eq (v3 : FVec F S1x32768 .f32) (v5 : FVec F S128x7 .f32) (v7 : FVec F S2x128 .f32) (v9 : FVec F S1x1 .f32) (vs vt : Vec F S3x1x32768 .f32) (acc : Vec F S1x1 .f32) :
    k0_pay17 v3 v5 v7 v9 vs vt acc = rowUpdate v3 v5 v7 v9 vs vt acc := rfl
/-- Row 7: cut after the student planes' reshape. -/
theorem pay1_eq (v3 : FVec F S1x32768 .f32) (v5 : FVec F S128x7 .f32) (v7 : FVec F S2x128 .f32) (v9 : FVec F S1x1 .f32) (vs vt : Vec F S3x1x32768 .f32) (acc : Vec F S1x1 .f32) :
    k0_pay1 v3 v5 v7 v9 (k0_pay18 vs) vt acc = rowUpdate v3 v5 v7 v9 vs vt acc := rfl

end Cert.KernelIdeal.Fr

end
-- ==== Proof.KernelIdealAcc.lean ====
/-
  The accumulator after each grid point, one diagram row at a time.

  The two runs left the accumulator as lists of stores.  Reading a list back at row b means passing over the later
  rows' stores (they do not hold row b) down to row b's own store, whose payload is the row's update applied to what
  the body loaded: the packed weights and bias (whole-buffer loads of their windows), the three student and three
  teacher coordinate planes of row b, and the accumulator's entry of row b as it stood — at the first point the zero
  just stored over the whole buffer, at the last point what the first point left.  The result block of the last point
  is the mean-of-squares payload applied to the accumulator as the last point left it.
-/
import proofs.«119227_g12171937316930_cont_fleet_1064_14_alg».proof.Proof.KernelIdealFrame
import proofs.«119227_g12171937316930_cont_fleet_1064_14_alg».proof.Proof.KernelIdealRow
import Idealize.ShloMosaic.Lib.ValueIdx
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A list of row stores, read at a row -/

/-- Row b's own store, first in the list, gives its payload at row b. -/
theorem canon_row_hit {Val : EltTy → Type} [∀ e, Nonempty (Val e)] {e : EltTy} (b : ℕ) (hb : b < 8)
    (h : ∀ a, (![b, 0] : Fin 2 → ℕ) a + S1x1.size a ≤ S8x1.size a) (w : S1x1.Idx → Val e)
    (L : List (View.Piece Val S8x1 e)) :
    View.canon ((⟨Rect.unit (s := S8x1) ![b, 0] S1x1.size h, w⟩ : View.Piece Val S8x1 e) :: L) (ix2 ⟨b, hb⟩ 0) = w (ix2 0 0) := by
  have e : (ix2 ⟨b, hb⟩ 0 : S8x1.Idx) = (Rect.unit (s := S8x1) ![b, 0] S1x1.size h).emb (ix2 0 0) :=
    funext fun a => Fin.ext (by match a with | ⟨0, _⟩ => (show b = b + 1 * 0; omega) | ⟨1, _⟩ => rfl)
  rw [e]; exact View.canon_cons_emb (Rect.unit (s := S8x1) ![b, 0] S1x1.size h) w L (ix2 0 0)

/-- Another row's store does not hold row b: the list reads on. -/
theorem canon_row_skip {Val : EltTy → Type} [∀ e, Nonempty (Val e)] {e : EltTy} (a b : ℕ) (hab : a ≠ b) (hb : b < 8)
    (h : ∀ d, (![a, 0] : Fin 2 → ℕ) d + S1x1.size d ≤ S8x1.size d) (w : S1x1.Idx → Val e)
    (L : List (View.Piece Val S8x1 e)) :
    View.canon ((⟨Rect.unit (s := S8x1) ![a, 0] S1x1.size h, w⟩ : View.Piece Val S8x1 e) :: L) (ix2 ⟨b, hb⟩ 0) = View.canon L (ix2 ⟨b, hb⟩ 0) := by
  refine View.canon_cons_of_not_mem _ L (fun hm => ?_)
  obtain ⟨j, hj, e⟩ := (Rect.unit (s := S8x1) ![a, 0] S1x1.size h).toLoadRect.mem_set.mp hm 0
  have hj' : j < 1 := hj
  have e' : b = a + 1 * j := e
  omega

/-- The one index of a row's 1×1 rectangle is the row's entry. -/
theorem row_idx (b : ℕ) (hb : b < 8) (h : ∀ a, (![b, 0] : Fin 2 → ℕ) a + S1x1.size a ≤ S8x1.size a) (j : S1x1.Idx) :
    (Rect.unit (s := S8x1) ![b, 0] S1x1.size h).toLoadRect.idx j = ix2 ⟨b, hb⟩ 0 :=
  funext fun a => Fin.ext (by
    match a with
    | ⟨0, _⟩ => (show b + 1 * (j 0).val = b; have := (j 0).isLt; have h1 : (j 0).val < 1 := this; omega)
    | ⟨1, _⟩ => (show 0 + 1 * (j 1).val = 0; have := (j 1).isLt; have h1 : (j 1).val < 1 := this; omega))

theorem zero_off2 : (![0, 0] : Fin 2 → ℕ) = fun _ => 0 := funext fun a => by match a with | ⟨0, _⟩ => rfl | ⟨1, _⟩ => rfl

/-! ## The first point -/

/-- At the first point row 0's load of the accumulator reads the zero stored over the whole buffer. -/
theorem accLoadFirst0 (c : Dev nD) :
    accM.view.readCov (runFirst.sl.HS_1 (F := F)) (Rect.unit (s := S8x1) ![0, 0] S1x1.size inb_S8x1_S1x1_0_0).toLoadRect
      = View.ld (k0_pay3 (F := F)) (Rect.unit (s := S8x1) ![0, 0] S1x1.size inb_S8x1_S1x1_0_0) := by
  rw [View.readCov_eq_canon']
  funext j
  rw [row_idx 0 (by decide) inb_S8x1_S1x1_0_0 j]
  show _ = k0_pay3 (F := F) ((Rect.unit (s := S8x1) ![0, 0] S1x1.size inb_S8x1_S1x1_0_0).toLoadRect.idx j)
  rw [row_idx 0 (by decide) inb_S8x1_S1x1_0_0 j]
  unfold runFirst.sl.HS_1
  rw [View.canon_unit_zero zero_off2]

/-- At the first point row 1's load of the accumulator reads the zero stored over the whole buffer. -/
theorem accLoadFirst1 (c : Dev nD) :
    accM.view.readCov (runFirst.sl.HS_2 (F := F) c (ms0 t0_0) (hs0 t0_0) (ms1 t0_0) (hs1 t0_0) (ms2 t0_0) (hs2 t0_0) (ms3 t0_0) (hs3 t0_0) (ms4 t0_0) (hs4 t0_0) accM (iblk m c 0 t0_0) (iblk m c 1 t0_0) (iblk m c 2 t0_0) (iblk m c 3 t0_0) (iblk m c 4 t0_0)) (Rect.unit (s := S8x1) ![1, 0] S1x1.size inb_S8x1_S1x1_1_0).toLoadRect
      = View.ld (k0_pay3 (F := F)) (Rect.unit (s := S8x1) ![1, 0] S1x1.size inb_S8x1_S1x1_1_0) := by
  rw [View.readCov_eq_canon']
  funext j
  rw [row_idx 1 (by decide) inb_S8x1_S1x1_1_0 j]
  show _ = k0_pay3 (F := F) ((Rect.unit (s := S8x1) ![1, 0] S1x1.size inb_S8x1_S1x1_1_0).toLoadRect.idx j)
  rw [row_idx 1 (by decide) inb_S8x1_S1x1_1_0 j]
  unfold runFirst.sl.HS_2
  rw [canon_row_skip 0 1 (by decide) (by decide)]
  unfold runFirst.sl.HS_1
  rw [View.canon_unit_zero zero_off2]

/-- At the first point row 2's load of the accumulator reads the zero stored over the whole buffer. -/
theorem accLoadFirst2 (c : Dev nD) :
    accM.view.readCov (runFirst.sl.HS_3 (F := F) c (ms0 t0_0) (hs0 t0_0) (ms1 t0_0) (hs1 t0_0) (ms2 t0_0) (hs2 t0_0) (ms3 t0_0) (hs3 t0_0) (ms4 t0_0) (hs4 t0_0) accM (iblk m c 0 t0_0) (iblk m c 1 t0_0) (iblk m c 2 t0_0) (iblk m c 3 t0_0) (iblk m c 4 t0_0)) (Rect.unit (s := S8x1) ![2, 0] S1x1.size inb_S8x1_S1x1_2_0).toLoadRect
      = View.ld (k0_pay3 (F := F)) (Rect.unit (s := S8x1) ![2, 0] S1x1.size inb_S8x1_S1x1_2_0) := by
  rw [View.readCov_eq_canon']
  funext j
  rw [row_idx 2 (by decide) inb_S8x1_S1x1_2_0 j]
  show _ = k0_pay3 (F := F) ((Rect.unit (s := S8x1) ![2, 0] S1x1.size inb_S8x1_S1x1_2_0).toLoadRect.idx j)
  rw [row_idx 2 (by decide) inb_S8x1_S1x1_2_0 j]
  unfold runFirst.sl.HS_3
  rw [canon_row_skip 1 2 (by decide) (by decide)]
  unfold runFirst.sl.HS_2
  rw [canon_row_skip 0 2 (by decide) (by decide)]
  unfold runFirst.sl.HS_1
  rw [View.canon_unit_zero zero_off2]

/-- At the first point row 3's load of the accumulator reads the zero stored over the whole buffer. -/
theorem accLoadFirst3 (c : Dev nD) :
    accM.view.readCov (runFirst.sl.HS_4 (F := F) c (ms0 t0_0) (hs0 t0_0) (ms1 t0_0) (hs1 t0_0) (ms2 t0_0) (hs2 t0_0) (ms3 t0_0) (hs3 t0_0) (ms4 t0_0) (hs4 t0_0) accM (iblk m c 0 t0_0) (iblk m c 1 t0_0) (iblk m c 2 t0_0) (iblk m c 3 t0_0) (iblk m c 4 t0_0)) (Rect.unit (s := S8x1) ![3, 0] S1x1.size inb_S8x1_S1x1_3_0).toLoadRect
      = View.ld (k0_pay3 (F := F)) (Rect.unit (s := S8x1) ![3, 0] S1x1.size inb_S8x1_S1x1_3_0) := by
  rw [View.readCov_eq_canon']
  funext j
  rw [row_idx 3 (by decide) inb_S8x1_S1x1_3_0 j]
  show _ = k0_pay3 (F := F) ((Rect.unit (s := S8x1) ![3, 0] S1x1.size inb_S8x1_S1x1_3_0).toLoadRect.idx j)
  rw [row_idx 3 (by decide) inb_S8x1_S1x1_3_0 j]
  unfold runFirst.sl.HS_4
  rw [canon_row_skip 2 3 (by decide) (by decide)]
  unfold runFirst.sl.HS_3
  rw [canon_row_skip 1 3 (by decide) (by decide)]
  unfold runFirst.sl.HS_2
  rw [canon_row_skip 0 3 (by decide) (by decide)]
  unfold runFirst.sl.HS_1
  rw [View.canon_unit_zero zero_off2]

/-- At the first point row 4's load of the accumulator reads the zero stored over the whole buffer. -/
theorem accLoadFirst4 (c : Dev nD) :
    accM.view.readCov (runFirst.sl.HS_5 (F := F) c (ms0 t0_0) (hs0 t0_0) (ms1 t0_0) (hs1 t0_0) (ms2 t0_0) (hs2 t0_0) (ms3 t0_0) (hs3 t0_0) (ms4 t0_0) (hs4 t0_0) accM (iblk m c 0 t0_0) (iblk m c 1 t0_0) (iblk m c 2 t0_0) (iblk m c 3 t0_0) (iblk m c 4 t0_0)) (Rect.unit (s := S8x1) ![4, 0] S1x1.size inb_S8x1_S1x1_4_0).toLoadRect
      = View.ld (k0_pay3 (F := F)) (Rect.unit (s := S8x1) ![4, 0] S1x1.size inb_S8x1_S1x1_4_0) := by
  rw [View.readCov_eq_canon']
  funext j
  rw [row_idx 4 (by decide) inb_S8x1_S1x1_4_0 j]
  show _ = k0_pay3 (F := F) ((Rect.unit (s := S8x1) ![4, 0] S1x1.size inb_S8x1_S1x1_4_0).toLoadRect.idx j)
  rw [row_idx 4 (by decide) inb_S8x1_S1x1_4_0 j]
  unfold runFirst.sl.HS_5
  rw [canon_row_skip 3 4 (by decide) (by decide)]
  unfold runFirst.sl.HS_4
  rw [canon_row_skip 2 4 (by decide) (by decide)]
  unfold runFirst.sl.HS_3
  rw [canon_row_skip 1 4 (by decide) (by decide)]
  unfold runFirst.sl.HS_2
  rw [canon_row_skip 0 4 (by decide) (by decide)]
  unfold runFirst.sl.HS_1
  rw [View.canon_unit_zero zero_off2]

/-- At the first point row 5's load of the accumulator reads the zero stored over the whole buffer. -/
theorem accLoadFirst5 (c : Dev nD) :
    accM.view.readCov (runFirst.sl.HS_6 (F := F) c (ms0 t0_0) (hs0 t0_0) (ms1 t0_0) (hs1 t0_0) (ms2 t0_0) (hs2 t0_0) (ms3 t0_0) (hs3 t0_0) (ms4 t0_0) (hs4 t0_0) accM (iblk m c 0 t0_0) (iblk m c 1 t0_0) (iblk m c 2 t0_0) (iblk m c 3 t0_0) (iblk m c 4 t0_0)) (Rect.unit (s := S8x1) ![5, 0] S1x1.size inb_S8x1_S1x1_5_0).toLoadRect
      = View.ld (k0_pay3 (F := F)) (Rect.unit (s := S8x1) ![5, 0] S1x1.size inb_S8x1_S1x1_5_0) := by
  rw [View.readCov_eq_canon']
  funext j
  rw [row_idx 5 (by decide) inb_S8x1_S1x1_5_0 j]
  show _ = k0_pay3 (F := F) ((Rect.unit (s := S8x1) ![5, 0] S1x1.size inb_S8x1_S1x1_5_0).toLoadRect.idx j)
  rw [row_idx 5 (by decide) inb_S8x1_S1x1_5_0 j]
  unfold runFirst.sl.HS_6
  rw [canon_row_skip 4 5 (by decide) (by decide)]
  unfold runFirst.sl.HS_5
  rw [canon_row_skip 3 5 (by decide) (by decide)]
  unfold runFirst.sl.HS_4
  rw [canon_row_skip 2 5 (by decide) (by decide)]
  unfold runFirst.sl.HS_3
  rw [canon_row_skip 1 5 (by decide) (by decide)]
  unfold runFirst.sl.HS_2
  rw [canon_row_skip 0 5 (by decide) (by decide)]
  unfold runFirst.sl.HS_1
  rw [View.canon_unit_zero zero_off2]

/-- At the first point row 6's load of the accumulator reads the zero stored over the whole buffer. -/
theorem accLoadFirst6 (c : Dev nD) :
    accM.view.readCov (runFirst.sl.HS_7 (F := F) c (ms0 t0_0) (hs0 t0_0) (ms1 t0_0) (hs1 t0_0) (ms2 t0_0) (hs2 t0_0) (ms3 t0_0) (hs3 t0_0) (ms4 t0_0) (hs4 t0_0) accM (iblk m c 0 t0_0) (iblk m c 1 t0_0) (iblk m c 2 t0_0) (iblk m c 3 t0_0) (iblk m c 4 t0_0)) (Rect.unit (s := S8x1) ![6, 0] S1x1.size inb_S8x1_S1x1_6_0).toLoadRect
      = View.ld (k0_pay3 (F := F)) (Rect.unit (s := S8x1) ![6, 0] S1x1.size inb_S8x1_S1x1_6_0) := by
  rw [View.readCov_eq_canon']
  funext j
  rw [row_idx 6 (by decide) inb_S8x1_S1x1_6_0 j]
  show _ = k0_pay3 (F := F) ((Rect.unit (s := S8x1) ![6, 0] S1x1.size inb_S8x1_S1x1_6_0).toLoadRect.idx j)
  rw [row_idx 6 (by decide) inb_S8x1_S1x1_6_0 j]
  unfold runFirst.sl.HS_7
  rw [canon_row_skip 5 6 (by decide) (by decide)]
  unfold runFirst.sl.HS_6
  rw [canon_row_skip 4 6 (by decide) (by decide)]
  unfold runFirst.sl.HS_5
  rw [canon_row_skip 3 6 (by decide) (by decide)]
  unfold runFirst.sl.HS_4
  rw [canon_row_skip 2 6 (by decide) (by decide)]
  unfold runFirst.sl.HS_3
  rw [canon_row_skip 1 6 (by decide) (by decide)]
  unfold runFirst.sl.HS_2
  rw [canon_row_skip 0 6 (by decide) (by decide)]
  unfold runFirst.sl.HS_1
  rw [View.canon_unit_zero zero_off2]

/-- At the first point row 7's load of the accumulator reads the zero stored over the whole buffer. -/
theorem accLoadFirst7 (c : Dev nD) :
    accM.view.readCov (runFirst.sl.HS_8 (F := F) c (ms0 t0_0) (hs0 t0_0) (ms1 t0_0) (hs1 t0_0) (ms2 t0_0) (hs2 t0_0) (ms3 t0_0) (hs3 t0_0) (ms4 t0_0) (hs4 t0_0) accM (iblk m c 0 t0_0) (iblk m c 1 t0_0) (iblk m c 2 t0_0) (iblk m c 3 t0_0) (iblk m c 4 t0_0)) (Rect.unit (s := S8x1) ![7, 0] S1x1.size inb_S8x1_S1x1_7_0).toLoadRect
      = View.ld (k0_pay3 (F := F)) (Rect.unit (s := S8x1) ![7, 0] S1x1.size inb_S8x1_S1x1_7_0) := by
  rw [View.readCov_eq_canon']
  funext j
  rw [row_idx 7 (by decide) inb_S8x1_S1x1_7_0 j]
  show _ = k0_pay3 (F := F) ((Rect.unit (s := S8x1) ![7, 0] S1x1.size inb_S8x1_S1x1_7_0).toLoadRect.idx j)
  rw [row_idx 7 (by decide) inb_S8x1_S1x1_7_0 j]
  unfold runFirst.sl.HS_8
  rw [canon_row_skip 6 7 (by decide) (by decide)]
  unfold runFirst.sl.HS_7
  rw [canon_row_skip 5 7 (by decide) (by decide)]
  unfold runFirst.sl.HS_6
  rw [canon_row_skip 4 7 (by decide) (by decide)]
  unfold runFirst.sl.HS_5
  rw [canon_row_skip 3 7 (by decide) (by decide)]
  unfold runFirst.sl.HS_4
  rw [canon_row_skip 2 7 (by decide) (by decide)]
  unfold runFirst.sl.HS_3
  rw [canon_row_skip 1 7 (by decide) (by decide)]
  unfold runFirst.sl.HS_2
  rw [canon_row_skip 0 7 (by decide) (by decide)]
  unfold runFirst.sl.HS_1
  rw [View.canon_unit_zero zero_off2]

/-- Row 0 after the first point. -/
theorem accFirst_row0 (c : Dev nD) :
    accFirst m c (ix2 ⟨0, by decide⟩ 0)
      = rowUpdate (k0_pay4 (F := F)) (k0_pay5 (View.ld (iblk m c 2 t0_0) (Rect.unit (s := S128x7) ![0, 0] S128x7.size inb_S128x7_S128x7_0_0))) (k0_pay6 (View.ld (iblk m c 3 t0_0) (Rect.unit (s := S2x128) ![0, 0] S2x128.size inb_S2x128_S2x128_0_0))) (k0_pay7 (View.ld (iblk m c 4 t0_0) (Rect.unit (s := S1x1) ![0, 0] S1x1.size inb_S1x1_S1x1_0_0)))
          (View.ld (iblk m c 0 t0_0) (Rect.unit (s := S3x8x32768) ![0, 0, 0] S3x1x32768.size inb_S3x8x32768_S3x1x32768_0_0_0)) (View.ld (iblk m c 1 t0_0) (Rect.unit (s := S3x8x32768) ![0, 0, 0] S3x1x32768.size inb_S3x8x32768_S3x1x32768_0_0_0)) (View.ld (k0_pay3 (F := F)) (Rect.unit (s := S8x1) ![0, 0] S1x1.size inb_S8x1_S1x1_0_0)) (ix2 0 0) := by
  unfold accFirst
  rw [View.read_writes_eq_canon _ _ _ (coverAccFirst m c)]
  unfold runFirst
  dsimp only
  rw [canon_row_skip 7 0 (by decide) (by decide)]
  unfold runFirst.sl.HS_8
  rw [canon_row_skip 6 0 (by decide) (by decide)]
  unfold runFirst.sl.HS_7
  rw [canon_row_skip 5 0 (by decide) (by decide)]
  unfold runFirst.sl.HS_6
  rw [canon_row_skip 4 0 (by decide) (by decide)]
  unfold runFirst.sl.HS_5
  rw [canon_row_skip 3 0 (by decide) (by decide)]
  unfold runFirst.sl.HS_4
  rw [canon_row_skip 2 0 (by decide) (by decide)]
  unfold runFirst.sl.HS_3
  rw [canon_row_skip 1 0 (by decide) (by decide)]
  unfold runFirst.sl.HS_2
  rw [canon_row_hit 0 (by decide)]
  unfold runFirst.sl.v26
  rw [accLoadFirst0 c]
  simp only [View.readAt_eq_ld, Memref.IsWhole.read_unread]
  rfl

/-- Row 1 after the first point. -/
theorem accFirst_row1 (c : Dev nD) :
    accFirst m c (ix2 ⟨1, by decide⟩ 0)
      = rowUpdate (k0_pay4 (F := F)) (k0_pay5 (View.ld (iblk m c 2 t0_0) (Rect.unit (s := S128x7) ![0, 0] S128x7.size inb_S128x7_S128x7_0_0))) (k0_pay6 (View.ld (iblk m c 3 t0_0) (Rect.unit (s := S2x128) ![0, 0] S2x128.size inb_S2x128_S2x128_0_0))) (k0_pay7 (View.ld (iblk m c 4 t0_0) (Rect.unit (s := S1x1) ![0, 0] S1x1.size inb_S1x1_S1x1_0_0)))
          (View.ld (iblk m c 0 t0_0) (Rect.unit (s := S3x8x32768) ![0, 1, 0] S3x1x32768.size inb_S3x8x32768_S3x1x32768_0_1_0)) (View.ld (iblk m c 1 t0_0) (Rect.unit (s := S3x8x32768) ![0, 1, 0] S3x1x32768.size inb_S3x8x32768_S3x1x32768_0_1_0)) (View.ld (k0_pay3 (F := F)) (Rect.unit (s := S8x1) ![1, 0] S1x1.size inb_S8x1_S1x1_1_0)) (ix2 0 0) := by
  unfold accFirst
  rw [View.read_writes_eq_canon _ _ _ (coverAccFirst m c)]
  unfold runFirst
  dsimp only
  rw [canon_row_skip 7 1 (by decide) (by decide)]
  unfold runFirst.sl.HS_8
  rw [canon_row_skip 6 1 (by decide) (by decide)]
  unfold runFirst.sl.HS_7
  rw [canon_row_skip 5 1 (by decide) (by decide)]
  unfold runFirst.sl.HS_6
  rw [canon_row_skip 4 1 (by decide) (by decide)]
  unfold runFirst.sl.HS_5
  rw [canon_row_skip 3 1 (by decide) (by decide)]
  unfold runFirst.sl.HS_4
  rw [canon_row_skip 2 1 (by decide) (by decide)]
  unfold runFirst.sl.HS_3
  rw [canon_row_hit 1 (by decide)]
  unfold runFirst.sl.r runFirst.sl.r_1 runFirst.sl.r_2 runFirst.sl.v49
  rw [accLoadFirst1 m c]
  simp only [View.readAt_eq_ld, Memref.IsWhole.read_unread]
  rfl

/-- Row 2 after the first point. -/
theorem accFirst_row2 (c : Dev nD) :
    accFirst m c (ix2 ⟨2, by decide⟩ 0)
      = rowUpdate (k0_pay4 (F := F)) (k0_pay5 (View.ld (iblk m c 2 t0_0) (Rect.unit (s := S128x7) ![0, 0] S128x7.size inb_S128x7_S128x7_0_0))) (k0_pay6 (View.ld (iblk m c 3 t0_0) (Rect.unit (s := S2x128) ![0, 0] S2x128.size inb_S2x128_S2x128_0_0))) (k0_pay7 (View.ld (iblk m c 4 t0_0) (Rect.unit (s := S1x1) ![0, 0] S1x1.size inb_S1x1_S1x1_0_0)))
          (View.ld (iblk m c 0 t0_0) (Rect.unit (s := S3x8x32768) ![0, 2, 0] S3x1x32768.size inb_S3x8x32768_S3x1x32768_0_2_0)) (View.ld (iblk m c 1 t0_0) (Rect.unit (s := S3x8x32768) ![0, 2, 0] S3x1x32768.size inb_S3x8x32768_S3x1x32768_0_2_0)) (View.ld (k0_pay3 (F := F)) (Rect.unit (s := S8x1) ![2, 0] S1x1.size inb_S8x1_S1x1_2_0)) (ix2 0 0) := by
  unfold accFirst
  rw [View.read_writes_eq_canon _ _ _ (coverAccFirst m c)]
  unfold runFirst
  dsimp only
  rw [canon_row_skip 7 2 (by decide) (by decide)]
  unfold runFirst.sl.HS_8
  rw [canon_row_skip 6 2 (by decide) (by decide)]
  unfold runFirst.sl.HS_7
  rw [canon_row_skip 5 2 (by decide) (by decide)]
  unfold runFirst.sl.HS_6
  rw [canon_row_skip 4 2 (by decide) (by decide)]
  unfold runFirst.sl.HS_5
  rw [canon_row_skip 3 2 (by decide) (by decide)]
  unfold runFirst.sl.HS_4
  rw [canon_row_hit 2 (by decide)]
  unfold runFirst.sl.r_3 runFirst.sl.cst_43 runFirst.sl.r runFirst.sl.r_1 runFirst.sl.r_2 runFirst.sl.v72
  rw [accLoadFirst2 m c]
  simp only [View.readAt_eq_ld, Memref.IsWhole.read_unread]
  rfl

/-- Row 3 after the first point. -/
theorem accFirst_row3 (c : Dev nD) :
    accFirst m c (ix2 ⟨3, by decide⟩ 0)
      = rowUpdate (k0_pay4 (F := F)) (k0_pay5 (View.ld (iblk m c 2 t0_0) (Rect.unit (s := S128x7) ![0, 0] S128x7.size inb_S128x7_S128x7_0_0))) (k0_pay6 (View.ld (iblk m c 3 t0_0) (Rect.unit (s := S2x128) ![0, 0] S2x128.size inb_S2x128_S2x128_0_0))) (k0_pay7 (View.ld (iblk m c 4 t0_0) (Rect.unit (s := S1x1) ![0, 0] S1x1.size inb_S1x1_S1x1_0_0)))
          (View.ld (iblk m c 0 t0_0) (Rect.unit (s := S3x8x32768) ![0, 3, 0] S3x1x32768.size inb_S3x8x32768_S3x1x32768_0_3_0)) (View.ld (iblk m c 1 t0_0) (Rect.unit (s := S3x8x32768) ![0, 3, 0] S3x1x32768.size inb_S3x8x32768_S3x1x32768_0_3_0)) (View.ld (k0_pay3 (F := F)) (Rect.unit (s := S8x1) ![3, 0] S1x1.size inb_S8x1_S1x1_3_0)) (ix2 0 0) := by
  unfold accFirst
  rw [View.read_writes_eq_canon _ _ _ (coverAccFirst m c)]
  unfold runFirst
  dsimp only
  rw [canon_row_skip 7 3 (by decide) (by decide)]
  unfold runFirst.sl.HS_8
  rw [canon_row_skip 6 3 (by decide) (by decide)]
  unfold runFirst.sl.HS_7
  rw [canon_row_skip 5 3 (by decide) (by decide)]
  unfold runFirst.sl.HS_6
  rw [canon_row_skip 4 3 (by decide) (by decide)]
  unfold runFirst.sl.HS_5
  rw [canon_row_hit 3 (by decide)]
  unfold runFirst.sl.r runFirst.sl.r_1 runFirst.sl.r_2 runFirst.sl.v95
  rw [accLoadFirst3 m c]
  simp only [View.readAt_eq_ld, Memref.IsWhole.read_unread]
  rfl

/-- Row 4 after the first point. -/
theorem accFirst_row4 (c : Dev nD) :
    accFirst m c (ix2 ⟨4, by decide⟩ 0)
      = rowUpdate (k0_pay4 (F := F)) (k0_pay5 (View.ld (iblk m c 2 t0_0) (Rect.unit (s := S128x7) ![0, 0] S128x7.size inb_S128x7_S128x7_0_0))) (k0_pay6 (View.ld (iblk m c 3 t0_0) (Rect.unit (s := S2x128) ![0, 0] S2x128.size inb_S2x128_S2x128_0_0))) (k0_pay7 (View.ld (iblk m c 4 t0_0) (Rect.unit (s := S1x1) ![0, 0] S1x1.size inb_S1x1_S1x1_0_0)))
          (View.ld (iblk m c 0 t0_0) (Rect.unit (s := S3x8x32768) ![0, 4, 0] S3x1x32768.size inb_S3x8x32768_S3x1x32768_0_4_0)) (View.ld (iblk m c 1 t0_0) (Rect.unit (s := S3x8x32768) ![0, 4, 0] S3x1x32768.size inb_S3x8x32768_S3x1x32768_0_4_0)) (View.ld (k0_pay3 (F := F)) (Rect.unit (s := S8x1) ![4, 0] S1x1.size inb_S8x1_S1x1_4_0)) (ix2 0 0) := by
  unfold accFirst
  rw [View.read_writes_eq_canon _ _ _ (coverAccFirst m c)]
  unfold runFirst
  dsimp only
  rw [canon_row_skip 7 4 (by decide) (by decide)]
  unfold runFirst.sl.HS_8
  rw [canon_row_skip 6 4 (by decide) (by decide)]
  unfold runFirst.sl.HS_7
  rw [canon_row_skip 5 4 (by decide) (by decide)]
  unfold runFirst.sl.HS_6
  rw [canon_row_hit 4 (by decide)]
  unfold runFirst.sl.r runFirst.sl.r_1 runFirst.sl.r_2 runFirst.sl.v118
  rw [accLoadFirst4 m c]
  simp only [View.readAt_eq_ld, Memref.IsWhole.read_unread]
  rfl

/-- Row 5 after the first point. -/
theorem accFirst_row5 (c : Dev nD) :
    accFirst m c (ix2 ⟨5, by decide⟩ 0)
      = rowUpdate (k0_pay4 (F := F)) (k0_pay5 (View.ld (iblk m c 2 t0_0) (Rect.unit (s := S128x7) ![0, 0] S128x7.size inb_S128x7_S128x7_0_0))) (k0_pay6 (View.ld (iblk m c 3 t0_0) (Rect.unit (s := S2x128) ![0, 0] S2x128.size inb_S2x128_S2x128_0_0))) (k0_pay7 (View.ld (iblk m c 4 t0_0) (Rect.unit (s := S1x1) ![0, 0] S1x1.size inb_S1x1_S1x1_0_0)))
          (View.ld (iblk m c 0 t0_0) (Rect.unit (s := S3x8x32768) ![0, 5, 0] S3x1x32768.size inb_S3x8x32768_S3x1x32768_0_5_0)) (View.ld (iblk m c 1 t0_0) (Rect.unit (s := S3x8x32768) ![0, 5, 0] S3x1x32768.size inb_S3x8x32768_S3x1x32768_0_5_0)) (View.ld (k0_pay3 (F := F)) (Rect.unit (s := S8x1) ![5, 0] S1x1.size inb_S8x1_S1x1_5_0)) (ix2 0 0) := by
  unfold accFirst
  rw [View.read_writes_eq_canon _ _ _ (coverAccFirst m c)]
  unfold runFirst
  dsimp only
  rw [canon_row_skip 7 5 (by decide) (by decide)]
  unfold runFirst.sl.HS_8
  rw [canon_row_skip 6 5 (by decide) (by decide)]
  unfold runFirst.sl.HS_7
  rw [canon_row_hit 5 (by decide)]
  unfold runFirst.sl.r_4 runFirst.sl.r_5 runFirst.sl.r runFirst.sl.r_1 runFirst.sl.r_2 runFirst.sl.v141
  rw [accLoadFirst5 m c]
  simp only [View.readAt_eq_ld, Memref.IsWhole.read_unread]
  rfl

/-- Row 6 after the first point. -/
theorem accFirst_row6 (c : Dev nD) :
    accFirst m c (ix2 ⟨6, by decide⟩ 0)
      = rowUpdate (k0_pay4 (F := F)) (k0_pay5 (View.ld (iblk m c 2 t0_0) (Rect.unit (s := S128x7) ![0, 0] S128x7.size inb_S128x7_S128x7_0_0))) (k0_pay6 (View.ld (iblk m c 3 t0_0) (Rect.unit (s := S2x128) ![0, 0] S2x128.size inb_S2x128_S2x128_0_0))) (k0_pay7 (View.ld (iblk m c 4 t0_0) (Rect.unit (s := S1x1) ![0, 0] S1x1.size inb_S1x1_S1x1_0_0)))
          (View.ld (iblk m c 0 t0_0) (Rect.unit (s := S3x8x32768) ![0, 6, 0] S3x1x32768.size inb_S3x8x32768_S3x1x32768_0_6_0)) (View.ld (iblk m c 1 t0_0) (Rect.unit (s := S3x8x32768) ![0, 6, 0] S3x1x32768.size inb_S3x8x32768_S3x1x32768_0_6_0)) (View.ld (k0_pay3 (F := F)) (Rect.unit (s := S8x1) ![6, 0] S1x1.size inb_S8x1_S1x1_6_0)) (ix2 0 0) := by
  unfold accFirst
  rw [View.read_writes_eq_canon _ _ _ (coverAccFirst m c)]
  unfold runFirst
  dsimp only
  rw [canon_row_skip 7 6 (by decide) (by decide)]
  unfold runFirst.sl.HS_8
  rw [canon_row_hit 6 (by decide)]
  unfold runFirst.sl.r runFirst.sl.r_1 runFirst.sl.r_2 runFirst.sl.v164
  rw [accLoadFirst6 m c]
  simp only [View.readAt_eq_ld, Memref.IsWhole.read_unread]
  rfl

/-- Row 7 after the first point. -/
theorem accFirst_row7 (c : Dev nD) :
    accFirst m c (ix2 ⟨7, by decide⟩ 0)
      = rowUpdate (k0_pay4 (F := F)) (k0_pay5 (View.ld (iblk m c 2 t0_0) (Rect.unit (s := S128x7) ![0, 0] S128x7.size inb_S128x7_S128x7_0_0))) (k0_pay6 (View.ld (iblk m c 3 t0_0) (Rect.unit (s := S2x128) ![0, 0] S2x128.size inb_S2x128_S2x128_0_0))) (k0_pay7 (View.ld (iblk m c 4 t0_0) (Rect.unit (s := S1x1) ![0, 0] S1x1.size inb_S1x1_S1x1_0_0)))
          (View.ld (iblk m c 0 t0_0) (Rect.unit (s := S3x8x32768) ![0, 7, 0] S3x1x32768.size inb_S3x8x32768_S3x1x32768_0_7_0)) (View.ld (iblk m c 1 t0_0) (Rect.unit (s := S3x8x32768) ![0, 7, 0] S3x1x32768.size inb_S3x8x32768_S3x1x32768_0_7_0)) (View.ld (k0_pay3 (F := F)) (Rect.unit (s := S8x1) ![7, 0] S1x1.size inb_S8x1_S1x1_7_0)) (ix2 0 0) := by
  unfold accFirst
  rw [View.read_writes_eq_canon _ _ _ (coverAccFirst m c)]
  unfold runFirst
  dsimp only
  rw [canon_row_hit 7 (by decide)]
  unfold runFirst.sl.r_6 runFirst.sl.r runFirst.sl.r_1 runFirst.sl.r_2 runFirst.sl.v187
  rw [accLoadFirst7 m c]
  simp only [View.readAt_eq_ld, Memref.IsWhole.read_unread]
  rfl

/-! ## The last point -/

/-- Reading the accumulator's buffer, held whole at contents X, gives X. -/
theorem acc_read_unread (h : (accM : Memref sig .tc .vmem S8x1 .f32).IsWhole) (X : Vec F S8x1 .f32) :
    View.read (Elt F) (View.whole cc0_scratch0) (h.unread X) = X := h.read_unread X

/-- Row 0 after the last point: the row's update of what the first point left. -/
theorem accLast_row0 (c : Dev nD) :
    accLast m c (ix2 ⟨0, by decide⟩ 0)
      = rowUpdate (k0_pay4 (F := F)) (k0_pay5 (View.ld (iblk m c 2 t0_1) (Rect.unit (s := S128x7) ![0, 0] S128x7.size inb_S128x7_S128x7_0_0))) (k0_pay6 (View.ld (iblk m c 3 t0_1) (Rect.unit (s := S2x128) ![0, 0] S2x128.size inb_S2x128_S2x128_0_0))) (k0_pay7 (View.ld (iblk m c 4 t0_1) (Rect.unit (s := S1x1) ![0, 0] S1x1.size inb_S1x1_S1x1_0_0)))
          (View.ld (iblk m c 0 t0_1) (Rect.unit (s := S3x8x32768) ![0, 0, 0] S3x1x32768.size inb_S3x8x32768_S3x1x32768_0_0_0)) (View.ld (iblk m c 1 t0_1) (Rect.unit (s := S3x8x32768) ![0, 0, 0] S3x1x32768.size inb_S3x8x32768_S3x1x32768_0_0_0)) (View.ld (accFirst m c) (Rect.unit (s := S8x1) ![0, 0] S1x1.size inb_S8x1_S1x1_0_0)) (ix2 0 0) := by
  unfold accLast
  rw [View.read_writes_eq_canon _ _ _ (coverAccLast m c)]
  unfold runLast
  dsimp only
  unfold runLast.sl.HS_8
  rw [canon_row_skip 7 0 (by decide) (by decide)]
  rw [canon_row_skip 6 0 (by decide) (by decide)]
  rw [canon_row_skip 5 0 (by decide) (by decide)]
  rw [canon_row_skip 4 0 (by decide) (by decide)]
  rw [canon_row_skip 3 0 (by decide) (by decide)]
  rw [canon_row_skip 2 0 (by decide) (by decide)]
  rw [canon_row_skip 1 0 (by decide) (by decide)]
  rw [canon_row_hit 0 (by decide)]
  simp only [View.readAt_eq_ld, Memref.IsWhole.read_unread, acc_read_unread]
  rfl

/-- Row 1 after the last point: the row's update of what the first point left. -/
theorem accLast_row1 (c : Dev nD) :
    accLast m c (ix2 ⟨1, by decide⟩ 0)
      = rowUpdate (k0_pay4 (F := F)) (k0_pay5 (View.ld (iblk m c 2 t0_1) (Rect.unit (s := S128x7) ![0, 0] S128x7.size inb_S128x7_S128x7_0_0))) (k0_pay6 (View.ld (iblk m c 3 t0_1) (Rect.unit (s := S2x128) ![0, 0] S2x128.size inb_S2x128_S2x128_0_0))) (k0_pay7 (View.ld (iblk m c 4 t0_1) (Rect.unit (s := S1x1) ![0, 0] S1x1.size inb_S1x1_S1x1_0_0)))
          (View.ld (iblk m c 0 t0_1) (Rect.unit (s := S3x8x32768) ![0, 1, 0] S3x1x32768.size inb_S3x8x32768_S3x1x32768_0_1_0)) (View.ld (iblk m c 1 t0_1) (Rect.unit (s := S3x8x32768) ![0, 1, 0] S3x1x32768.size inb_S3x8x32768_S3x1x32768_0_1_0)) (View.ld (accFirst m c) (Rect.unit (s := S8x1) ![1, 0] S1x1.size inb_S8x1_S1x1_1_0)) (ix2 0 0) := by
  unfold accLast
  rw [View.read_writes_eq_canon _ _ _ (coverAccLast m c)]
  unfold runLast
  dsimp only
  unfold runLast.sl.HS_8
  rw [canon_row_skip 7 1 (by decide) (by decide)]
  rw [canon_row_skip 6 1 (by decide) (by decide)]
  rw [canon_row_skip 5 1 (by decide) (by decide)]
  rw [canon_row_skip 4 1 (by decide) (by decide)]
  rw [canon_row_skip 3 1 (by decide) (by decide)]
  rw [canon_row_skip 2 1 (by decide) (by decide)]
  rw [canon_row_hit 1 (by decide)]
  unfold runLast.sl.r runLast.sl.r_1 runLast.sl.r_2 runLast.sl.v49
  simp only [View.readAt_eq_ld, Memref.IsWhole.read_unread, acc_read_unread]
  rfl

/-- Row 2 after the last point: the row's update of what the first point left. -/
theorem accLast_row2 (c : Dev nD) :
    accLast m c (ix2 ⟨2, by decide⟩ 0)
      = rowUpdate (k0_pay4 (F := F)) (k0_pay5 (View.ld (iblk m c 2 t0_1) (Rect.unit (s := S128x7) ![0, 0] S128x7.size inb_S128x7_S128x7_0_0))) (k0_pay6 (View.ld (iblk m c 3 t0_1) (Rect.unit (s := S2x128) ![0, 0] S2x128.size inb_S2x128_S2x128_0_0))) (k0_pay7 (View.ld (iblk m c 4 t0_1) (Rect.unit (s := S1x1) ![0, 0] S1x1.size inb_S1x1_S1x1_0_0)))
          (View.ld (iblk m c 0 t0_1) (Rect.unit (s := S3x8x32768) ![0, 2, 0] S3x1x32768.size inb_S3x8x32768_S3x1x32768_0_2_0)) (View.ld (iblk m c 1 t0_1) (Rect.unit (s := S3x8x32768) ![0, 2, 0] S3x1x32768.size inb_S3x8x32768_S3x1x32768_0_2_0)) (View.ld (accFirst m c) (Rect.unit (s := S8x1) ![2, 0] S1x1.size inb_S8x1_S1x1_2_0)) (ix2 0 0) := by
  unfold accLast
  rw [View.read_writes_eq_canon _ _ _ (coverAccLast m c)]
  unfold runLast
  dsimp only
  unfold runLast.sl.HS_8
  rw [canon_row_skip 7 2 (by decide) (by decide)]
  rw [canon_row_skip 6 2 (by decide) (by decide)]
  rw [canon_row_skip 5 2 (by decide) (by decide)]
  rw [canon_row_skip 4 2 (by decide) (by decide)]
  rw [canon_row_skip 3 2 (by decide) (by decide)]
  rw [canon_row_hit 2 (by decide)]
  unfold runLast.sl.r_3 runLast.sl.cst_43 runLast.sl.r runLast.sl.r_1 runLast.sl.r_2 runLast.sl.v72
  simp only [View.readAt_eq_ld, Memref.IsWhole.read_unread, acc_read_unread]
  rfl

/-- Row 3 after the last point: the row's update of what the first point left. -/
theorem accLast_row3 (c : Dev nD) :
    accLast m c (ix2 ⟨3, by decide⟩ 0)
      = rowUpdate (k0_pay4 (F := F)) (k0_pay5 (View.ld (iblk m c 2 t0_1) (Rect.unit (s := S128x7) ![0, 0] S128x7.size inb_S128x7_S128x7_0_0))) (k0_pay6 (View.ld (iblk m c 3 t0_1) (Rect.unit (s := S2x128) ![0, 0] S2x128.size inb_S2x128_S2x128_0_0))) (k0_pay7 (View.ld (iblk m c 4 t0_1) (Rect.unit (s := S1x1) ![0, 0] S1x1.size inb_S1x1_S1x1_0_0)))
          (View.ld (iblk m c 0 t0_1) (Rect.unit (s := S3x8x32768) ![0, 3, 0] S3x1x32768.size inb_S3x8x32768_S3x1x32768_0_3_0)) (View.ld (iblk m c 1 t0_1) (Rect.unit (s := S3x8x32768) ![0, 3, 0] S3x1x32768.size inb_S3x8x32768_S3x1x32768_0_3_0)) (View.ld (accFirst m c) (Rect.unit (s := S8x1) ![3, 0] S1x1.size inb_S8x1_S1x1_3_0)) (ix2 0 0) := by
  unfold accLast
  rw [View.read_writes_eq_canon _ _ _ (coverAccLast m c)]
  unfold runLast
  dsimp only
  unfold runLast.sl.HS_8
  rw [canon_row_skip 7 3 (by decide) (by decide)]
  rw [canon_row_skip 6 3 (by decide) (by decide)]
  rw [canon_row_skip 5 3 (by decide) (by decide)]
  rw [canon_row_skip 4 3 (by decide) (by decide)]
  rw [canon_row_hit 3 (by decide)]
  unfold runLast.sl.r runLast.sl.r_1 runLast.sl.r_2 runLast.sl.v95
  simp only [View.readAt_eq_ld, Memref.IsWhole.read_unread, acc_read_unread]
  rfl

/-- Row 4 after the last point: the row's update of what the first point left. -/
theorem accLast_row4 (c : Dev nD) :
    accLast m c (ix2 ⟨4, by decide⟩ 0)
      = rowUpdate (k0_pay4 (F := F)) (k0_pay5 (View.ld (iblk m c 2 t0_1) (Rect.unit (s := S128x7) ![0, 0] S128x7.size inb_S128x7_S128x7_0_0))) (k0_pay6 (View.ld (iblk m c 3 t0_1) (Rect.unit (s := S2x128) ![0, 0] S2x128.size inb_S2x128_S2x128_0_0))) (k0_pay7 (View.ld (iblk m c 4 t0_1) (Rect.unit (s := S1x1) ![0, 0] S1x1.size inb_S1x1_S1x1_0_0)))
          (View.ld (iblk m c 0 t0_1) (Rect.unit (s := S3x8x32768) ![0, 4, 0] S3x1x32768.size inb_S3x8x32768_S3x1x32768_0_4_0)) (View.ld (iblk m c 1 t0_1) (Rect.unit (s := S3x8x32768) ![0, 4, 0] S3x1x32768.size inb_S3x8x32768_S3x1x32768_0_4_0)) (View.ld (accFirst m c) (Rect.unit (s := S8x1) ![4, 0] S1x1.size inb_S8x1_S1x1_4_0)) (ix2 0 0) := by
  unfold accLast
  rw [View.read_writes_eq_canon _ _ _ (coverAccLast m c)]
  unfold runLast
  dsimp only
  unfold runLast.sl.HS_8
  rw [canon_row_skip 7 4 (by decide) (by decide)]
  rw [canon_row_skip 6 4 (by decide) (by decide)]
  rw [canon_row_skip 5 4 (by decide) (by decide)]
  rw [canon_row_hit 4 (by decide)]
  unfold runLast.sl.r runLast.sl.r_1 runLast.sl.r_2 runLast.sl.v118
  simp only [View.readAt_eq_ld, Memref.IsWhole.read_unread, acc_read_unread]
  rfl

/-- Row 5 after the last point: the row's update of what the first point left. -/
theorem accLast_row5 (c : Dev nD) :
    accLast m c (ix2 ⟨5, by decide⟩ 0)
      = rowUpdate (k0_pay4 (F := F)) (k0_pay5 (View.ld (iblk m c 2 t0_1) (Rect.unit (s := S128x7) ![0, 0] S128x7.size inb_S128x7_S128x7_0_0))) (k0_pay6 (View.ld (iblk m c 3 t0_1) (Rect.unit (s := S2x128) ![0, 0] S2x128.size inb_S2x128_S2x128_0_0))) (k0_pay7 (View.ld (iblk m c 4 t0_1) (Rect.unit (s := S1x1) ![0, 0] S1x1.size inb_S1x1_S1x1_0_0)))
          (View.ld (iblk m c 0 t0_1) (Rect.unit (s := S3x8x32768) ![0, 5, 0] S3x1x32768.size inb_S3x8x32768_S3x1x32768_0_5_0)) (View.ld (iblk m c 1 t0_1) (Rect.unit (s := S3x8x32768) ![0, 5, 0] S3x1x32768.size inb_S3x8x32768_S3x1x32768_0_5_0)) (View.ld (accFirst m c) (Rect.unit (s := S8x1) ![5, 0] S1x1.size inb_S8x1_S1x1_5_0)) (ix2 0 0) := by
  unfold accLast
  rw [View.read_writes_eq_canon _ _ _ (coverAccLast m c)]
  unfold runLast
  dsimp only
  unfold runLast.sl.HS_8
  rw [canon_row_skip 7 5 (by decide) (by decide)]
  rw [canon_row_skip 6 5 (by decide) (by decide)]
  rw [canon_row_hit 5 (by decide)]
  unfold runLast.sl.r_4 runLast.sl.r_5 runLast.sl.r runLast.sl.r_1 runLast.sl.r_2 runLast.sl.v141
  simp only [View.readAt_eq_ld, Memref.IsWhole.read_unread, acc_read_unread]
  rfl

/-- Row 6 after the last point: the row's update of what the first point left. -/
theorem accLast_row6 (c : Dev nD) :
    accLast m c (ix2 ⟨6, by decide⟩ 0)
      = rowUpdate (k0_pay4 (F := F)) (k0_pay5 (View.ld (iblk m c 2 t0_1) (Rect.unit (s := S128x7) ![0, 0] S128x7.size inb_S128x7_S128x7_0_0))) (k0_pay6 (View.ld (iblk m c 3 t0_1) (Rect.unit (s := S2x128) ![0, 0] S2x128.size inb_S2x128_S2x128_0_0))) (k0_pay7 (View.ld (iblk m c 4 t0_1) (Rect.unit (s := S1x1) ![0, 0] S1x1.size inb_S1x1_S1x1_0_0)))
          (View.ld (iblk m c 0 t0_1) (Rect.unit (s := S3x8x32768) ![0, 6, 0] S3x1x32768.size inb_S3x8x32768_S3x1x32768_0_6_0)) (View.ld (iblk m c 1 t0_1) (Rect.unit (s := S3x8x32768) ![0, 6, 0] S3x1x32768.size inb_S3x8x32768_S3x1x32768_0_6_0)) (View.ld (accFirst m c) (Rect.unit (s := S8x1) ![6, 0] S1x1.size inb_S8x1_S1x1_6_0)) (ix2 0 0) := by
  unfold accLast
  rw [View.read_writes_eq_canon _ _ _ (coverAccLast m c)]
  unfold runLast
  dsimp only
  unfold runLast.sl.HS_8
  rw [canon_row_skip 7 6 (by decide) (by decide)]
  rw [canon_row_hit 6 (by decide)]
  unfold runLast.sl.r runLast.sl.r_1 runLast.sl.r_2 runLast.sl.v164
  simp only [View.readAt_eq_ld, Memref.IsWhole.read_unread, acc_read_unread]
  rfl

/-- Row 7 after the last point: the row's update of what the first point left. -/
theorem accLast_row7 (c : Dev nD) :
    accLast m c (ix2 ⟨7, by decide⟩ 0)
      = rowUpdate (k0_pay4 (F := F)) (k0_pay5 (View.ld (iblk m c 2 t0_1) (Rect.unit (s := S128x7) ![0, 0] S128x7.size inb_S128x7_S128x7_0_0))) (k0_pay6 (View.ld (iblk m c 3 t0_1) (Rect.unit (s := S2x128) ![0, 0] S2x128.size inb_S2x128_S2x128_0_0))) (k0_pay7 (View.ld (iblk m c 4 t0_1) (Rect.unit (s := S1x1) ![0, 0] S1x1.size inb_S1x1_S1x1_0_0)))
          (View.ld (iblk m c 0 t0_1) (Rect.unit (s := S3x8x32768) ![0, 7, 0] S3x1x32768.size inb_S3x8x32768_S3x1x32768_0_7_0)) (View.ld (iblk m c 1 t0_1) (Rect.unit (s := S3x8x32768) ![0, 7, 0] S3x1x32768.size inb_S3x8x32768_S3x1x32768_0_7_0)) (View.ld (accFirst m c) (Rect.unit (s := S8x1) ![7, 0] S1x1.size inb_S8x1_S1x1_7_0)) (ix2 0 0) := by
  unfold accLast
  rw [View.read_writes_eq_canon _ _ _ (coverAccLast m c)]
  unfold runLast
  dsimp only
  unfold runLast.sl.HS_8
  rw [canon_row_hit 7 (by decide)]
  unfold runLast.sl.r_6 runLast.sl.r runLast.sl.r_1 runLast.sl.r_2 runLast.sl.v187
  simp only [View.readAt_eq_ld, Memref.IsWhole.read_unread, acc_read_unread]
  rfl

/-- The result block: the mean-of-squares payload of the accumulator as the last point left it. -/
theorem outLast_eq (c : Dev nD) : outLast m c = k0_pay2 (accLast m c) := by
  have hA : accLast m c = View.canon (runLast c (grid0.coords t0_1) (ms0 t0_1) (hs0 t0_1) (ms1 t0_1) (hs1 t0_1) (ms2 t0_1) (hs2 t0_1) (ms3 t0_1) (hs3 t0_1) (ms4 t0_1) (hs4 t0_1) (ms5 t0_1) (hs5 t0_1) accM (Memref.isWhole_whole _) (fun h => absurd ((hcondInit t0_1).mp h) (by decide)) ((hcondFin t0_1).mpr rfl) (iblk m c 0 t0_1) (iblk m c 1 t0_1) (iblk m c 2 t0_1) (iblk m c 3 t0_1) (iblk m c 4 t0_1) (accFirst m c)).2.1 := by
    unfold accLast; exact View.read_writes_eq_canon _ _ _ (coverAccLast m c)
  unfold outLast
  rw [View.read_writes_eq_canon _ _ _ (coverOutLast m c), hA]
  unfold runLast
  dsimp only
  rw [View.canon_unit_zero zero_off2]
  unfold runLast.sl.v197
  rw [View.readCov_eq_canon']
  exact congrArg k0_pay2 (View.ld_unit_zero zero_off2 inb_S8x1_S8x1_0_0 _)

end Cert.KernelIdeal.Fr

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibRowReduce.lean ====
/-
  Reductions along the rows of a matrix, at the ideal values.
  For an [a, b] matrix reduced along its second axis into a vector of length a:
  * the index of the matrix that lies over position r of the vector with k inserted on the reduced axis is (r, k);
  * a sum reduction reads, at r, the sum over k < b of the entries (r, k);
  * a maximum reduction reads, at r, the fold of max over k < b of the entries (r, k), started from the accumulator's value.
-/
import Idealize.ShloMosaic.PureOps.Ideal.Laws
import Idealize.ShloMosaic.Lib.ValueIdx

noncomputable section

namespace Cert.LibRowReduce

open Idealize.ShloMosaic Idealize.ShloMosaic.ValueIdx

/-- Over position `r` of the reduced vector, with `k` on the reduced axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The sum along a row: at `r`, the sum over the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum along a row: at `r`, the fold of `max` over the row's entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (FloatOps.ofBits φ acc) (fun k => src (ix2 r k)) :=
  (Ideal.multiReduction_maximumf_single src acc h hφ hacc (ix1 r)).trans
    (congrArg (Finset.fold max (FloatOps.ofBits φ acc) · (Finset.univ : Finset (Fin b)))
      (funext fun k => congrArg src (lift_row h r k)))

end Cert.LibRowReduce

end
-- ==== Proof.KernelIdealRowValue.lean ====
/-
  One diagram row of the kernel body at the ideal values, read at its one entry.

  Over the extended reals the row's update is: the accumulator's entry plus the sum over the 32 768 lanes l of
  out 0 l − out 1 l, where  out q l = max (Σ_{i<128} w2(q,i) · hidden i l + b2) 0,
  hidden i l = max (Σ_{r<7} w1(i,r) · rhs r l) 0, and the right-hand side's seven rows are the three student planes,
  the three teacher planes and the row of ones.
-/
import proofs.«119227_g12171937316930_cont_fleet_1064_14_alg».proof.Proof.KernelIdealRow
import proofs.«119227_g12171937316930_cont_fleet_1064_14_alg».proof.Proof.LibPlainDot
import proofs.«119227_g12171937316930_cont_fleet_1064_14_alg».proof.Proof.LibRowReduce
import Idealize.ShloMosaic.Lib.Pipeline.Value
import Idealize.ShloMosaic.Lib.ValueIdx
import Idealize.ShloMosaic.PureOps.Ideal.Laws

set_option maxRecDepth 16384

noncomputable section

namespace Cert.KernelIdeal.Fr

open Idealize.ShloMosaic Idealize.ShloMosaic.ValueIdx Idealize.SL.Sem
open Cert.KernelIdeal Cert.KernelIdeal.Gen

/-- A reshaped [3,1,32768] plane block read at (d, l). -/
theorem rowPlanes_apply (v : Vec Ideal S3x1x32768 .f32) (d : Fin 3) (l : Fin 32768) :
    shapeCast S3x32768 v shapeCasts_S3x1x32768_S3x32768 (ix2 d l) = v (ix3 d 0 l) :=
  shapeCast_apply v shapeCasts_S3x1x32768_S3x32768 (ix2 d l) (ix3 d 0 l) (by
    rw [Shape.rowMajor_val_three, Shape.rowMajor_val_two]
    show ((d.val * 1 + 0) * 32768 + l.val) = d.val * 32768 + l.val
    omega)

/-- Rows 0–2 of the right-hand side are the student planes. -/
theorem rowRhs_s (ones : FVec Ideal S1x32768 .f32) (vs vt : Vec Ideal S3x1x32768 .f32) (d : Fin 3) (l : Fin 32768) :
    rowRhs (F := Ideal) ones vs vt (ix2 ⟨d.val, by omega⟩ l) = vs (ix3 d 0 l) := by
  unfold rowRhs
  refine (concatenate_apply_piece (0 : Fin S7x32768.rank) _ _ (ix2 ⟨d.val, by omega⟩ l) 0 (by simp) S3x32768 _ rfl rfl 0 rfl (ix2 d l) ?_ ?_).trans (rowPlanes_apply vs d l)
  · intro b hb; match b with
    | ⟨0, _⟩ => exact absurd rfl hb
    | ⟨1, _⟩ => rfl
  · show 0 + d.val = d.val; omega

/-- Rows 3–5 are the teacher planes. -/
theorem rowRhs_t (ones : FVec Ideal S1x32768 .f32) (vs vt : Vec Ideal S3x1x32768 .f32) (d : Fin 3) (l : Fin 32768) :
    rowRhs (F := Ideal) ones vs vt (ix2 ⟨3 + d.val, by omega⟩ l) = vt (ix3 d 0 l) := by
  unfold rowRhs
  refine (concatenate_apply_piece (0 : Fin S7x32768.rank) _ _ (ix2 ⟨3 + d.val, by omega⟩ l) 1 (by simp) S3x32768 _ rfl rfl 3 rfl (ix2 d l) ?_ ?_).trans (rowPlanes_apply vt d l)
  · intro b hb; match b with
    | ⟨0, _⟩ => exact absurd rfl hb
    | ⟨1, _⟩ => rfl
  · rfl

/-- Row 6 is the row of ones. -/
theorem rowRhs_one (ones : FVec Ideal S1x32768 .f32) (vs vt : Vec Ideal S3x1x32768 .f32) (l : Fin 32768) :
    rowRhs (F := Ideal) ones vs vt (ix2 ⟨6, by omega⟩ l) = ones (ix2 0 l) := by
  unfold rowRhs
  refine concatenate_apply_piece (0 : Fin S7x32768.rank) _ _ (ix2 ⟨6, by omega⟩ l) 2 (by simp) S1x32768 _ rfl rfl 6 rfl (ix2 0 l) ?_ ?_
  · intro b hb; match b with
    | ⟨0, _⟩ => exact absurd rfl hb
    | ⟨1, _⟩ => rfl
  · rfl

/-- Hidden unit `i` at lane `l`. -/
def hidK (w1 : FVec Ideal S128x7 .f32) (rhs : FVec Ideal S7x32768 .f32) (i : Fin 128) (l : Fin 32768) : EReal :=
  max (∑ r : Fin 7, w1 (ix2 i r) * rhs (ix2 r l)) 0

/-- Output row `q` (0 the student's, 1 the teacher's) at lane `l`. -/
def outK (w1 : FVec Ideal S128x7 .f32) (w2 : FVec Ideal S2x128 .f32) (b2 : FVec Ideal S1x1 .f32) (rhs : FVec Ideal S7x32768 .f32)
    (q : Fin 2) (l : Fin 32768) : EReal :=
  max (∑ i : Fin 128, w2 (ix2 q i) * hidK w1 rhs i l + b2 (ix2 0 0)) 0

/-- The first product and clamp, at (i, l). -/
theorem hidden_apply (w1 : FVec Ideal S128x7 .f32) (rhs : FVec Ideal S7x32768 .f32) (i : Fin 128) (l : Fin 32768) :
    maximumf (matmul (F := Ideal) dot_S128x7_S7x32768_S128x32768_1_0_0_1_n_n none w1 rhs (constant S128x32768 .f32 0x00000000#32))
        (broadcast S128x32768 (Scalar.ofBits (F := Ideal) .f32 0x00000000#32)) (ix2 i l) = hidK w1 rhs i l := by
  have hm : matmul (F := Ideal) dot_S128x7_S7x32768_S128x32768_1_0_0_1_n_n none w1 rhs (constant S128x32768 .f32 0x00000000#32) (ix2 i l)
      = ∑ r : Fin 7, w1 (ix2 i r) * rhs (ix2 r l) := Cert.LibPlainDot.matmul_plain 128 7 32768 none w1 rhs (ix2 i l)
  rw [maximumf_apply, hm, broadcast_apply]
  show max _ (Ideal.ofBits .f32 0x00000000#32) = _
  rw [Ideal.ofBits_zero_f32]
  rfl

/-- The two clamped output rows, at (q, l). -/
theorem rowOut_apply (w1 : FVec Ideal S128x7 .f32) (w2 : FVec Ideal S2x128 .f32) (b2 : FVec Ideal S1x1 .f32) (rhs : FVec Ideal S7x32768 .f32)
    (q : Fin 2) (l : Fin 32768) : rowOut (F := Ideal) w1 w2 b2 rhs (ix2 q l) = outK w1 w2 b2 rhs q l := by
  unfold rowOut
  have hm := Cert.LibPlainDot.matmul_plain 2 128 32768 none w2
    (maximumf (matmul (F := Ideal) dot_S128x7_S7x32768_S128x32768_1_0_0_1_n_n none w1 rhs (constant S128x32768 .f32 0x00000000#32))
        (broadcast S128x32768 (Scalar.ofBits (F := Ideal) .f32 0x00000000#32))) (ix2 q l)
  have hb : broadcastTo S2x32768 b2 broadcasts_S1x1_S2x32768 (ix2 q l) = b2 (ix2 0 0) :=
    broadcastTo_apply b2 broadcasts_S1x1_S2x32768 (ix2 q l) (ix2 0 0) (fun a => by match a with | ⟨0, _⟩ => rfl | ⟨1, _⟩ => rfl)
  rw [maximumf_apply, addf_apply, hb, broadcast_apply]
  refine Eq.trans (congrArg (fun z => max (z + b2 (ix2 0 0)) (Scalar.ofBits (F := Ideal) .f32 0x00000000#32)) hm) ?_
  show max _ (Ideal.ofBits .f32 0x00000000#32) = _
  rw [Ideal.ofBits_zero_f32]
  unfold outK
  refine congrArg (fun z => max (z + b2 (ix2 0 0)) 0) (Finset.sum_congr rfl fun i _ => ?_)
  exact congrArg (fun z => w2 (ix2 q i) * z) (hidden_apply w1 rhs i l)

/-- The lane sum of row 0 − row 1, at its one entry. -/
theorem rowDiffSum_apply (o : FVec Ideal S2x32768 .f32) :
    rowDiffSum (F := Ideal) o (ix2 0 0) = ∑ l : Fin 32768, (o (ix2 0 l) - o (ix2 1 l)) := by
  unfold rowDiffSum
  refine (shapeCast_apply _ shapeCasts_S1_S1x1 (ix2 0 0) (ix1 0) (by rw [Shape.rowMajor_val_one, Shape.rowMajor_val_two]; rfl)).trans ?_
  refine (Cert.LibRowReduce.rowSum_apply _ _ reduces_S1x32768_S1 (.inl rfl) rfl 0).trans ?_
  refine Finset.sum_congr rfl fun l _ => ?_
  rw [subf_apply]
  refine congr (congrArg HSub.hSub ?_) ?_
  · exact extractStridedSlice_apply ![0, 0] o slices_S2x32768_o0_0_S1x32768 (ix2 0 l) (ix2 0 l)
      (fun a => by match a with | ⟨0, _⟩ => rfl | ⟨1, _⟩ => (show l.val = 0 + l.val; omega))
  · exact extractStridedSlice_apply ![1, 0] o slices_S2x32768_o1_0_S1x32768 (ix2 0 l) (ix2 1 l)
      (fun a => by match a with | ⟨0, _⟩ => rfl | ⟨1, _⟩ => (show l.val = 0 + l.val; omega))

/-- THE ROW: the accumulator's entry plus the lane sum of the two outputs' difference. -/
theorem rowUpdate_apply (ones : FVec Ideal S1x32768 .f32) (w1 : FVec Ideal S128x7 .f32) (w2 : FVec Ideal S2x128 .f32) (b2 : FVec Ideal S1x1 .f32)
    (vs vt : Vec Ideal S3x1x32768 .f32) (acc : Vec Ideal S1x1 .f32) :
    rowUpdate (F := Ideal) ones w1 w2 b2 vs vt acc (ix2 0 0)
      = acc (ix2 0 0) + ∑ l : Fin 32768, (outK w1 w2 b2 (rowRhs ones vs vt) 0 l - outK w1 w2 b2 (rowRhs ones vs vt) 1 l) := by
  unfold rowUpdate
  rw [shapeCast_self, addf_apply, rowDiffSum_apply]
  refine congrArg (fun z => acc (ix2 0 0) + z) (Finset.sum_congr rfl fun l _ => ?_)
  rw [rowOut_apply, rowOut_apply]

end Cert.KernelIdeal.Fr

end
-- ==== Proof.Spec.lean ====
/-
  The loss both programs compute, as one function of the six argument arrays on the extended reals.

  For a point cloud x (8 diagrams of 65 536 points in 3 coordinates), weights W1 (3×64), b1 (64), W2 (64×1), b2 (1):
    hid x b n j  = max (Σ_{d<3} x(b,n,d) · W1(d,j) + b1(j)) 0          the hidden unit j of point n of diagram b
    outp x b n   = max (Σ_{j<64} hid x b n j · W2(j,0) + b2(0)) 0       the point's scalar
    feat x b     = Σ_{n<65536} outp x b n                              the diagram's feature
    loss S T     = (0 + Σ_{b<8} (feat S b − feat T b)²) / 8            the mean squared difference of the features
  The divisor is kept as the 32-bit word both programs print for 8.0; the leading 0 is the sum's initial value.
-/
import Idealize.ShloMosaic.PureOps.Ideal
import Idealize.ShloMosaic.Lib.ValueIdx

noncomputable section

namespace Cert.Spec

open Idealize.ShloMosaic Idealize.ShloMosaic.ValueIdx

abbrev Cloud := (⟨3, ![8, 65536, 3]⟩ : Shape).Idx → EReal
abbrev Mat1 := (⟨2, ![3, 64]⟩ : Shape).Idx → EReal
abbrev Bias1 := (⟨1, ![64]⟩ : Shape).Idx → EReal
abbrev Mat2 := (⟨2, ![64, 1]⟩ : Shape).Idx → EReal
abbrev Bias2 := (⟨1, ![1]⟩ : Shape).Idx → EReal

/-- Hidden unit `j` of point `n` of diagram `b`. -/
def hid (x : Cloud) (W1 : Mat1) (b1 : Bias1) (b : Fin 8) (n : Fin 65536) (j : Fin 64) : EReal :=
  max (∑ d : Fin 3, x (ix3 b n d) * W1 (ix2 d j) + b1 (ix1 j)) 0

/-- The scalar of point `n` of diagram `b`. -/
def outp (x : Cloud) (W1 : Mat1) (b1 : Bias1) (W2 : Mat2) (b2 : Bias2) (b : Fin 8) (n : Fin 65536) : EReal :=
  max (∑ j : Fin 64, hid x W1 b1 b n j * W2 (ix2 j 0) + b2 (ix1 0)) 0

/-- The feature of diagram `b`: the sum of its points' scalars. -/
def feat (x : Cloud) (W1 : Mat1) (b1 : Bias1) (W2 : Mat2) (b2 : Bias2) (b : Fin 8) : EReal :=
  ∑ n : Fin 65536, outp x W1 b1 W2 b2 b n

/-- The mean over the eight diagrams of the squared difference of the two clouds' features. -/
def loss (S T : Cloud) (W1 : Mat1) (b1 : Bias1) (W2 : Mat2) (b2 : Bias2) : EReal :=
  Ideal.div (0 + ∑ b : Fin 8, (feat S W1 b1 W2 b2 b - feat T W1 b1 W2 b2 b) * (feat S W1 b1 W2 b2 b - feat T W1 b1 W2 b2 b))
    (Ideal.ofBits .f32 0x41000000#32)

/-- The loss as the scalar array both programs return. -/
def lossArr (S T : Cloud) (W1 : Mat1) (b1 : Bias1) (W2 : Mat2) (b2 : Bias2) : (⟨0, ![]⟩ : Shape).Idx → EReal :=
  fun _ => loss S T W1 b1 W2 b2

/-! ## When everything is a real number -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.zero : IsReal 0 := ⟨0, rfl⟩

theorem IsReal.max {x y : EReal} (hx : IsReal x) (hy : IsReal y) : IsReal (max x y) := by
  rcases max_choice x y with h | h <;> rw [h] <;> assumption

theorem IsReal.sum {ι : Type} (s : Finset ι) (f : ι → EReal) (hf : ∀ k, IsReal (f k)) : IsReal (∑ k ∈ s, f k) := by
  classical
  refine Finset.induction_on s ⟨0, by simp⟩ ?_
  intro k t hk ih
  rw [Finset.sum_insert hk]
  exact (hf k).add ih

/-- With real inputs every point's scalar is a real. -/
theorem outp_real {x : Cloud} {W1 : Mat1} {b1 : Bias1} {W2 : Mat2} {b2 : Bias2}
    (hx : ∀ i, IsReal (x i)) (hW1 : ∀ i, IsReal (W1 i)) (hb1 : ∀ i, IsReal (b1 i)) (hW2 : ∀ i, IsReal (W2 i)) (hb2 : ∀ i, IsReal (b2 i))
    (b : Fin 8) (n : Fin 65536) : IsReal (outp x W1 b1 W2 b2 b n) := by
  unfold outp hid
  refine IsReal.max (IsReal.add (IsReal.sum _ _ fun j => IsReal.mul (IsReal.max (IsReal.add (IsReal.sum _ _ fun d => ?_) (hb1 _)) IsReal.zero) (hW2 _)) (hb2 _)) IsReal.zero
  exact IsReal.mul (hx _) (hW1 _)

/-- A sum of differences of reals is the difference of the sums: on the extended reals this needs the summands real. -/
theorem sum_sub_of_real {ι : Type} (s : Finset ι) (f g : ι → EReal) (hf : ∀ k, IsReal (f k)) (hg : ∀ k, IsReal (g k)) :
    ∑ k ∈ s, (f k - g k) = ∑ k ∈ s, f k - ∑ k ∈ s, g k := by
  classical
  choose f' hf' using hf
  choose g' hg' using hg
  have e1 : ∀ t : Finset ι, ∑ k ∈ t, f k = ((∑ k ∈ t, f' k : ℝ) : EReal) := fun t => by
    refine Finset.induction_on t (by simp) fun k u hk ih => ?_
    rw [Finset.sum_insert hk, Finset.sum_insert hk, ih, hf' k, EReal.coe_add]
  have e2 : ∀ t : Finset ι, ∑ k ∈ t, g k = ((∑ k ∈ t, g' k : ℝ) : EReal) := fun t => by
    refine Finset.induction_on t (by simp) fun k u hk ih => ?_
    rw [Finset.sum_insert hk, Finset.sum_insert hk, ih, hg' k, EReal.coe_add]
  have e3 : ∀ t : Finset ι, ∑ k ∈ t, (f k - g k) = ((∑ k ∈ t, (f' k - g' k) : ℝ) : EReal) := fun t => by
    refine Finset.induction_on t (by simp) fun k u hk ih => ?_
    rw [Finset.sum_insert hk, Finset.sum_insert hk, ih, hf' k, hg' k, ← EReal.coe_sub, EReal.coe_add]
  rw [e1, e2, e3, ← EReal.coe_sub, Finset.sum_sub_distrib]

end Cert.Spec

end
-- ==== Proof.KernelIdealPacked.lean ====
/-
  The packed weights do the two clouds' work side by side.

  The first packed matrix (128×7) has, in its top 64 rows, the first layer's weights on the three student columns,
  zeros on the three teacher columns and the first bias on the ones column; its bottom 64 rows have the zeros and the
  weights exchanged.  So against the right-hand side (student planes, teacher planes, ones) row j is the student
  point's hidden unit j and row 64 + j the teacher point's: 0 · t = 0 and b · 1 = b on every extended real.
  The second packed matrix (2×128) has the second layer's weights on the first 64 columns of row 0 and on the last 64
  of row 1, zeros elsewhere: output row 0 is the student point's scalar and output row 1 the teacher point's.
-/
import proofs.«119227_g12171937316930_cont_fleet_1064_14_alg».proof.Proof.KernelIdealRowValue
import proofs.«119227_g12171937316930_cont_fleet_1064_14_alg».proof.Proof.Spec

set_option maxRecDepth 16384

noncomputable section

namespace Cert.KernelIdeal.Fr

open Idealize.ShloMosaic Idealize.ShloMosaic.ValueIdx Idealize.SL.Sem
open Cert.KernelIdeal Cert.KernelIdeal.Gen

/-- What the packed arrays hold, in terms of the four weight arguments. -/
structure Packed (W1a : Cert.Spec.Mat1) (b1a : Cert.Spec.Bias1) (W2a : Cert.Spec.Mat2) (b2a : Cert.Spec.Bias2)
    (w1 : FVec Ideal S128x7 .f32) (w2 : FVec Ideal S2x128 .f32) (b2 : FVec Ideal S1x1 .f32) (ones : FVec Ideal S1x32768 .f32) : Prop where
  top_s : ∀ (j : Fin 64) (d : Fin 3), w1 (ix2 ⟨j.val, by have := j.isLt; omega⟩ ⟨d.val, by have := d.isLt; omega⟩) = W1a (ix2 d j)
  top_t : ∀ (j : Fin 64) (d : Fin 3), w1 (ix2 ⟨j.val, by have := j.isLt; omega⟩ ⟨3 + d.val, by have := d.isLt; omega⟩) = 0
  top_b : ∀ (j : Fin 64), w1 (ix2 ⟨j.val, by have := j.isLt; omega⟩ ⟨6, by omega⟩) = b1a (ix1 j)
  bot_s : ∀ (j : Fin 64) (d : Fin 3), w1 (ix2 ⟨64 + j.val, by have := j.isLt; omega⟩ ⟨d.val, by have := d.isLt; omega⟩) = 0
  bot_t : ∀ (j : Fin 64) (d : Fin 3), w1 (ix2 ⟨64 + j.val, by have := j.isLt; omega⟩ ⟨3 + d.val, by have := d.isLt; omega⟩) = W1a (ix2 d j)
  bot_b : ∀ (j : Fin 64), w1 (ix2 ⟨64 + j.val, by have := j.isLt; omega⟩ ⟨6, by omega⟩) = b1a (ix1 j)
  row0_s : ∀ (j : Fin 64), w2 (ix2 0 ⟨j.val, by have := j.isLt; omega⟩) = W2a (ix2 j 0)
  row0_t : ∀ (j : Fin 64), w2 (ix2 0 ⟨64 + j.val, by have := j.isLt; omega⟩) = 0
  row1_s : ∀ (j : Fin 64), w2 (ix2 1 ⟨j.val, by have := j.isLt; omega⟩) = 0
  row1_t : ∀ (j : Fin 64), w2 (ix2 1 ⟨64 + j.val, by have := j.isLt; omega⟩) = W2a (ix2 j 0)
  bias : b2 (ix2 0 0) = b2a (ix1 0)
  one : ∀ l : Fin 32768, ones (ix2 0 l) = 1

variable {W1a : Cert.Spec.Mat1} {b1a : Cert.Spec.Bias1} {W2a : Cert.Spec.Mat2} {b2a : Cert.Spec.Bias2}
  {w1 : FVec Ideal S128x7 .f32} {w2 : FVec Ideal S2x128 .f32} {b2 : FVec Ideal S1x1 .f32} {ones : FVec Ideal S1x32768 .f32}

/-- Row j of the first product is the student point's hidden unit j. -/
theorem hid_top (P : Packed W1a b1a W2a b2a w1 w2 b2 ones) (vs vt : Vec Ideal S3x1x32768 .f32) (x : Cert.Spec.Cloud)
    (b : Fin 8) (n : Fin 65536) (l : Fin 32768) (hvs : ∀ d : Fin 3, vs (ix3 d 0 l) = x (ix3 b n d)) (j : Fin 64) :
    hidK w1 (rowRhs ones vs vt) ⟨j.val, by have := j.isLt; omega⟩ l = Cert.Spec.hid x W1a b1a b n j := by
  unfold hidK Cert.Spec.hid
  rw [Fin.sum_univ_seven, Fin.sum_univ_three]
  have r0 : rowRhs ones vs vt (ix2 0 l) = vs (ix3 0 0 l) := rowRhs_s ones vs vt 0 l
  have r1 : rowRhs ones vs vt (ix2 1 l) = vs (ix3 1 0 l) := rowRhs_s ones vs vt 1 l
  have r2 : rowRhs ones vs vt (ix2 2 l) = vs (ix3 2 0 l) := rowRhs_s ones vs vt 2 l
  have r6 : rowRhs ones vs vt (ix2 6 l) = ones (ix2 0 l) := rowRhs_one ones vs vt l
  have a0 : w1 (ix2 ⟨j.val, by have := j.isLt; omega⟩ 0) = W1a (ix2 0 j) := P.top_s j 0
  have a1 : w1 (ix2 ⟨j.val, by have := j.isLt; omega⟩ 1) = W1a (ix2 1 j) := P.top_s j 1
  have a2 : w1 (ix2 ⟨j.val, by have := j.isLt; omega⟩ 2) = W1a (ix2 2 j) := P.top_s j 2
  have a3 : w1 (ix2 ⟨j.val, by have := j.isLt; omega⟩ 3) = 0 := P.top_t j 0
  have a4 : w1 (ix2 ⟨j.val, by have := j.isLt; omega⟩ 4) = 0 := P.top_t j 1
  have a5 : w1 (ix2 ⟨j.val, by have := j.isLt; omega⟩ 5) = 0 := P.top_t j 2
  have a6 : w1 (ix2 ⟨j.val, by have := j.isLt; omega⟩ 6) = b1a (ix1 j) := P.top_b j
  rw [a0, a1, a2, a3, a4, a5, a6, r0, r1, r2, r6, hvs 0, hvs 1, hvs 2, P.one l,
    zero_mul, zero_mul, zero_mul, add_zero, add_zero, add_zero, mul_one,
    mul_comm (W1a (ix2 0 j)), mul_comm (W1a (ix2 1 j)), mul_comm (W1a (ix2 2 j))]

/-- Row 64 + j is the teacher point's hidden unit j. -/
theorem hid_bot (P : Packed W1a b1a W2a b2a w1 w2 b2 ones) (vs vt : Vec Ideal S3x1x32768 .f32) (x : Cert.Spec.Cloud)
    (b : Fin 8) (n : Fin 65536) (l : Fin 32768) (hvt : ∀ d : Fin 3, vt (ix3 d 0 l) = x (ix3 b n d)) (j : Fin 64) :
    hidK w1 (rowRhs ones vs vt) ⟨64 + j.val, by have := j.isLt; omega⟩ l = Cert.Spec.hid x W1a b1a b n j := by
  unfold hidK Cert.Spec.hid
  rw [Fin.sum_univ_seven, Fin.sum_univ_three]
  have r3 : rowRhs ones vs vt (ix2 3 l) = vt (ix3 0 0 l) := rowRhs_t ones vs vt 0 l
  have r4 : rowRhs ones vs vt (ix2 4 l) = vt (ix3 1 0 l) := rowRhs_t ones vs vt 1 l
  have r5 : rowRhs ones vs vt (ix2 5 l) = vt (ix3 2 0 l) := rowRhs_t ones vs vt 2 l
  have r6 : rowRhs ones vs vt (ix2 6 l) = ones (ix2 0 l) := rowRhs_one ones vs vt l
  have a0 : w1 (ix2 ⟨64 + j.val, by have := j.isLt; omega⟩ 0) = 0 := P.bot_s j 0
  have a1 : w1 (ix2 ⟨64 + j.val, by have := j.isLt; omega⟩ 1) = 0 := P.bot_s j 1
  have a2 : w1 (ix2 ⟨64 + j.val, by have := j.isLt; omega⟩ 2) = 0 := P.bot_s j 2
  have a3 : w1 (ix2 ⟨64 + j.val, by have := j.isLt; omega⟩ 3) = W1a (ix2 0 j) := P.bot_t j 0
  have a4 : w1 (ix2 ⟨64 + j.val, by have := j.isLt; omega⟩ 4) = W1a (ix2 1 j) := P.bot_t j 1
  have a5 : w1 (ix2 ⟨64 + j.val, by have := j.isLt; omega⟩ 5) = W1a (ix2 2 j) := P.bot_t j 2
  have a6 : w1 (ix2 ⟨64 + j.val, by have := j.isLt; omega⟩ 6) = b1a (ix1 j) := P.bot_b j
  rw [a0, a1, a2, a3, a4, a5, a6, r3, r4, r5, r6, hvt 0, hvt 1, hvt 2, P.one l,
    zero_mul, zero_mul, zero_mul, zero_add, zero_add, zero_add, mul_one,
    mul_comm (W1a (ix2 0 j)), mul_comm (W1a (ix2 1 j)), mul_comm (W1a (ix2 2 j))]

/-- A sum over the 128 rows, split into the top and the bottom 64. -/
theorem sum_halves (f : Fin 128 → EReal) :
    ∑ i : Fin 128, f i = ∑ j : Fin 64, f ⟨j.val, by have := j.isLt; omega⟩ + ∑ j : Fin 64, f ⟨64 + j.val, by have := j.isLt; omega⟩ :=
  (Fin.sum_univ_add (a := 64) (b := 64) (fun i : Fin (64 + 64) => f i)).trans
    (congr (congrArg HAdd.hAdd (Finset.sum_congr rfl fun j _ => rfl)) (Finset.sum_congr rfl fun j _ => rfl))

/-- Output row 0 is the student point's scalar. -/
theorem out_student (P : Packed W1a b1a W2a b2a w1 w2 b2 ones) (vs vt : Vec Ideal S3x1x32768 .f32) (x : Cert.Spec.Cloud)
    (b : Fin 8) (n : Fin 65536) (l : Fin 32768) (hvs : ∀ d : Fin 3, vs (ix3 d 0 l) = x (ix3 b n d)) :
    outK w1 w2 b2 (rowRhs ones vs vt) 0 l = Cert.Spec.outp x W1a b1a W2a b2a b n := by
  unfold outK Cert.Spec.outp
  rw [sum_halves, P.bias]
  have e1 : ∑ j : Fin 64, w2 (ix2 0 ⟨j.val, by have := j.isLt; omega⟩) * hidK w1 (rowRhs ones vs vt) ⟨j.val, by have := j.isLt; omega⟩ l
      = ∑ j : Fin 64, Cert.Spec.hid x W1a b1a b n j * W2a (ix2 j 0) :=
    Finset.sum_congr rfl fun j _ => by rw [P.row0_s j, hid_top P vs vt x b n l hvs j, mul_comm]
  have e2 : ∑ j : Fin 64, w2 (ix2 0 ⟨64 + j.val, by have := j.isLt; omega⟩) * hidK w1 (rowRhs ones vs vt) ⟨64 + j.val, by have := j.isLt; omega⟩ l = 0 :=
    Finset.sum_eq_zero fun j _ => by rw [P.row0_t j, zero_mul]
  rw [e1, e2, add_zero]

/-- Output row 1 is the teacher point's scalar. -/
theorem out_teacher (P : Packed W1a b1a W2a b2a w1 w2 b2 ones) (vs vt : Vec Ideal S3x1x32768 .f32) (x : Cert.Spec.Cloud)
    (b : Fin 8) (n : Fin 65536) (l : Fin 32768) (hvt : ∀ d : Fin 3, vt (ix3 d 0 l) = x (ix3 b n d)) :
    outK w1 w2 b2 (rowRhs ones vs vt) 1 l = Cert.Spec.outp x W1a b1a W2a b2a b n := by
  unfold outK Cert.Spec.outp
  rw [sum_halves, P.bias]
  have e1 : ∑ j : Fin 64, w2 (ix2 1 ⟨j.val, by have := j.isLt; omega⟩) * hidK w1 (rowRhs ones vs vt) ⟨j.val, by have := j.isLt; omega⟩ l = 0 :=
    Finset.sum_eq_zero fun j _ => by rw [P.row1_s j, zero_mul]
  have e2 : ∑ j : Fin 64, w2 (ix2 1 ⟨64 + j.val, by have := j.isLt; omega⟩) * hidK w1 (rowRhs ones vs vt) ⟨64 + j.val, by have := j.isLt; omega⟩ l
      = ∑ j : Fin 64, Cert.Spec.hid x W1a b1a b n j * W2a (ix2 j 0) :=
    Finset.sum_congr rfl fun j _ => by rw [P.row1_t j, hid_bot P vs vt x b n l hvt j, mul_comm]
  rw [e1, e2, zero_add]

end Cert.KernelIdeal.Fr

end
-- ==== Proof.KernelIdealArrays.lean ====
/-
  What the region's five input arrays hold, entry by entry, in terms of the six arguments.

  Before its one region @main rearranges its arguments.  Each point cloud x (8 diagrams × 65 536 points × 3
  coordinates) becomes three coordinate planes: plane d holds x(b, n, d) at (b, n).  The first layer's weights
  W1 (3×64) and bias b1 (64) are packed into one 128×7 matrix

        rows   0 …  63 :  [ W1ᵀ |  0  | b1 ]
        rows  64 … 127 :  [  0  | W1ᵀ | b1 ]

  so that its product with the 7-row column (student coordinates; teacher coordinates; 1) is the two clouds' 64
  pre-activations at once.  The second layer's weights W2 (64×1) become the 2×128 matrix

        row 0 :  [ W2ᵀ |  0  ]
        row 1 :  [  0  | W2ᵀ ]

  and the second bias a 1×1 array.  Each array is first written as the term the host lines compose — transposes,
  a broadcast zero, a broadcast bias column, concatenations — and that term is then read at an index, one layout
  operation at a time: a transpose swaps coordinates, a concatenation reads the piece whose span holds the
  coordinate on its axis, a broadcast scalar reads the scalar, a reshape of a one-entry array reads that entry.
-/
import proofs.«119227_g12171937316930_cont_fleet_1064_14_alg».proof.Proof.KernelIdealEntry
import Idealize.ShloMosaic.Lib.Pipeline.Value
import Idealize.ShloMosaic.Lib.ValueLayout
import Idealize.ShloMosaic.Lib.ValueIdx
import Idealize.ShloMosaic.Lib.IdealHost
import Idealize.ShloMosaic.Lib.StableHlo.Run
import Idealize.ShloMosaic.PureOps.Ideal.Laws

set_option maxRecDepth 16384

noncomputable section

namespace Cert.KernelIdeal.Fr

open Idealize.ShloMosaic Idealize.ShloMosaic.TcCoe Idealize.ShloMosaic.ValueIdx Idealize.ShloMosaic.StableHlo
open Idealize.SL.Sem
open Cert.KernelIdeal Cert.KernelIdeal.Gen

variable (m : (ℓ : Loc nD τ sig) → Buf (Elt Ideal) ℓ)

/-! ## The five arrays as terms of the arguments -/

/-- The student cloud's planes: the first host line's transpose of the first argument. -/
theorem V_v0_term (c : Dev nD) :
    (V m c main_v0 : S3x8x65536.Idx → EReal)
      = transpose S3x8x65536 [2, 0, 1] (m ((c : Thread nD τ).loc main_arg0) : S8x65536x3.Idx → EReal) transposes_S8x65536x3_S3x8x65536_2_0_1 := by
  dsimp only [V, V0]
  simp only [hostOps0, List.flatten_cons, List.flatten_nil, List.append_nil]
  after_results <;> rfl

/-- The teacher cloud's planes. -/
theorem V_v1_term (c : Dev nD) :
    (V m c main_v1 : S3x8x65536.Idx → EReal)
      = transpose S3x8x65536 [2, 0, 1] (m ((c : Thread nD τ).loc main_arg1) : S8x65536x3.Idx → EReal) transposes_S8x65536x3_S3x8x65536_2_0_1 := by
  dsimp only [V, V0]
  simp only [hostOps0, List.flatten_cons, List.flatten_nil, List.append_nil]
  after_results <;> rfl

/-- The packed first-layer matrix: `[W1ᵀ | 0 | b1]` stacked on `[0 | W1ᵀ | b1]`. -/
theorem V_v9_term (c : Dev nD) :
    (V m c main_v9 : S128x7.Idx → EReal)
      = concatenate S128x7 0
          [⟨S64x7, concatenate S64x7 1
              [⟨S64x3, transpose S64x3 [1, 0] (m ((c : Thread nD τ).loc main_arg2) : S3x64.Idx → EReal) transposes_S3x64_S64x3_1_0⟩,
               ⟨S64x3, broadcastInDim S64x3 ![] bcast_S_S64x3 (constant (F := Ideal) S_ .f32 0x00000000#32)⟩,
               ⟨S64x1, broadcastInDim S64x1 ![0] bcast_S64_S64x1_0 (m ((c : Thread nD τ).loc main_arg3) : S64.Idx → EReal)⟩]
              concatenates_S64x3_S64x3_S64x1_S64x7_d1⟩,
           ⟨S64x7, concatenate S64x7 1
              [⟨S64x3, broadcastInDim S64x3 ![] bcast_S_S64x3 (constant (F := Ideal) S_ .f32 0x00000000#32)⟩,
               ⟨S64x3, transpose S64x3 [1, 0] (m ((c : Thread nD τ).loc main_arg2) : S3x64.Idx → EReal) transposes_S3x64_S64x3_1_0⟩,
               ⟨S64x1, broadcastInDim S64x1 ![0] bcast_S64_S64x1_0 (m ((c : Thread nD τ).loc main_arg3) : S64.Idx → EReal)⟩]
              concatenates_S64x3_S64x3_S64x1_S64x7_d1⟩]
          concatenates_S64x7_S64x7_S128x7_d0 := by
  dsimp only [V, V0]
  simp only [hostOps0, List.flatten_cons, List.flatten_nil, List.append_nil]
  after_results <;> rfl

/-- The packed second-layer matrix: `[W2ᵀ | 0]` stacked on `[0 | W2ᵀ]`. -/
theorem V_v15_term (c : Dev nD) :
    (V m c main_v15 : S2x128.Idx → EReal)
      = concatenate S2x128 0
          [⟨S1x128, concatenate S1x128 1
              [⟨S1x64, transpose S1x64 [1, 0] (m ((c : Thread nD τ).loc main_arg4) : S64x1.Idx → EReal) transposes_S64x1_S1x64_1_0⟩,
               ⟨S1x64, broadcastInDim S1x64 ![] bcast_S_S1x64 (constant (F := Ideal) S_ .f32 0x00000000#32)⟩]
              concatenates_S1x64_S1x64_S1x128_d1⟩,
           ⟨S1x128, concatenate S1x128 1
              [⟨S1x64, broadcastInDim S1x64 ![] bcast_S_S1x64 (constant (F := Ideal) S_ .f32 0x00000000#32)⟩,
               ⟨S1x64, transpose S1x64 [1, 0] (m ((c : Thread nD τ).loc main_arg4) : S64x1.Idx → EReal) transposes_S64x1_S1x64_1_0⟩]
              concatenates_S1x64_S1x64_S1x128_d1⟩]
          concatenates_S1x128_S1x128_S2x128_d0 := by
  dsimp only [V, V0]
  simp only [hostOps0, List.flatten_cons, List.flatten_nil, List.append_nil]
  after_results <;> rfl

/-- The second bias reshaped to 1×1. -/
theorem V_v16_term (c : Dev nD) :
    (V m c main_v16 : S1x1.Idx → EReal)
      = shapeCast S1x1 (m ((c : Thread nD τ).loc main_arg5) : S1.Idx → EReal) shapeCasts_S1_S1x1 := by
  dsimp only [V, V0]
  simp only [hostOps0, List.flatten_cons, List.flatten_nil, List.append_nil]
  after_results <;> rfl

/-! ## The layout operations of the host lines, read at an index -/

section Reads

variable (A0 : S8x65536x3.Idx → EReal) (A2 : S3x64.Idx → EReal) (A3 : S64.Idx → EReal) (A4 : S64x1.Idx → EReal)
  (A5 : S1.Idx → EReal)

/-- The coordinate-major planes of a cloud: plane `d`, diagram `b`, point `n` is coordinate `d` of that point. -/
theorem planes_apply (d : Fin 3) (b : Fin 8) (n : Fin 65536) :
    transpose S3x8x65536 [2, 0, 1] A0 transposes_S8x65536x3_S3x8x65536_2_0_1 (ix3 d b n) = A0 (ix3 b n d) :=
  transpose_apply _ A0 _ _ _ fun a => match a with | ⟨0, _⟩ => rfl | ⟨1, _⟩ => rfl | ⟨2, _⟩ => rfl

/-- The zero block of the packed first-layer matrix. -/
theorem zero64x3_apply (i : S64x3.Idx) :
    broadcastInDim S64x3 ![] bcast_S_S64x3 (constant (F := Ideal) S_ .f32 0x00000000#32) i = 0 := by
  rw [broadcastInDim_scalar_apply, constant_apply, Ideal.ofBits_zero_f32]

/-- The zero block of the packed second-layer matrix. -/
theorem zero1x64_apply (i : S1x64.Idx) :
    broadcastInDim S1x64 ![] bcast_S_S1x64 (constant (F := Ideal) S_ .f32 0x00000000#32) i = 0 := by
  rw [broadcastInDim_scalar_apply, constant_apply, Ideal.ofBits_zero_f32]

/-- The first-layer matrix transposed: row `j`, column `d` is the weight from coordinate `d` to unit `j`. -/
theorem w1t_apply (j : Fin 64) (d : Fin 3) :
    transpose S64x3 [1, 0] A2 transposes_S3x64_S64x3_1_0 (ix2 j d) = A2 (ix2 d j) :=
  transpose_ix2_apply A2 _ j d

/-- The first bias as a column. -/
theorem b1col_apply (j : Fin 64) :
    broadcastInDim S64x1 ![0] bcast_S64_S64x1_0 A3 (ix2 j (0 : Fin 1)) = A3 (ix1 j) :=
  broadcastInDim_apply _ _ A3 _ (ix1 j) fun a => match a with | ⟨0, _⟩ => rfl

/-- The second-layer matrix as a row. -/
theorem w2row_apply (j : Fin 64) :
    transpose S1x64 [1, 0] A4 transposes_S64x1_S1x64_1_0 (ix2 (0 : Fin 1) j) = A4 (ix2 j (0 : Fin 1)) :=
  transpose_ix2_apply A4 _ 0 j

/-- The second bias as a 1×1 array. -/
theorem b2cell_apply : shapeCast S1x1 A5 shapeCasts_S1_S1x1 (ix2 (0 : Fin 1) (0 : Fin 1)) = A5 (ix1 (0 : Fin 1)) :=
  shapeCast_apply A5 _ _ _ rfl

variable (X Y : S64x3.Idx → EReal) (C : S64x1.Idx → EReal)

/-- A 64×7 row block `[X | Y | C]`: columns 0–2 are `X`, … -/
theorem row3_fst (j : Fin 64) (d : Fin 3) :
    concatenate S64x7 1 [⟨S64x3, X⟩, ⟨S64x3, Y⟩, ⟨S64x1, C⟩] concatenates_S64x3_S64x3_S64x1_S64x7_d1
      (ix2 j (⟨d.val, by have := d.isLt; omega⟩ : Fin 7)) = X (ix2 j d) :=
  concatenate_apply_piece (t := S64x7) 1 [⟨S64x3, X⟩, ⟨S64x3, Y⟩, ⟨S64x1, C⟩] concatenates_S64x3_S64x3_S64x1_S64x7_d1 _ 0 (by simp) S64x3 X rfl rfl 0 rfl (ix2 j d)
    (fun b hb => match b, hb with | ⟨0, _⟩, _ => rfl | ⟨1, _⟩, hb => absurd (Fin.ext rfl) hb)
    (Nat.zero_add _)

/-- … columns 3–5 are `Y`, … -/
theorem row3_snd (j : Fin 64) (d : Fin 3) :
    concatenate S64x7 1 [⟨S64x3, X⟩, ⟨S64x3, Y⟩, ⟨S64x1, C⟩] concatenates_S64x3_S64x3_S64x1_S64x7_d1
      (ix2 j (⟨3 + d.val, by have := d.isLt; omega⟩ : Fin 7)) = Y (ix2 j d) :=
  concatenate_apply_piece (t := S64x7) 1 [⟨S64x3, X⟩, ⟨S64x3, Y⟩, ⟨S64x1, C⟩] concatenates_S64x3_S64x3_S64x1_S64x7_d1 _ 1 (by simp) S64x3 Y rfl rfl 3 rfl (ix2 j d)
    (fun b hb => match b, hb with | ⟨0, _⟩, _ => rfl | ⟨1, _⟩, hb => absurd (Fin.ext rfl) hb)
    rfl

/-- … and column 6 is `C`. -/
theorem row3_thd (j : Fin 64) :
    concatenate S64x7 1 [⟨S64x3, X⟩, ⟨S64x3, Y⟩, ⟨S64x1, C⟩] concatenates_S64x3_S64x3_S64x1_S64x7_d1
      (ix2 j (⟨6, by omega⟩ : Fin 7)) = C (ix2 j (0 : Fin 1)) :=
  concatenate_apply_piece (t := S64x7) 1 [⟨S64x3, X⟩, ⟨S64x3, Y⟩, ⟨S64x1, C⟩] concatenates_S64x3_S64x3_S64x1_S64x7_d1 _ 2 (by simp) S64x1 C rfl rfl 6 rfl (ix2 j (0 : Fin 1))
    (fun b hb => match b, hb with | ⟨0, _⟩, _ => rfl | ⟨1, _⟩, hb => absurd (Fin.ext rfl) hb)
    rfl

variable (P Q : S64x7.Idx → EReal)

/-- Two 64×7 blocks stacked: rows 0–63 are the first, … -/
theorem stack_top (j : Fin 64) (k : Fin 7) :
    concatenate S128x7 0 [⟨S64x7, P⟩, ⟨S64x7, Q⟩] concatenates_S64x7_S64x7_S128x7_d0
      (ix2 (⟨j.val, by have := j.isLt; omega⟩ : Fin 128) k) = P (ix2 j k) :=
  concatenate_pair_apply_left (t := S128x7) 0 P Q concatenates_S64x7_S64x7_S128x7_d0 _ rfl (ix2 j k) fun b => match b with | ⟨0, _⟩ => rfl | ⟨1, _⟩ => rfl

/-- … rows 64–127 the second. -/
theorem stack_bot (j : Fin 64) (k : Fin 7) :
    concatenate S128x7 0 [⟨S64x7, P⟩, ⟨S64x7, Q⟩] concatenates_S64x7_S64x7_S128x7_d0
      (ix2 (⟨64 + j.val, by have := j.isLt; omega⟩ : Fin 128) k) = Q (ix2 j k) :=
  concatenate_pair_apply_right (t := S128x7) 0 P Q concatenates_S64x7_S64x7_S128x7_d0 _ rfl rfl (ix2 j k)
    (fun b hb => match b, hb with | ⟨0, _⟩, hb => absurd (Fin.ext rfl) hb | ⟨1, _⟩, _ => rfl)
    (Nat.add_comm _ _)

variable (R S : S1x64.Idx → EReal) (T U : S1x128.Idx → EReal)

/-- A 1×128 row `[R | S]`: columns 0–63 are `R`, … -/
theorem row2_fst (j : Fin 64) :
    concatenate S1x128 1 [⟨S1x64, R⟩, ⟨S1x64, S⟩] concatenates_S1x64_S1x64_S1x128_d1
      (ix2 (0 : Fin 1) (⟨j.val, by have := j.isLt; omega⟩ : Fin 128)) = R (ix2 (0 : Fin 1) j) :=
  concatenate_pair_apply_left (t := S1x128) 1 R S concatenates_S1x64_S1x64_S1x128_d1 _ rfl (ix2 (0 : Fin 1) j) fun b => match b with | ⟨0, _⟩ => rfl | ⟨1, _⟩ => rfl

/-- … columns 64–127 are `S`. -/
theorem row2_snd (j : Fin 64) :
    concatenate S1x128 1 [⟨S1x64, R⟩, ⟨S1x64, S⟩] concatenates_S1x64_S1x64_S1x128_d1
      (ix2 (0 : Fin 1) (⟨64 + j.val, by have := j.isLt; omega⟩ : Fin 128)) = S (ix2 (0 : Fin 1) j) :=
  concatenate_pair_apply_right (t := S1x128) 1 R S concatenates_S1x64_S1x64_S1x128_d1 _ rfl rfl (ix2 (0 : Fin 1) j)
    (fun b hb => match b, hb with | ⟨0, _⟩, _ => rfl | ⟨1, _⟩, hb => absurd (Fin.ext rfl) hb)
    (Nat.add_comm _ _)

/-- Two rows stacked: row 0 is the first, … -/
theorem rows_fst (k : Fin 128) :
    concatenate S2x128 0 [⟨S1x128, T⟩, ⟨S1x128, U⟩] concatenates_S1x128_S1x128_S2x128_d0
      (ix2 (0 : Fin 2) k) = T (ix2 (0 : Fin 1) k) :=
  concatenate_pair_apply_left (t := S2x128) 0 T U concatenates_S1x128_S1x128_S2x128_d0 _ rfl (ix2 (0 : Fin 1) k) fun b => match b with | ⟨0, _⟩ => rfl | ⟨1, _⟩ => rfl

/-- … row 1 the second. -/
theorem rows_snd (k : Fin 128) :
    concatenate S2x128 0 [⟨S1x128, T⟩, ⟨S1x128, U⟩] concatenates_S1x128_S1x128_S2x128_d0
      (ix2 (1 : Fin 2) k) = U (ix2 (0 : Fin 1) k) :=
  concatenate_pair_apply_right (t := S2x128) 0 T U concatenates_S1x128_S1x128_S2x128_d0 _ rfl rfl (ix2 (0 : Fin 1) k)
    (fun b hb => match b, hb with | ⟨0, _⟩, hb => absurd (Fin.ext rfl) hb | ⟨1, _⟩, _ => rfl)
    rfl

end Reads

/-! ## The five arrays entry by entry -/

/-- Plane `d` of the student cloud as the region finds it. -/
theorem V_v0 (c : Dev nD) (d : Fin 3) (b : Fin 8) (n : Fin 65536) :
    (V m c main_v0 : S3x8x65536.Idx → EReal) (ix3 d b n)
      = (m ((c : Thread nD τ).loc main_arg0) : S8x65536x3.Idx → EReal) (ix3 b n d) := by
  rw [V_v0_term, planes_apply]

/-- Plane `d` of the teacher cloud. -/
theorem V_v1 (c : Dev nD) (d : Fin 3) (b : Fin 8) (n : Fin 65536) :
    (V m c main_v1 : S3x8x65536.Idx → EReal) (ix3 d b n)
      = (m ((c : Thread nD τ).loc main_arg1) : S8x65536x3.Idx → EReal) (ix3 b n d) := by
  rw [V_v1_term, planes_apply]

/-- Upper half, student columns: the first-layer weights. -/
theorem V_v9_top_s (c : Dev nD) (j : Fin 64) (d : Fin 3) :
    (V m c main_v9 : S128x7.Idx → EReal)
        (ix2 (⟨j.val, by have := j.isLt; omega⟩ : Fin 128) (⟨d.val, by have := d.isLt; omega⟩ : Fin 7))
      = (m ((c : Thread nD τ).loc main_arg2) : S3x64.Idx → EReal) (ix2 d j) := by
  rw [V_v9_term, stack_top, row3_fst, w1t_apply]

/-- Upper half, teacher columns: zero. -/
theorem V_v9_top_t (c : Dev nD) (j : Fin 64) (d : Fin 3) :
    (V m c main_v9 : S128x7.Idx → EReal)
        (ix2 (⟨j.val, by have := j.isLt; omega⟩ : Fin 128) (⟨3 + d.val, by have := d.isLt; omega⟩ : Fin 7)) = (0 : EReal) := by
  rw [V_v9_term, stack_top, row3_snd, zero64x3_apply]

/-- Upper half, last column: the first bias. -/
theorem V_v9_top_b (c : Dev nD) (j : Fin 64) :
    (V m c main_v9 : S128x7.Idx → EReal)
        (ix2 (⟨j.val, by have := j.isLt; omega⟩ : Fin 128) (⟨6, by omega⟩ : Fin 7))
      = (m ((c : Thread nD τ).loc main_arg3) : S64.Idx → EReal) (ix1 j) := by
  rw [V_v9_term, stack_top, row3_thd, b1col_apply]

/-- Lower half, student columns: zero. -/
theorem V_v9_bot_s (c : Dev nD) (j : Fin 64) (d : Fin 3) :
    (V m c main_v9 : S128x7.Idx → EReal)
        (ix2 (⟨64 + j.val, by have := j.isLt; omega⟩ : Fin 128) (⟨d.val, by have := d.isLt; omega⟩ : Fin 7)) = (0 : EReal) := by
  rw [V_v9_term, stack_bot, row3_fst, zero64x3_apply]

/-- Lower half, teacher columns: the first-layer weights. -/
theorem V_v9_bot_t (c : Dev nD) (j : Fin 64) (d : Fin 3) :
    (V m c main_v9 : S128x7.Idx → EReal)
        (ix2 (⟨64 + j.val, by have := j.isLt; omega⟩ : Fin 128) (⟨3 + d.val, by have := d.isLt; omega⟩ : Fin 7))
      = (m ((c : Thread nD τ).loc main_arg2) : S3x64.Idx → EReal) (ix2 d j) := by
  rw [V_v9_term, stack_bot, row3_snd, w1t_apply]

/-- Lower half, last column: the first bias again. -/
theorem V_v9_bot_b (c : Dev nD) (j : Fin 64) :
    (V m c main_v9 : S128x7.Idx → EReal)
        (ix2 (⟨64 + j.val, by have := j.isLt; omega⟩ : Fin 128) (⟨6, by omega⟩ : Fin 7))
      = (m ((c : Thread nD τ).loc main_arg3) : S64.Idx → EReal) (ix1 j) := by
  rw [V_v9_term, stack_bot, row3_thd, b1col_apply]

/-- Row 0, student columns: the second-layer weights. -/
theorem V_v15_0_s (c : Dev nD) (j : Fin 64) :
    (V m c main_v15 : S2x128.Idx → EReal) (ix2 (0 : Fin 2) (⟨j.val, by have := j.isLt; omega⟩ : Fin 128))
      = (m ((c : Thread nD τ).loc main_arg4) : S64x1.Idx → EReal) (ix2 j (0 : Fin 1)) := by
  rw [V_v15_term, rows_fst, row2_fst, w2row_apply]

/-- Row 0, teacher columns: zero. -/
theorem V_v15_0_t (c : Dev nD) (j : Fin 64) :
    (V m c main_v15 : S2x128.Idx → EReal) (ix2 (0 : Fin 2) (⟨64 + j.val, by have := j.isLt; omega⟩ : Fin 128)) = (0 : EReal) := by
  rw [V_v15_term, rows_fst, row2_snd, zero1x64_apply]

/-- Row 1, student columns: zero. -/
theorem V_v15_1_s (c : Dev nD) (j : Fin 64) :
    (V m c main_v15 : S2x128.Idx → EReal) (ix2 (1 : Fin 2) (⟨j.val, by have := j.isLt; omega⟩ : Fin 128)) = (0 : EReal) := by
  rw [V_v15_term, rows_snd, row2_fst, zero1x64_apply]

/-- Row 1, teacher columns: the second-layer weights. -/
theorem V_v15_1_t (c : Dev nD) (j : Fin 64) :
    (V m c main_v15 : S2x128.Idx → EReal) (ix2 (1 : Fin 2) (⟨64 + j.val, by have := j.isLt; omega⟩ : Fin 128))
      = (m ((c : Thread nD τ).loc main_arg4) : S64x1.Idx → EReal) (ix2 j (0 : Fin 1)) := by
  rw [V_v15_term, rows_snd, row2_snd, w2row_apply]

/-- The 1×1 array's one entry: the second bias. -/
theorem V_v16 (c : Dev nD) :
    (V m c main_v16 : S1x1.Idx → EReal) (ix2 (0 : Fin 1) (0 : Fin 1))
      = (m ((c : Thread nD τ).loc main_arg5) : S1.Idx → EReal) (ix1 (0 : Fin 1)) := by
  rw [V_v16_term, b2cell_apply]

end Cert.KernelIdeal.Fr

end
-- ==== Proof.LibSpellings.lean ====
/-
  Four places where a host program and a kernel spell one value differently, or where a recast only renames an
  index — each stated once, over the library alone, at the extended reals where floats are involved.

    * `ofBits_one_f32`: the 32-bit word 0x3F800000 is the number 1.
    * `hostQuotient_eq_logistic`: the host's expansion of the sigmoid, 1 / (1 + exp (-y)) with its ones written as
      that word, is the one-operation sigmoid: both are `Ideal.div 1 (1 + exp (-y))`, on every extended real.
    * `sitofp_setWidth_bit`: a one-bit word widened to 32 bits and read as a signed integer is the bit read as an
      unsigned integer (the widening puts zeros in front, so the sign bit is 0): the kernel's convert of a widened
      comparison bit is the host's convert of the bit.
    * `shapeCast_ab_11ab_apply`: an `[a, b]` matrix recast to `[1, 1, a, b]` reads, at (u, v, i, j), the matrix at
      (i, j): two unit axes in front add nothing to the row-major position.
  None needs a finiteness hypothesis.
-/
import Idealize.ShloMosaic.PureOps.Ideal
import Idealize.ShloMosaic.Lib.ValueIdx
import Idealize.ShloMosaic.Lib.ValueLayout
import Idealize.ShloMosaic.Lib.KernelVsHost

noncomputable section

namespace Cert.LibSpellings

open Idealize.ShloMosaic Idealize.ShloMosaic.ValueIdx

/-- The word 0x3F800000 is the number one. -/
theorem ofBits_one_f32 : Ideal.ofBits .f32 0x3F800000#32 = 1 := by
  simp [Ideal.ofBits, Ideal.ieee, -EReal.coe_mul]; norm_num

/-- The quotient 1 / (1 + exp (-y)), its ones written as words, is sigma(y): both are `Ideal.div 1 (1 + exp (-y))`. -/
theorem hostQuotient_eq_logistic (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
    = FloatOps.logistic y := by
  rw [Ideal.ofBits_def, ofBits_one_f32]; rfl

/-- A bit widened to 32 bits and read signed is the bit read unsigned: zero or one either way. -/
theorem sitofp_setWidth_bit (φ : FTy) (b : BitVec 1) :
    FloatOps.sitofp (F := Ideal) φ (b.setWidth 32) = FloatOps.uitofp (F := Ideal) φ b := by
  show (((b.setWidth 32).toInt : ℝ) : EReal) = ((b.toNat : ℝ) : EReal)
  rw [toInt_setWidth_bit]; norm_cast

/-- An `[a, b]` matrix recast to `[1, 1, a, b]` reads, at `(u, v, i, j)`, the matrix at `(i, j)`: the two unit axes
    contribute nothing to the row-major position. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    rw [Shape.rowMajor_val_four, Shape.rowMajor_val_two]
    show i.val * b + j.val = ((u.val * 1 + v.val) * a + i.val) * b + j.val
    have hu : u.val = 0 := Nat.lt_one_iff.mp u.isLt
    have hv : v.val = 0 := Nat.lt_one_iff.mp v.isLt
    simp only [hu, hv, Nat.zero_mul, Nat.zero_add])

end Cert.LibSpellings

end
-- ==== Proof.KernelIdealBlocks.lean ====
/-
  The windows' blocks and the packed weights, in terms of the six arguments, at the ideal values.

  The two point-cloud windows cut the lane axis of the coordinate-major planes in two: at grid point t the block's
  entry (d, b, l) is the plane array's entry (d, b, 32768·t + l), that is point 32768·t + l of diagram b, coordinate d.
  The three weight windows are their whole arrays at both points.  With what the host lines put in those arrays, the
  loaded packed weights satisfy the packing facts, and the ones row is 1.
-/
import proofs.«119227_g12171937316930_cont_fleet_1064_14_alg».proof.Proof.KernelIdealAcc
import proofs.«119227_g12171937316930_cont_fleet_1064_14_alg».proof.Proof.KernelIdealPacked
import proofs.«119227_g12171937316930_cont_fleet_1064_14_alg».proof.Proof.KernelIdealArrays
import proofs.«119227_g12171937316930_cont_fleet_1064_14_alg».proof.Proof.LibSpellings

set_option maxRecDepth 16384

noncomputable section

namespace Cert.KernelIdeal.Fr

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ)

/-! ## Where the blocks sit -/

theorem index0 : ∀ t : Fin cfg0.N, win0_0.index t (0 : Fin 3) = 0 ∧ win0_0.index t (1 : Fin 3) = 0 ∧ win0_0.index t (2 : Fin 3) = t.val :=
  (by decide +kernel : ∀ t : Fin grid0.N, win0_0.index t (0 : Fin 3) = 0 ∧ win0_0.index t (1 : Fin 3) = 0 ∧ win0_0.index t (2 : Fin 3) = t.val)
theorem index1 : ∀ t : Fin cfg0.N, win0_1.index t (0 : Fin 3) = 0 ∧ win0_1.index t (1 : Fin 3) = 0 ∧ win0_1.index t (2 : Fin 3) = t.val :=
  (by decide +kernel : ∀ t : Fin grid0.N, win0_1.index t (0 : Fin 3) = 0 ∧ win0_1.index t (1 : Fin 3) = 0 ∧ win0_1.index t (2 : Fin 3) = t.val)
theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- The student block at point t, entry (d, b, l): the plane array at lane 32768·t + l. -/
theorem iblk0_apply (c : Dev nD) (t : Fin cfg0.N) (d : Fin 3) (b : Fin 8) (l : Fin 32768) (n : Fin 65536) (hn : n.val = 32768 * t.val + l.val) :
    iblk m c 0 t (ix3 d b l) = (V m c main_v0 : S3x8x65536.Idx → EReal) (ix3 d b n) := by
  show (V m c main_v0 : S3x8x65536.Idx → EReal) (((cfg0.win 0).blk t).view.emb (ix3 d b l)) = _
  refine congrArg _ (funext fun a => Fin.ext ?_)
  obtain ⟨h0, h1, h2⟩ := index0 t
  match a with
  | ⟨0, _⟩ => (show win0_0.index t 0 * 3 + 1 * d.val = d.val; rw [h0]; omega)
  | ⟨1, _⟩ => (show win0_0.index t 1 * 8 + 1 * b.val = b.val; rw [h1]; omega)
  | ⟨2, _⟩ => (show win0_0.index t 2 * 32768 + 1 * l.val = n.val; rw [h2, hn]; omega)

/-- The teacher block likewise. -/
theorem iblk1_apply (c : Dev nD) (t : Fin cfg0.N) (d : Fin 3) (b : Fin 8) (l : Fin 32768) (n : Fin 65536) (hn : n.val = 32768 * t.val + l.val) :
    iblk m c 1 t (ix3 d b l) = (V m c main_v1 : S3x8x65536.Idx → EReal) (ix3 d b n) := by
  show (V m c main_v1 : S3x8x65536.Idx → EReal) (((cfg0.win 1).blk t).view.emb (ix3 d b l)) = _
  refine congrArg _ (funext fun a => Fin.ext ?_)
  obtain ⟨h0, h1, h2⟩ := index1 t
  match a with
  | ⟨0, _⟩ => (show win0_1.index t 0 * 3 + 1 * d.val = d.val; rw [h0]; omega)
  | ⟨1, _⟩ => (show win0_1.index t 1 * 8 + 1 * b.val = b.val; rw [h1]; omega)
  | ⟨2, _⟩ => (show win0_1.index t 2 * 32768 + 1 * l.val = n.val; rw [h2, hn]; omega)

/-- The three weight blocks are their whole arrays. -/
theorem iblk2_apply (c : Dev nD) (t : Fin cfg0.N) (y : S128x7.Idx) : iblk m c 2 t y = (V m c main_v9 : S128x7.Idx → EReal) y := by
  show (V m c main_v9 : S128x7.Idx → EReal) (((cfg0.win 2).blk t).view.emb y) = _
  refine congrArg _ (funext fun a => Fin.ext ?_)
  obtain ⟨h0, h1⟩ := index2 t
  match a with
  | ⟨0, _⟩ => (show win0_2.index t 0 * 128 + 1 * (y 0).val = (y 0).val; rw [h0]; omega)
  | ⟨1, _⟩ => (show win0_2.index t 1 * 7 + 1 * (y 1).val = (y 1).val; rw [h1]; omega)
theorem iblk3_apply (c : Dev nD) (t : Fin cfg0.N) (y : S2x128.Idx) : iblk m c 3 t y = (V m c main_v15 : S2x128.Idx → EReal) y := by
  show (V m c main_v15 : S2x128.Idx → EReal) (((cfg0.win 3).blk t).view.emb y) = _
  refine congrArg _ (funext fun a => Fin.ext ?_)
  obtain ⟨h0, h1⟩ := index3 t
  match a with
  | ⟨0, _⟩ => (show win0_3.index t 0 * 2 + 1 * (y 0).val = (y 0).val; rw [h0]; omega)
  | ⟨1, _⟩ => (show win0_3.index t 1 * 128 + 1 * (y 1).val = (y 1).val; rw [h1]; omega)
theorem iblk4_apply (c : Dev nD) (t : Fin cfg0.N) (y : S1x1.Idx) : iblk m c 4 t y = (V m c main_v16 : S1x1.Idx → EReal) y := by
  show (V m c main_v16 : S1x1.Idx → EReal) (((cfg0.win 4).blk t).view.emb y) = _
  refine congrArg _ (funext fun a => Fin.ext ?_)
  obtain ⟨h0, h1⟩ := index4 t
  match a with
  | ⟨0, _⟩ => (show win0_4.index t 0 * 1 + 1 * (y 0).val = (y 0).val; rw [h0]; omega)
  | ⟨1, _⟩ => (show win0_4.index t 1 * 1 + 1 * (y 1).val = (y 1).val; rw [h1]; omega)

/-! ## The arguments, and what the body loads -/

abbrev A0 (c : Dev nD) : Cert.Spec.Cloud := m ((c : Thread nD τ).loc main_arg0)
abbrev A1 (c : Dev nD) : Cert.Spec.Cloud := m ((c : Thread nD τ).loc main_arg1)
abbrev A2 (c : Dev nD) : Cert.Spec.Mat1 := m ((c : Thread nD τ).loc main_arg2)
abbrev A3 (c : Dev nD) : Cert.Spec.Bias1 := m ((c : Thread nD τ).loc main_arg3)
abbrev A4 (c : Dev nD) : Cert.Spec.Mat2 := m ((c : Thread nD τ).loc main_arg4)
abbrev A5 (c : Dev nD) : Cert.Spec.Bias2 := m ((c : Thread nD τ).loc main_arg5)

/-- A whole-buffer load passed through the identity reshape is the buffer's contents. -/
theorem pay5_ld (X : Vec Ideal S128x7 .f32) :
    k0_pay5 (F := Ideal) (View.ld X (Rect.unit (s := S128x7) ![0, 0] S128x7.size inb_S128x7_S128x7_0_0)) = X := by
  unfold k0_pay5; rw [shapeCast_self, View.ld_unit_zero zero_off2]
theorem pay6_ld (X : Vec Ideal S2x128 .f32) :
    k0_pay6 (F := Ideal) (View.ld X (Rect.unit (s := S2x128) ![0, 0] S2x128.size inb_S2x128_S2x128_0_0)) = X := by
  unfold k0_pay6; rw [shapeCast_self, View.ld_unit_zero zero_off2]
theorem pay7_ld (X : Vec Ideal S1x1 .f32) :
    k0_pay7 (F := Ideal) (View.ld X (Rect.unit (s := S1x1) ![0, 0] S1x1.size inb_S1x1_S1x1_0_0)) = X := by
  unfold k0_pay7; rw [shapeCast_self, View.ld_unit_zero zero_off2]

/-- The ones row is 1. -/
theorem pay4_one (l : Fin 32768) : k0_pay4 (F := Ideal) (ix2 0 l) = 1 := by
  unfold k0_pay4
  show Ideal.ofBits .f32 0x3F800000#32 = 1
  exact Cert.LibSpellings.ofBits_one_f32

/-- The whole-buffer store of the first point is zero. -/
theorem pay3_zero (y : S8x1.Idx) : k0_pay3 (F := Ideal) y = 0 := by
  unfold k0_pay3
  rw [shapeCast_self]
  show Ideal.ofBits .f32 0x00000000#32 = 0
  exact Ideal.ofBits_zero_f32

/-- The loaded packed weights satisfy the packing facts, at either point. -/
theorem packed (c : Dev nD) (t : Fin cfg0.N) :
    Packed (A2 m c) (A3 m c) (A4 m c) (A5 m c) (k0_pay5 (F := Ideal) (View.ld (iblk m c 2 t) (Rect.unit (s := S128x7) ![0, 0] S128x7.size inb_S128x7_S128x7_0_0))) (k0_pay6 (F := Ideal) (View.ld (iblk m c 3 t) (Rect.unit (s := S2x128) ![0, 0] S2x128.size inb_S2x128_S2x128_0_0))) (k0_pay7 (F := Ideal) (View.ld (iblk m c 4 t) (Rect.unit (s := S1x1) ![0, 0] S1x1.size inb_S1x1_S1x1_0_0))) (k0_pay4 (F := Ideal)) where
  top_s j d := by rw [pay5_ld]; exact (iblk2_apply m c t _).trans (V_v9_top_s m c j d)
  top_t j d := by rw [pay5_ld]; exact (iblk2_apply m c t _).trans (V_v9_top_t m c j d)
  top_b j := by rw [pay5_ld]; exact (iblk2_apply m c t _).trans (V_v9_top_b m c j)
  bot_s j d := by rw [pay5_ld]; exact (iblk2_apply m c t _).trans (V_v9_bot_s m c j d)
  bot_t j d := by rw [pay5_ld]; exact (iblk2_apply m c t _).trans (V_v9_bot_t m c j d)
  bot_b j := by rw [pay5_ld]; exact (iblk2_apply m c t _).trans (V_v9_bot_b m c j)
  row0_s j := by rw [pay6_ld]; exact (iblk3_apply m c t _).trans (V_v15_0_s m c j)
  row0_t j := by rw [pay6_ld]; exact (iblk3_apply m c t _).trans (V_v15_0_t m c j)
  row1_s j := by rw [pay6_ld]; exact (iblk3_apply m c t _).trans (V_v15_1_s m c j)
  row1_t j := by rw [pay6_ld]; exact (iblk3_apply m c t _).trans (V_v15_1_t m c j)
  bias := by rw [pay7_ld]; exact (iblk4_apply m c t _).trans (V_v16 m c)
  one l := pay4_one l

/-- Row b's three planes of a [3,8,32768] block, at (d, l). -/
theorem ld_planes (X : Vec Ideal S3x8x32768 .f32) (b : ℕ) (hb : b < 8)
    (h : ∀ a, (![0, b, 0] : Fin 3 → ℕ) a + S3x1x32768.size a ≤ S3x8x32768.size a) (d : Fin 3) (l : Fin 32768) :
    View.ld X (Rect.unit (s := S3x8x32768) ![0, b, 0] S3x1x32768.size h) (ix3 d 0 l) = X (ix3 d ⟨b, hb⟩ l) :=
  congrArg X (funext fun a => Fin.ext (by
    match a with
    | ⟨0, _⟩ => (show 0 + 1 * d.val = d.val; omega)
    | ⟨1, _⟩ => (show b + 1 * 0 = b; omega)
    | ⟨2, _⟩ => (show 0 + 1 * l.val = l.val; omega)))

/-- The point of diagram b under lane l of the block at grid point t. -/
def pt (t : Fin cfg0.N) (l : Fin 32768) : Fin 65536 :=
  ⟨32768 * t.val + l.val, by have := lt_of_lt_of_eq t.isLt N_0; have := l.isLt; omega⟩

/-- A ROW'S UPDATE at grid point t: what the accumulator held plus, over the block's lanes, the student point's scalar
    less the teacher point's. -/
theorem row_value (c : Dev nD) (t : Fin cfg0.N) (b : ℕ) (hb : b < 8)
    (h3 : ∀ a, (![0, b, 0] : Fin 3 → ℕ) a + S3x1x32768.size a ≤ S3x8x32768.size a) (acc : Vec Ideal S1x1 .f32) :
    rowUpdate (k0_pay4 (F := Ideal)) (k0_pay5 (F := Ideal) (View.ld (iblk m c 2 t) (Rect.unit (s := S128x7) ![0, 0] S128x7.size inb_S128x7_S128x7_0_0))) (k0_pay6 (F := Ideal) (View.ld (iblk m c 3 t) (Rect.unit (s := S2x128) ![0, 0] S2x128.size inb_S2x128_S2x128_0_0))) (k0_pay7 (F := Ideal) (View.ld (iblk m c 4 t) (Rect.unit (s := S1x1) ![0, 0] S1x1.size inb_S1x1_S1x1_0_0)))
        (View.ld (iblk m c 0 t) (Rect.unit (s := S3x8x32768) ![0, b, 0] S3x1x32768.size h3))
        (View.ld (iblk m c 1 t) (Rect.unit (s := S3x8x32768) ![0, b, 0] S3x1x32768.size h3)) acc (ix2 0 0)
      = acc (ix2 0 0) + ∑ l : Fin 32768,
          (Cert.Spec.outp (A0 m c) (A2 m c) (A3 m c) (A4 m c) (A5 m c) ⟨b, hb⟩ (pt t l)
            - Cert.Spec.outp (A1 m c) (A2 m c) (A3 m c) (A4 m c) (A5 m c) ⟨b, hb⟩ (pt t l)) := by
  rw [rowUpdate_apply]
  refine congrArg (fun z => acc (ix2 0 0) + z) (Finset.sum_congr rfl fun l _ => ?_)
  exact congr (congrArg HSub.hSub
      (out_student (packed m c t) (View.ld (iblk m c 0 t) (Rect.unit (s := S3x8x32768) ![0, b, 0] S3x1x32768.size h3)) (View.ld (iblk m c 1 t) (Rect.unit (s := S3x8x32768) ![0, b, 0] S3x1x32768.size h3)) (A0 m c) ⟨b, hb⟩ (pt t l) l
        (fun d => (ld_planes (iblk m c 0 t) b hb h3 d l).trans ((iblk0_apply m c t d ⟨b, hb⟩ l (pt t l) rfl).trans (V_v0 m c d ⟨b, hb⟩ (pt t l))))))
    (out_teacher (packed m c t) (View.ld (iblk m c 0 t) (Rect.unit (s := S3x8x32768) ![0, b, 0] S3x1x32768.size h3)) (View.ld (iblk m c 1 t) (Rect.unit (s := S3x8x32768) ![0, b, 0] S3x1x32768.size h3)) (A1 m c) ⟨b, hb⟩ (pt t l) l
      (fun d => (ld_planes (iblk m c 1 t) b hb h3 d l).trans ((iblk1_apply m c t d ⟨b, hb⟩ l (pt t l) rfl).trans (V_v1 m c d ⟨b, hb⟩ (pt t l)))))

end Cert.KernelIdeal.Fr

end
-- ==== Proof.LibTileSums.lean ====
/-
  Finite sums regrouped by blocks, in any commutative additive monoid (no finiteness of the summands is needed, so the
  lemmas apply to extended reals).

    * `sum_blocks`: a sum over a * b consecutive positions is the sum over a blocks of the sum over the b positions inside
      each block (position b * I + r is position r of block I).
    * `sum_tiles`: the same on both axes of a double sum, with the two middle sums exchanged: a sum over all pairs (i, j) is
      the sum over tile pairs (I, J) of the sum over the pairs inside tile (I, J). This is how a sum accumulated tile by
      tile over a grid meets one whole-array sum.
    * `sum_idx1`: a sum over the index set of a rank-1 array is the sum over its one coordinate.
  The summand is a function of natural-number positions, so that tile arithmetic on positions is plain arithmetic.
-/
import Idealize.ShloMosaic.Lib.ValueIdx

noncomputable section

namespace Cert.LibTileSums

open Idealize.ShloMosaic Idealize.ShloMosaic.ValueIdx

/-- A sum over a * b consecutive positions, block by block. -/
theorem sum_blocks {M : Type*} [AddCommMonoid M] (a b : ℕ) (g : ℕ → M) :
    ∑ i : Fin (a * b), g i.val = ∑ I : Fin a, ∑ r : Fin b, g (b * I.val + r.val) := by
  rw [← finProdFinEquiv.sum_comp, Fintype.sum_prod_type]
  refine Finset.sum_congr rfl fun I _ => Finset.sum_congr rfl fun r _ => ?_
  show g (r.val + b * I.val) = _
  rw [Nat.add_comm]

/-- A double sum over [a * b] x [a' * b'], tile pair by tile pair. -/
theorem sum_tiles {M : Type*} [AddCommMonoid M] (a b a' b' : ℕ) (g : ℕ → ℕ → M) :
    ∑ i : Fin (a * b), ∑ j : Fin (a' * b'), g i.val j.val
      = ∑ I : Fin a, ∑ J : Fin a', ∑ r : Fin b, ∑ r' : Fin b', g (b * I.val + r.val) (b' * J.val + r'.val) := by
  rw [sum_blocks a b (fun i => ∑ j : Fin (a' * b'), g i j.val)]
  refine Finset.sum_congr rfl fun I _ => ?_
  rw [Finset.sum_comm]
  have : ∀ r : Fin b, ∑ j : Fin (a' * b'), g (b * I.val + r.val) j.val
      = ∑ J : Fin a', ∑ r' : Fin b', g (b * I.val + r.val) (b' * J.val + r'.val) :=
    fun r => sum_blocks a' b' (fun j => g (b * I.val + r.val) j)
  rw [Finset.sum_comm]
  simp only [this]
  rw [Finset.sum_comm]

/-- A rank-1 index set is its one coordinate range. -/
def idxEquiv1 {n : ℕ} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

end Cert.LibTileSums

end
-- ==== Proof.KernelIdealLoss.lean ====
/-
  The kernel's accumulator and result in the specification's terms.

  After the first grid point row b of the accumulator is 0 plus the sum, over the first 32 768 points of diagram b, of
  the student point's scalar less the teacher point's; the last point adds the same sum over the other 32 768 points.
  When every input is a real number all these scalars are reals, a sum of differences is the difference of the sums,
  and the two half-sums add up to the diagram's features: row b ends at  feat S b − feat T b.
  The result block is the sum over the eight rows of the squared accumulator, divided by the word for 8: the loss.
-/
import proofs.«119227_g12171937316930_cont_fleet_1064_14_alg».proof.Proof.KernelIdealBlocks
import proofs.«119227_g12171937316930_cont_fleet_1064_14_alg».proof.Proof.LibTileSums

set_option maxRecDepth 16384

noncomputable section

namespace Cert.KernelIdeal.Fr

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

variable (m : (ℓ : Loc nD τ sig) → Buf (Elt Ideal) ℓ)

/-! ## Each row after each point -/

theorem pay3_ld_zero (r : Rect S8x1) (x : r.shape.Idx) : View.ld (Val := Elt Ideal) (e' := .f32) (k0_pay3 (F := Ideal)) r x = 0 := pay3_zero _

theorem accFirst_val0 (c : Dev nD) :
    accFirst m c (ix2 ⟨0, by decide⟩ 0) = 0 + ∑ l : Fin 32768,
      (outp (A0 m c) (A2 m c) (A3 m c) (A4 m c) (A5 m c) ⟨0, by decide⟩ (pt t0_0 l) - outp (A1 m c) (A2 m c) (A3 m c) (A4 m c) (A5 m c) ⟨0, by decide⟩ (pt t0_0 l)) :=
  (accFirst_row0 m c).trans ((row_value m c t0_0 0 (by decide) inb_S3x8x32768_S3x1x32768_0_0_0 _).trans
    (congrArg (fun z => z + ∑ l : Fin 32768,
      (outp (A0 m c) (A2 m c) (A3 m c) (A4 m c) (A5 m c) ⟨0, by decide⟩ (pt t0_0 l) - outp (A1 m c) (A2 m c) (A3 m c) (A4 m c) (A5 m c) ⟨0, by decide⟩ (pt t0_0 l))) (pay3_ld_zero _ _)))
theorem accLast_val0 (c : Dev nD) :
    accLast m c (ix2 ⟨0, by decide⟩ 0) = accFirst m c (ix2 ⟨0, by decide⟩ 0) + ∑ l : Fin 32768,
      (outp (A0 m c) (A2 m c) (A3 m c) (A4 m c) (A5 m c) ⟨0, by decide⟩ (pt t0_1 l) - outp (A1 m c) (A2 m c) (A3 m c) (A4 m c) (A5 m c) ⟨0, by decide⟩ (pt t0_1 l)) :=
  (accLast_row0 m c).trans ((row_value m c t0_1 0 (by decide) inb_S3x8x32768_S3x1x32768_0_0_0 _).trans
    (congrArg (fun z => z + ∑ l : Fin 32768,
      (outp (A0 m c) (A2 m c) (A3 m c) (A4 m c) (A5 m c) ⟨0, by decide⟩ (pt t0_1 l) - outp (A1 m c) (A2 m c) (A3 m c) (A4 m c) (A5 m c) ⟨0, by decide⟩ (pt t0_1 l)))
      (congrArg (accFirst m c) (row_idx 0 (by decide) inb_S8x1_S1x1_0_0 (ix2 0 0)))))

theorem accFirst_val1 (c : Dev nD) :
    accFirst m c (ix2 ⟨1, by decide⟩ 0) = 0 + ∑ l : Fin 32768,
      (outp (A0 m c) (A2 m c) (A3 m c) (A4 m c) (A5 m c) ⟨1, by decide⟩ (pt t0_0 l) - outp (A1 m c) (A2 m c) (A3 m c) (A4 m c) (A5 m c) ⟨1, by decide⟩ (pt t0_0 l)) :=
  (accFirst_row1 m c).trans ((row_value m c t0_0 1 (by decide) inb_S3x8x32768_S3x1x32768_0_1_0 _).trans
    (congrArg (fun z => z + ∑ l : Fin 32768,
      (outp (A0 m c) (A2 m c) (A3 m c) (A4 m c) (A5 m c) ⟨1, by decide⟩ (pt t0_0 l) - outp (A1 m c) (A2 m c) (A3 m c) (A4 m c) (A5 m c) ⟨1, by decide⟩ (pt t0_0 l))) (pay3_ld_zero _ _)))
theorem accLast_val1 (c : Dev nD) :
    accLast m c (ix2 ⟨1, by decide⟩ 0) = accFirst m c (ix2 ⟨1, by decide⟩ 0) + ∑ l : Fin 32768,
      (outp (A0 m c) (A2 m c) (A3 m c) (A4 m c) (A5 m c) ⟨1, by decide⟩ (pt t0_1 l) - outp (A1 m c) (A2 m c) (A3 m c) (A4 m c) (A5 m c) ⟨1, by decide⟩ (pt t0_1 l)) :=
  (accLast_row1 m c).trans ((row_value m c t0_1 1 (by decide) inb_S3x8x32768_S3x1x32768_0_1_0 _).trans
    (congrArg (fun z => z + ∑ l : Fin 32768,
      (outp (A0 m c) (A2 m c) (A3 m c) (A4 m c) (A5 m c) ⟨1, by decide⟩ (pt t0_1 l) - outp (A1 m c) (A2 m c) (A3 m c) (A4 m c) (A5 m c) ⟨1, by decide⟩ (pt t0_1 l)))
      (congrArg (accFirst m c) (row_idx 1 (by decide) inb_S8x1_S1x1_1_0 (ix2 0 0)))))

theorem accFirst_val2 (c : Dev nD) :
    accFirst m c (ix2 ⟨2, by decide⟩ 0) = 0 + ∑ l : Fin 32768,
      (outp (A0 m c) (A2 m c) (A3 m c) (A4 m c) (A5 m c) ⟨2, by decide⟩ (pt t0_0 l) - outp (A1 m c) (A2 m c) (A3 m c) (A4 m c) (A5 m c) ⟨2, by decide⟩ (pt t0_0 l)) :=
  (accFirst_row2 m c).trans ((row_value m c t0_0 2 (by decide) inb_S3x8x32768_S3x1x32768_0_2_0 _).trans
    (congrArg (fun z => z + ∑ l : Fin 32768,
      (outp (A0 m c) (A2 m c) (A3 m c) (A4 m c) (A5 m c) ⟨2, by decide⟩ (pt t0_0 l) - outp (A1 m c) (A2 m c) (A3 m c) (A4 m c) (A5 m c) ⟨2, by decide⟩ (pt t0_0 l))) (pay3_ld_zero _ _)))
theorem accLast_val2 (c : Dev nD) :
    accLast m c (ix2 ⟨2, by decide⟩ 0) = accFirst m c (ix2 ⟨2, by decide⟩ 0) + ∑ l : Fin 32768,
      (outp (A0 m c) (A2 m c) (A3 m c) (A4 m c) (A5 m c) ⟨2, by decide⟩ (pt t0_1 l) - outp (A1 m c) (A2 m c) (A3 m c) (A4 m c) (A5 m c) ⟨2, by decide⟩ (pt t0_1 l)) :=
  (accLast_row2 m c).trans ((row_value m c t0_1 2 (by decide) inb_S3x8x32768_S3x1x32768_0_2_0 _).trans
    (congrArg (fun z => z + ∑ l : Fin 32768,
      (outp (A0 m c) (A2 m c) (A3 m c) (A4 m c) (A5 m c) ⟨2, by decide⟩ (pt t0_1 l) - outp (A1 m c) (A2 m c) (A3 m c) (A4 m c) (A5 m c) ⟨2, by decide⟩ (pt t0_1 l)))
      (congrArg (accFirst m c) (row_idx 2 (by decide) inb_S8x1_S1x1_2_0 (ix2 0 0)))))

theorem accFirst_val3 (c : Dev nD) :
    accFirst m c (ix2 ⟨3, by decide⟩ 0) = 0 + ∑ l : Fin 32768,
      (outp (A0 m c) (A2 m c) (A3 m c) (A4 m c) (A5 m c) ⟨3, by decide⟩ (pt t0_0 l) - outp (A1 m c) (A2 m c) (A3 m c) (A4 m c) (A5 m c) ⟨3, by decide⟩ (pt t0_0 l)) :=
  (accFirst_row3 m c).trans ((row_value m c t0_0 3 (by decide) inb_S3x8x32768_S3x1x32768_0_3_0 _).trans
    (congrArg (fun z => z + ∑ l : Fin 32768,
      (outp (A0 m c) (A2 m c) (A3 m c) (A4 m c) (A5 m c) ⟨3, by decide⟩ (pt t0_0 l) - outp (A1 m c) (A2 m c) (A3 m c) (A4 m c) (A5 m c) ⟨3, by decide⟩ (pt t0_0 l))) (pay3_ld_zero _ _)))
theorem accLast_val3 (c : Dev nD) :
    accLast m c (ix2 ⟨3, by decide⟩ 0) = accFirst m c (ix2 ⟨3, by decide⟩ 0) + ∑ l : Fin 32768,
      (outp (A0 m c) (A2 m c) (A3 m c) (A4 m c) (A5 m c) ⟨3, by decide⟩ (pt t0_1 l) - outp (A1 m c) (A2 m c) (A3 m c) (A4 m c) (A5 m c) ⟨3, by decide⟩ (pt t0_1 l)) :=
  (accLast_row3 m c).trans ((row_value m c t0_1 3 (by decide) inb_S3x8x32768_S3x1x32768_0_3_0 _).trans
    (congrArg (fun z => z + ∑ l : Fin 32768,
      (outp (A0 m c) (A2 m c) (A3 m c) (A4 m c) (A5 m c) ⟨3, by decide⟩ (pt t0_1 l) - outp (A1 m c) (A2 m c) (A3 m c) (A4 m c) (A5 m c) ⟨3, by decide⟩ (pt t0_1 l)))
      (congrArg (accFirst m c) (row_idx 3 (by decide) inb_S8x1_S1x1_3_0 (ix2 0 0)))))

theorem accFirst_val4 (c : Dev nD) :
    accFirst m c (ix2 ⟨4, by decide⟩ 0) = 0 + ∑ l : Fin 32768,
      (outp (A0 m c) (A2 m c) (A3 m c) (A4 m c) (A5 m c) ⟨4, by decide⟩ (pt t0_0 l) - outp (A1 m c) (A2 m c) (A3 m c) (A4 m c) (A5 m c) ⟨4, by decide⟩ (pt t0_0 l)) :=
  (accFirst_row4 m c).trans ((row_value m c t0_0 4 (by decide) inb_S3x8x32768_S3x1x32768_0_4_0 _).trans
    (congrArg (fun z => z + ∑ l : Fin 32768,
      (outp (A0 m c) (A2 m c) (A3 m c) (A4 m c) (A5 m c) ⟨4, by decide⟩ (pt t0_0 l) - outp (A1 m c) (A2 m c) (A3 m c) (A4 m c) (A5 m c) ⟨4, by decide⟩ (pt t0_0 l))) (pay3_ld_zero _ _)))
theorem accLast_val4 (c : Dev nD) :
    accLast m c (ix2 ⟨4, by decide⟩ 0) = accFirst m c (ix2 ⟨4, by decide⟩ 0) + ∑ l : Fin 32768,
      (outp (A0 m c) (A2 m c) (A3 m c) (A4 m c) (A5 m c) ⟨4, by decide⟩ (pt t0_1 l) - outp (A1 m c) (A2 m c) (A3 m c) (A4 m c) (A5 m c) ⟨4, by decide⟩ (pt t0_1 l)) :=
  (accLast_row4 m c).trans ((row_value m c t0_1 4 (by decide) inb_S3x8x32768_S3x1x32768_0_4_0 _).trans
    (congrArg (fun z => z + ∑ l : Fin 32768,
      (outp (A0 m c) (A2 m c) (A3 m c) (A4 m c) (A5 m c) ⟨4, by decide⟩ (pt t0_1 l) - outp (A1 m c) (A2 m c) (A3 m c) (A4 m c) (A5 m c) ⟨4, by decide⟩ (pt t0_1 l)))
      (congrArg (accFirst m c) (row_idx 4 (by decide) inb_S8x1_S1x1_4_0 (ix2 0 0)))))

theorem accFirst_val5 (c : Dev nD) :
    accFirst m c (ix2 ⟨5, by decide⟩ 0) = 0 + ∑ l : Fin 32768,
      (outp (A0 m c) (A2 m c) (A3 m c) (A4 m c) (A5 m c) ⟨5, by decide⟩ (pt t0_0 l) - outp (A1 m c) (A2 m c) (A3 m c) (A4 m c) (A5 m c) ⟨5, by decide⟩ (pt t0_0 l)) :=
  (accFirst_row5 m c).trans ((row_value m c t0_0 5 (by decide) inb_S3x8x32768_S3x1x32768_0_5_0 _).trans
    (congrArg (fun z => z + ∑ l : Fin 32768,
      (outp (A0 m c) (A2 m c) (A3 m c) (A4 m c) (A5 m c) ⟨5, by decide⟩ (pt t0_0 l) - outp (A1 m c) (A2 m c) (A3 m c) (A4 m c) (A5 m c) ⟨5, by decide⟩ (pt t0_0 l))) (pay3_ld_zero _ _)))
theorem accLast_val5 (c : Dev nD) :
    accLast m c (ix2 ⟨5, by decide⟩ 0) = accFirst m c (ix2 ⟨5, by decide⟩ 0) + ∑ l : Fin 32768,
      (outp (A0 m c) (A2 m c) (A3 m c) (A4 m c) (A5 m c) ⟨5, by decide⟩ (pt t0_1 l) - outp (A1 m c) (A2 m c) (A3 m c) (A4 m c) (A5 m c) ⟨5, by decide⟩ (pt t0_1 l)) :=
  (accLast_row5 m c).trans ((row_value m c t0_1 5 (by decide) inb_S3x8x32768_S3x1x32768_0_5_0 _).trans
    (congrArg (fun z => z + ∑ l : Fin 32768,
      (outp (A0 m c) (A2 m c) (A3 m c) (A4 m c) (A5 m c) ⟨5, by decide⟩ (pt t0_1 l) - outp (A1 m c) (A2 m c) (A3 m c) (A4 m c) (A5 m c) ⟨5, by decide⟩ (pt t0_1 l)))
      (congrArg (accFirst m c) (row_idx 5 (by decide) inb_S8x1_S1x1_5_0 (ix2 0 0)))))

theorem accFirst_val6 (c : Dev nD) :
    accFirst m c (ix2 ⟨6, by decide⟩ 0) = 0 + ∑ l : Fin 32768,
      (outp (A0 m c) (A2 m c) (A3 m c) (A4 m c) (A5 m c) ⟨6, by decide⟩ (pt t0_0 l) - outp (A1 m c) (A2 m c) (A3 m c) (A4 m c) (A5 m c) ⟨6, by decide⟩ (pt t0_0 l)) :=
  (accFirst_row6 m c).trans ((row_value m c t0_0 6 (by decide) inb_S3x8x32768_S3x1x32768_0_6_0 _).trans
    (congrArg (fun z => z + ∑ l : Fin 32768,
      (outp (A0 m c) (A2 m c) (A3 m c) (A4 m c) (A5 m c) ⟨6, by decide⟩ (pt t0_0 l) - outp (A1 m c) (A2 m c) (A3 m c) (A4 m c) (A5 m c) ⟨6, by decide⟩ (pt t0_0 l))) (pay3_ld_zero _ _)))
theorem accLast_val6 (c : Dev nD) :
    accLast m c (ix2 ⟨6, by decide⟩ 0) = accFirst m c (ix2 ⟨6, by decide⟩ 0) + ∑ l : Fin 32768,
      (outp (A0 m c) (A2 m c) (A3 m c) (A4 m c) (A5 m c) ⟨6, by decide⟩ (pt t0_1 l) - outp (A1 m c) (A2 m c) (A3 m c) (A4 m c) (A5 m c) ⟨6, by decide⟩ (pt t0_1 l)) :=
  (accLast_row6 m c).trans ((row_value m c t0_1 6 (by decide) inb_S3x8x32768_S3x1x32768_0_6_0 _).trans
    (congrArg (fun z => z + ∑ l : Fin 32768,
      (outp (A0 m c) (A2 m c) (A3 m c) (A4 m c) (A5 m c) ⟨6, by decide⟩ (pt t0_1 l) - outp (A1 m c) (A2 m c) (A3 m c) (A4 m c) (A5 m c) ⟨6, by decide⟩ (pt t0_1 l)))
      (congrArg (accFirst m c) (row_idx 6 (by decide) inb_S8x1_S1x1_6_0 (ix2 0 0)))))

theorem accFirst_val7 (c : Dev nD) :
    accFirst m c (ix2 ⟨7, by decide⟩ 0) = 0 + ∑ l : Fin 32768,
      (outp (A0 m c) (A2 m c) (A3 m c) (A4 m c) (A5 m c) ⟨7, by decide⟩ (pt t0_0 l) - outp (A1 m c) (A2 m c) (A3 m c) (A4 m c) (A5 m c) ⟨7, by decide⟩ (pt t0_0 l)) :=
  (accFirst_row7 m c).trans ((row_value m c t0_0 7 (by decide) inb_S3x8x32768_S3x1x32768_0_7_0 _).trans
    (congrArg (fun z => z + ∑ l : Fin 32768,
      (outp (A0 m c) (A2 m c) (A3 m c) (A4 m c) (A5 m c) ⟨7, by decide⟩ (pt t0_0 l) - outp (A1 m c) (A2 m c) (A3 m c) (A4 m c) (A5 m c) ⟨7, by decide⟩ (pt t0_0 l))) (pay3_ld_zero _ _)))
theorem accLast_val7 (c : Dev nD) :
    accLast m c (ix2 ⟨7, by decide⟩ 0) = accFirst m c (ix2 ⟨7, by decide⟩ 0) + ∑ l : Fin 32768,
      (outp (A0 m c) (A2 m c) (A3 m c) (A4 m c) (A5 m c) ⟨7, by decide⟩ (pt t0_1 l) - outp (A1 m c) (A2 m c) (A3 m c) (A4 m c) (A5 m c) ⟨7, by decide⟩ (pt t0_1 l)) :=
  (accLast_row7 m c).trans ((row_value m c t0_1 7 (by decide) inb_S3x8x32768_S3x1x32768_0_7_0 _).trans
    (congrArg (fun z => z + ∑ l : Fin 32768,
      (outp (A0 m c) (A2 m c) (A3 m c) (A4 m c) (A5 m c) ⟨7, by decide⟩ (pt t0_1 l) - outp (A1 m c) (A2 m c) (A3 m c) (A4 m c) (A5 m c) ⟨7, by decide⟩ (pt t0_1 l)))
      (congrArg (accFirst m c) (row_idx 7 (by decide) inb_S8x1_S1x1_7_0 (ix2 0 0)))))

/-- Row b after the first point, for every b. -/
theorem accFirst_val (c : Dev nD) : ∀ b : Fin 8, accFirst m c (ix2 b 0) = 0 + ∑ l : Fin 32768,
      (outp (A0 m c) (A2 m c) (A3 m c) (A4 m c) (A5 m c) b (pt t0_0 l) - outp (A1 m c) (A2 m c) (A3 m c) (A4 m c) (A5 m c) b (pt t0_0 l))
  | ⟨0, _⟩ => accFirst_val0 m c
  | ⟨1, _⟩ => accFirst_val1 m c
  | ⟨2, _⟩ => accFirst_val2 m c
  | ⟨3, _⟩ => accFirst_val3 m c
  | ⟨4, _⟩ => accFirst_val4 m c
  | ⟨5, _⟩ => accFirst_val5 m c
  | ⟨6, _⟩ => accFirst_val6 m c
  | ⟨7, _⟩ => accFirst_val7 m c
  | ⟨n + 8, h⟩ => absurd h (by omega)

/-- Row b after the last point, for every b. -/
theorem accLast_val (c : Dev nD) : ∀ b : Fin 8, accLast m c (ix2 b 0) = accFirst m c (ix2 b 0) + ∑ l : Fin 32768,
      (outp (A0 m c) (A2 m c) (A3 m c) (A4 m c) (A5 m c) b (pt t0_1 l) - outp (A1 m c) (A2 m c) (A3 m c) (A4 m c) (A5 m c) b (pt t0_1 l))
  | ⟨0, _⟩ => accLast_val0 m c
  | ⟨1, _⟩ => accLast_val1 m c
  | ⟨2, _⟩ => accLast_val2 m c
  | ⟨3, _⟩ => accLast_val3 m c
  | ⟨4, _⟩ => accLast_val4 m c
  | ⟨5, _⟩ => accLast_val5 m c
  | ⟨6, _⟩ => accLast_val6 m c
  | ⟨7, _⟩ => accLast_val7 m c
  | ⟨n + 8, h⟩ => absurd h (by omega)

/-! ## Two half-sums make the whole -/

/-- A sum over the 65 536 points of a diagram is the sum over the first block's lanes plus the sum over the second's. -/
theorem sum_two_blocks (g : Fin 65536 → EReal) :
    ∑ n : Fin 65536, g n = ∑ l : Fin 32768, g (pt t0_0 l) + ∑ l : Fin 32768, g (pt t0_1 l) := by
  have e1 : ∑ n : Fin 65536, g n = ∑ i : Fin (2 * 32768), (fun k : ℕ => if h : k < 65536 then g ⟨k, h⟩ else 0) i.val :=
    Finset.sum_congr rfl fun n _ => by
      show g n = (if h : n.val < 65536 then g ⟨n.val, h⟩ else 0)
      rw [dif_pos n.isLt]
  rw [e1]
  refine (Cert.LibTileSums.sum_blocks 2 32768 (fun k : ℕ => if h : k < 65536 then g ⟨k, h⟩ else 0)).trans ?_
  rw [Fin.sum_univ_two]
  refine congr (congrArg HAdd.hAdd (Finset.sum_congr rfl fun l _ => ?_)) (Finset.sum_congr rfl fun l _ => ?_)
  · have h : 32768 * ((0 : Fin 2) : ℕ) + l.val < 65536 := by have := l.isLt; simp only [Fin.val_zero]; omega
    rw [dif_pos h]; exact congrArg g (Fin.ext rfl)
  · have h : 32768 * ((1 : Fin 2) : ℕ) + l.val < 65536 := by have := l.isLt; simp only [Fin.val_one]; omega
    rw [dif_pos h]; exact congrArg g (Fin.ext rfl)

/-- For reals: (0 + (s₀ − u₀)) + (s₁ − u₁) = (s₀ + s₁) − (u₀ + u₁). -/
theorem real_telescope {s0 s1 u0 u1 : EReal} (h0 : IsReal s0) (h1 : IsReal s1) (k0 : IsReal u0) (k1 : IsReal u1) :
    (0 + (s0 - u0)) + (s1 - u1) = (s0 + s1) - (u0 + u1) := by
  obtain ⟨a0, rfl⟩ := h0; obtain ⟨a1, rfl⟩ := h1; obtain ⟨c0, rfl⟩ := k0; obtain ⟨c1, rfl⟩ := k1
  rw [zero_add, ← EReal.coe_sub, ← EReal.coe_sub, ← EReal.coe_add, ← EReal.coe_add, ← EReal.coe_add, ← EReal.coe_sub]
  exact congrArg _ (by ring)

/-- With real inputs row b of the accumulator ends at the difference of the two clouds' features of diagram b. -/
theorem accLast_feat (c : Dev nD)
    (h0 : ∀ i, IsReal (A0 m c i)) (h1 : ∀ i, IsReal (A1 m c i)) (h2 : ∀ i, IsReal (A2 m c i)) (h3 : ∀ i, IsReal (A3 m c i))
    (h4 : ∀ i, IsReal (A4 m c i)) (h5 : ∀ i, IsReal (A5 m c i)) (b : Fin 8) :
    accLast m c (ix2 b 0) = feat (A0 m c) (A2 m c) (A3 m c) (A4 m c) (A5 m c) b - feat (A1 m c) (A2 m c) (A3 m c) (A4 m c) (A5 m c) b := by
  have rS : ∀ n, IsReal (outp (A0 m c) (A2 m c) (A3 m c) (A4 m c) (A5 m c) b n) := fun n => outp_real h0 h2 h3 h4 h5 b n
  have rT : ∀ n, IsReal (outp (A1 m c) (A2 m c) (A3 m c) (A4 m c) (A5 m c) b n) := fun n => outp_real h1 h2 h3 h4 h5 b n
  rw [accLast_val m c b, accFirst_val m c b,
    sum_sub_of_real Finset.univ _ _ (fun l => rS (pt t0_0 l)) (fun l => rT (pt t0_0 l)),
    sum_sub_of_real Finset.univ _ _ (fun l => rS (pt t0_1 l)) (fun l => rT (pt t0_1 l))]
  unfold feat
  rw [sum_two_blocks (fun n => outp (A0 m c) (A2 m c) (A3 m c) (A4 m c) (A5 m c) b n),
    sum_two_blocks (fun n => outp (A1 m c) (A2 m c) (A3 m c) (A4 m c) (A5 m c) b n)]
  exact real_telescope (IsReal.sum _ _ fun l => rS (pt t0_0 l)) (IsReal.sum _ _ fun l => rS (pt t0_1 l))
    (IsReal.sum _ _ fun l => rT (pt t0_0 l)) (IsReal.sum _ _ fun l => rT (pt t0_1 l))

/-! ## The mean of squares -/

/-- The [1,8,1] index set is its middle coordinate range. -/
def idx181 : Fin 8 ≃ S1x8x1.Idx where
  toFun b := ix3 0 b 0
  invFun i := i 1
  left_inv _ := rfl
  right_inv i := funext fun a => Fin.ext (by
    match a with
    | ⟨0, _⟩ => (show 0 = (i 0).val; have := (i 0).isLt; have h1 : (i 0).val < 1 := this; omega)
    | ⟨1, _⟩ => rfl
    | ⟨2, _⟩ => (show 0 = (i 2).val; have := (i 2).isLt; have h1 : (i 2).val < 1 := this; omega))

/-- The last point's payload at its one entry: the sum of the squared accumulator rows over the word for 8. -/
theorem meanSq_apply (v : Vec Ideal S8x1 .f32) :
    k0_pay2 (F := Ideal) v (ix2 0 0) = Ideal.div (∑ b : Fin 8, v (ix2 b 0) * v (ix2 b 0)) (Ideal.ofBits .f32 0x41000000#32) := by
  unfold k0_pay2
  rw [divf_apply, broadcast_apply, broadcast_apply]
  refine congrArg (fun z => Ideal.div z (Ideal.ofBits .f32 0x41000000#32)) ?_
  unfold extractAt
  refine (shapeCast_apply _ shapeCasts_S1_S1x1x1 _ (ix1 0) (by rw [Shape.rowMajor_val_one, Shape.rowMajor_val_three]; rfl)).trans ?_
  refine (Ideal.multiReduction_add_total _ _ reduces_S1x8x1_S1 (fun b => by match b with | ⟨0, _⟩ => rfl) (.inl rfl) rfl (ix1 0)).trans ?_
  rw [← Equiv.sum_comp idx181]
  refine Finset.sum_congr rfl fun b _ => ?_
  change shapeCast S1x8x1 _ shapeCasts_S8x1_S1x8x1 (ix3 0 b 0) = _
  refine (shapeCast_apply _ shapeCasts_S8x1_S1x8x1 (ix3 0 b 0) (ix2 b 0) (by
    rw [Shape.rowMajor_val_two, Shape.rowMajor_val_three]
    show b.val * 1 + 0 = (0 * 8 + b.val) * 1 + 0
    omega)).trans ?_
  rw [mulf_apply]

/-- THE RESULT BLOCK with real inputs: the loss. -/
theorem outLast_loss (c : Dev nD)
    (h0 : ∀ i, IsReal (A0 m c i)) (h1 : ∀ i, IsReal (A1 m c i)) (h2 : ∀ i, IsReal (A2 m c i)) (h3 : ∀ i, IsReal (A3 m c i))
    (h4 : ∀ i, IsReal (A4 m c i)) (h5 : ∀ i, IsReal (A5 m c i)) :
    outLast m c (ix2 0 0) = loss (A0 m c) (A1 m c) (A2 m c) (A3 m c) (A4 m c) (A5 m c) := by
  rw [outLast_eq, meanSq_apply]
  unfold loss
  rw [zero_add]
  refine congrArg (fun z => Ideal.div z (Ideal.ofBits .f32 0x41000000#32)) (Finset.sum_congr rfl fun b _ => ?_)
  rw [accLast_feat m c h0 h1 h2 h3 h4 h5 b]

end Cert.KernelIdeal.Fr

end
-- ==== Proof.KernelIdealResult.lean ====
/-
  The idealized kernel's run, with its result.

  Only the last grid point writes the output window back, and its 1×1 block is the whole result array: the array ends
  at the last point's result block.  The reshape after the region reads its one entry into the scalar result.  With
  real inputs that entry is the loss.
-/
import proofs.«119227_g12171937316930_cont_fleet_1064_14_alg».proof.Proof.KernelIdealLoss

set_option maxRecDepth 16384

noncomputable section

namespace Cert.KernelIdeal.Fr

open Idealize.ShloMosaic Idealize.ShloMosaic.TcCoe Idealize.ShloMosaic.ValueIdx Idealize.ShloMosaic.StableHlo Idealize.SL.Sem
open Idealize.ShloMosaic.Pipeline (Dat Cfg Window)
open Cert.KernelIdeal Cert.KernelIdeal.Gen Cert.Spec

variable (m : (ℓ : Loc nD τ sig) → Buf (Elt Ideal) ℓ) (ρ : Dev nD → PrngReg)

/-- The one write-back, at the last point, writes the result block: block (0, 0) of the 1×1 array is the array. -/
theorem flushed5 (c : Dev nD) (t : Fin cfg0.N) (hf : (cfg0.win 5).flush t = true) :
    (dats m 0 c).flushed 5 t = ((cfg0.win 5).blk t).view.read (Elt Ideal) (outLast m c) := by
  have h1 : t.val = 1 := by have := (flush0_5 t).mp hf; have := lt_of_lt_of_eq t.isLt N_0; omega
  obtain rfl : t = t0_1 := Fin.ext h1
  show (cfg0.win 5).cut (grid0.coords t0_1) ((dats m 0 c).after 5 t0_1) = _
  rw [after5, show outAt m c t0_1 = outLast m c from rfl]
  have hz' : (fun a => win0_5.index t0_1 a * main_v17.ty.shape.size a) = fun _ => 0 := funext fun a => by fin_cases a <;> decide
  exact (Memref.read_access_unit_zero (Elt Ideal) main_v17 hz' (fun a => by rw [congrFun hz' a]; simp) (outLast m c)).symm

/-- So the result array ends at the last point's result block. -/
theorem final5 (c : Dev nD) : (dats m 0 c).arrAt 5 cfg0.N = outLast m c :=
  (dats m 0 c).arrAt_eq_of_cover 5 (outLast m c) (flushed5 m c) fun i =>
    ⟨t0_1, (flush0_5 t0_1).mpr rfl, by
      show i ∈ ((View.whole main_v17).slice (win0_5.rect t0_1)).set
      rw [View.set_slice_whole, Rect.mem_set_unit]
      intro a
      have h0 : (i 0 : Nat) < 1 := (i 0).isLt
      have h1 : (i 1 : Nat) < 1 := (i 1).isLt
      match a with
      | ⟨0, _⟩ => show win0_5.index t0_1 0 * win0_5.size 0 ≤ (i 0 : Nat) ∧ (i 0 : Nat) < win0_5.index t0_1 0 * win0_5.size 0 + win0_5.xsize (grid0.coords t0_1) 0
                  rw [show win0_5.index t0_1 0 * win0_5.size 0 = 0 from by decide +kernel, show win0_5.xsize (grid0.coords t0_1) 0 = 1 from by decide +kernel]; omega
      | ⟨1, _⟩ => show win0_5.index t0_1 1 * win0_5.size 1 ≤ (i 1 : Nat) ∧ (i 1 : Nat) < win0_5.index t0_1 1 * win0_5.size 1 + win0_5.xsize (grid0.coords t0_1) 1
                  rw [show win0_5.index t0_1 1 * win0_5.size 1 = 0 from by decide +kernel, show win0_5.xsize (grid0.coords t0_1) 1 = 1 from by decide +kernel]; omega⟩

/-- The scalar result after the reshape: the result block's one entry. -/
theorem tail_result (c : Dev nD) :
    (Pipeline.afterTail₀ cfgs (dats m) 0 (V0 m) [hostOps1] c main_v18 : S_.Idx → EReal) = fun _ => outLast m c (ix2 0 0) := by
  unfold Pipeline.afterTail₀
  show StableHlo.after hostOps1 _ (Proc.devRef .tc main_v18) = _
  after_results
  funext i
  show shapeCast S_ (Pipeline.withArrays spec0 c (V0 m c) (fun w => (dats m 0 c).arrAt w cfg0.N) (Proc.devRef .tc (Pipeline.arrRef spec0 5))) shapeCasts_S1x1_S_ i = _
  rw [Pipeline.withArrays_arr spec0 launch0.win.arr_inj c _ _ 5, final5]
  exact shapeCast_apply _ shapeCasts_S1x1_S_ i (ix2 0 0) (by
    rw [Shape.rowMajor_val_two]
    have h : (S_.rowMajor i).val < 1 := (S_.rowMajor i).isLt
    show 0 * 1 + 0 = (S_.rowMajor i).val
    omega)

/-- THE RUN WITH ITS VALUE: with real inputs every weakly fair execution of the idealized kernel's @main terminates with
    the scalar result at the loss and the six arguments unchanged. -/
theorem run_value
    (hreal : ∀ c : Dev nD, (∀ i, IsReal (A0 m c i)) ∧ (∀ i, IsReal (A1 m c i)) ∧ (∀ i, IsReal (A2 m c i)) ∧ (∀ i, IsReal (A3 m c i))
      ∧ (∀ i, IsReal (A4 m c i)) ∧ (∀ i, IsReal (A5 m c i))) :
    θ_run defs (onTc (τ := τ) (main (F := Ideal))) ⟨m, fun _ => 0, ρ⟩ (fun r => ∀ c : Dev nD,
      r.2.mem ((c.tc : Thread nD τ).loc main_v18) = lossArr (A0 m c) (A1 m c) (A2 m c) (A3 m c) (A4 m c) (A5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_v18 (Pipeline.mem_restRefs_of main_v18 (by decide) (by decide))).trans ((tail_result m c).trans
        (funext fun _ => outLast_loss m c (hreal c).1 (hreal c).2.1 (hreal c).2.2.1 (hreal c).2.2.2.1 (hreal c).2.2.2.2.1 (hreal c).2.2.2.2.2)),
      ((h c).2 main_arg0 (Pipeline.mem_restRefs_of main_arg0 (by decide) (by decide))).trans (tail_arg m c main_arg0 (by decide) (tail_keeps main_arg0 (by decide)) (V_main_arg0 m c)),
      ((h c).2 main_arg1 (Pipeline.mem_restRefs_of main_arg1 (by decide) (by decide))).trans (tail_arg m c main_arg1 (by decide) (tail_keeps main_arg1 (by decide)) (V_main_arg1 m c)),
      ((h c).2 main_arg2 (Pipeline.mem_restRefs_of main_arg2 (by decide) (by decide))).trans (tail_arg m c main_arg2 (by decide) (tail_keeps main_arg2 (by decide)) (V_main_arg2 m c)),
      ((h c).2 main_arg3 (Pipeline.mem_restRefs_of main_arg3 (by decide) (by decide))).trans (tail_arg m c main_arg3 (by decide) (tail_keeps main_arg3 (by decide)) (V_main_arg3 m c)),
      ((h c).2 main_arg4 (Pipeline.mem_restRefs_of main_arg4 (by decide) (by decide))).trans (tail_arg m c main_arg4 (by decide) (tail_keeps main_arg4 (by decide)) (V_main_arg4 m c)),
      ((h c).2 main_arg5 (Pipeline.mem_restRefs_of main_arg5 (by decide) (by decide))).trans (tail_arg m c main_arg5 (by decide) (tail_keeps main_arg5 (by decide)) (V_main_arg5 m c))⟩)
    (run_main m ρ)

end Cert.KernelIdeal.Fr

end
-- ==== Proof.RefValue.lean ====
/-
  The reference's run is the loss.

  The reference computes, for each of the two point clouds, a hidden layer max(x · W1 + b1, 0), an output layer
  max(h · W2 + b2, 0), and the sum of the output layer over the points of each diagram; then the mean over the eight
  diagrams of the squared difference of the two sums. Read at the extended reals, where every operation is exact, each
  stage at an index is the corresponding term of the specification, so the result is the specification's loss. No
  finiteness is used: only that a sum over the elements (b, n, 0) of an [8, 65536, 1] array with b fixed is the sum over
  n, and that zero plus a sum is the sum.
-/
import proofs.«119227_g12171937316930_cont_fleet_1064_14_alg».proof.Proof.Gen.ReferenceIdeal.Read
import proofs.«119227_g12171937316930_cont_fleet_1064_14_alg».proof.Proof.Spec
import proofs.«119227_g12171937316930_cont_fleet_1064_14_alg».proof.Proof.LibTileSums
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx

/-- Dropping the last two coordinates of an index of an [8, 65536, 1] array keeps its first coordinate. -/
theorem drop_val (i : S8x65536x1.Idx) : (reducesTo_S8x65536x1_S8_d1_2.drop i 0).val = (i 0).val := rfl

/-- A sum over the last two axes of an [8, 65536, 1] array: the last axis has one position, so the elements that reduce
    to diagram b are the 65 536 elements (b, n, 0). -/
theorem sum_two_axes (y : FVec Ideal S8x65536x1 .f32) (init : EReal) (j : S8.Idx) :
    Ideal.hostReduceAdd reducesTo_S8x65536x1_S8_d1_2 y init j = init + ∑ n : Fin 65536, y (ix3 (j 0) n 0) := by
  unfold Ideal.hostReduceAdd
  refine congrArg (fun t => init + t) ?_
  refine Finset.sum_nbij' (fun i => (i 1 : Fin 65536)) (fun n => ix3 (j 0) n 0) (fun _ _ => Finset.mem_univ _) ?_ ?_ (fun _ _ => rfl) ?_
  · intro n _
    rw [Finset.mem_filter]
    refine ⟨Finset.mem_univ _, ?_⟩
    funext b
    match b with
    | ⟨0, _⟩ => exact Fin.ext (drop_val _)
  · intro i hi
    rw [Finset.mem_filter] at hi
    have h0 : (i 0).val = (j 0).val := by rw [← hi.2]; exact (drop_val i).symm
    funext a
    match a with
    | ⟨0, _⟩ => exact Fin.ext h0.symm
    | ⟨1, _⟩ => rfl
    | ⟨2, _⟩ => exact Subsingleton.elim (α := Fin 1) _ _
  · intro i hi
    rw [Finset.mem_filter] at hi
    have h0 : (i 0).val = (j 0).val := by rw [← hi.2]; exact (drop_val i).symm
    refine congrArg y ?_
    funext a
    match a with
    | ⟨0, _⟩ => exact Fin.ext h0
    | ⟨1, _⟩ => rfl
    | ⟨2, _⟩ => exact Subsingleton.elim (α := Fin 1) _ _

/-- The reference's hidden layer at (b, n, j) is the specification's hidden unit: the product x · W1 summed over the
    three coordinates, the bias added on the right, then the maximum with zero. -/
theorem v4_at (x0 : FVec Ideal S8x65536x3 .f32) (x2 : FVec Ideal S3x64 .f32) (x3 : FVec Ideal S64 .f32)
    (b : Fin 8) (n : Fin 65536) (j : Fin 64) :
    val_main_v4 (F := Ideal) x0 x2 x3 (ix3 b n j) = Cert.Spec.hid x0 x2 x3 b n j := by
  rw [val_main_v4_apply, val_main_v3_apply, val_main_v0_apply, val_main_v2_apply, val_main_v1_apply,
    val_main_call0_v0_apply, val_main_call0_cst_apply]
  simp only [Ideal.maximumf_def, Ideal.addf_def, Ideal.ofBits_def, Ideal.ofBits_zero_f32]
  unfold Cert.Spec.hid
  have el : ∀ k : Fin 3, lidx_main_v0 (ix3 b n j) k = ix3 b n k := fun k => funext fun a => Fin.ext (by
    match a with | ⟨0, _⟩ => rfl | ⟨1, _⟩ => rfl | ⟨2, _⟩ => rfl)
  have er : ∀ k : Fin 3, ridx_main_v0 (ix3 b n j) k = ix2 k j := fun k => funext fun a => Fin.ext (by
    match a with | ⟨0, _⟩ => rfl | ⟨1, _⟩ => rfl)
  have eb : idx_main_v1 (idx_main_v2 (ix3 b n j)) = ix1 j := funext fun a => Fin.ext (by
    match a with | ⟨0, _⟩ => rfl)
  simp only [el, er, eb]

/-- The reference's output layer at (b, n, 0) is the specification's point scalar: the product h · W2 summed over the
    64 hidden units, the bias added on the right, then the maximum with zero. -/
theorem v9_at (x0 : FVec Ideal S8x65536x3 .f32) (x2 : FVec Ideal S3x64 .f32) (x3 : FVec Ideal S64 .f32)
    (x4 : FVec Ideal S64x1 .f32) (x5 : FVec Ideal S1 .f32) (b : Fin 8) (n : Fin 65536) :
    val_main_v9 (F := Ideal) x0 x2 x3 x4 x5 (ix3 b n 0) = Cert.Spec.outp x0 x2 x3 x4 x5 b n := by
  rw [val_main_v9_apply, val_main_v8_apply, val_main_v5_apply, val_main_v7_apply, val_main_v6_apply,
    val_main_call1_v0_apply, val_main_call1_cst_apply]
  simp only [Ideal.maximumf_def, Ideal.addf_def, Ideal.ofBits_def, Ideal.ofBits_zero_f32]
  unfold Cert.Spec.outp
  have el : ∀ k : Fin 64, lidx_main_v5 (ix3 b n (0 : Fin 1)) k = ix3 b n k := fun k => funext fun a => Fin.ext (by
    match a with | ⟨0, _⟩ => rfl | ⟨1, _⟩ => rfl | ⟨2, _⟩ => rfl)
  have er : ∀ k : Fin 64, ridx_main_v5 (ix3 b n (0 : Fin 1)) k = ix2 k (0 : Fin 1) := fun k => funext fun a => Fin.ext (by
    match a with | ⟨0, _⟩ => rfl | ⟨1, _⟩ => rfl)
  have eb : idx_main_v6 (idx_main_v7 (ix3 b n (0 : Fin 1))) = ix1 (0 : Fin 1) := funext fun a => Fin.ext (by
    match a with | ⟨0, _⟩ => rfl)
  simp only [el, er, eb, v4_at]

/-- The second cloud runs through the same stages as the first. -/
theorem v20_eq (x1 : FVec Ideal S8x65536x3 .f32) (x2 : FVec Ideal S3x64 .f32) (x3 : FVec Ideal S64 .f32)
    (x4 : FVec Ideal S64x1 .f32) (x5 : FVec Ideal S1 .f32) :
    val_main_v20 (F := Ideal) x1 x2 x3 x4 x5 = val_main_v9 (F := Ideal) x1 x2 x3 x4 x5 := rfl

/-- The first cloud's reduced array at diagram b is that diagram's feature (the sum starts from zero). -/
theorem v10_at (x0 : FVec Ideal S8x65536x3 .f32) (x2 : FVec Ideal S3x64 .f32) (x3 : FVec Ideal S64 .f32)
    (x4 : FVec Ideal S64x1 .f32) (x5 : FVec Ideal S1 .f32) (j : S8.Idx) :
    val_main_v10 (F := Ideal) x0 x2 x3 x4 x5 j = Cert.Spec.feat x0 x2 x3 x4 x5 (j 0) := by
  unfold val_main_v10
  rw [hostReduceAdd_apply, sum_two_axes, val_main_cst_apply]
  simp only [Ideal.ofBits_def, Ideal.ofBits_zero_f32, zero_add]
  unfold Cert.Spec.feat
  exact Finset.sum_congr rfl fun n _ => v9_at x0 x2 x3 x4 x5 (j 0) n

/-- The second cloud's reduced array at diagram b is that diagram's feature. -/
theorem v21_at (x1 : FVec Ideal S8x65536x3 .f32) (x2 : FVec Ideal S3x64 .f32) (x3 : FVec Ideal S64 .f32)
    (x4 : FVec Ideal S64x1 .f32) (x5 : FVec Ideal S1 .f32) (j : S8.Idx) :
    val_main_v21 (F := Ideal) x1 x2 x3 x4 x5 j = Cert.Spec.feat x1 x2 x3 x4 x5 (j 0) := by
  unfold val_main_v21
  rw [v20_eq, hostReduceAdd_apply, sum_two_axes, val_main_cst_0_apply]
  simp only [Ideal.ofBits_def, Ideal.ofBits_zero_f32, zero_add]
  unfold Cert.Spec.feat
  exact Finset.sum_congr rfl fun n _ => v9_at x1 x2 x3 x4 x5 (j 0) n

/-- The reference's result is the loss: zero plus the sum over the eight diagrams of the squared difference of the two
    clouds' features, divided by the word both programs print for 8.0. -/
theorem ref_is_loss (x0 x1 : FVec Ideal S8x65536x3 .f32) (x2 : FVec Ideal S3x64 .f32) (x3 : FVec Ideal S64 .f32)
    (x4 : FVec Ideal S64x1 .f32) (x5 : FVec Ideal S1 .f32) :
    Cert.ReferenceIdeal.Read.val_main_v25 (F := Ideal) x0 x1 x2 x3 x4 x5 = Cert.Spec.lossArr x0 x1 x2 x3 x4 x5 := by
  funext i
  rw [val_main_v25_apply, val_main_v24_apply, Cert.LibTileSums.sum_idx1]
  simp only [val_main_v23_apply, val_main_v22_apply, v10_at, v21_at, val_main_cst_1_apply, val_main_cst_2_apply,
    Ideal.hostDivf_def, Ideal.mulf_def, Ideal.subf_def, Ideal.ofBits_def, Ideal.ofBits_zero_f32]
  rfl

end Cert.ReferenceIdeal.RefValue

end
-- ==== Proof.LibRealEntries.lean ====
/-
  When an entry of an array of extended reals is a real number — each fact stated once, over the library alone.

    * `sum_real`: a finite sum of reals is a real.
    * `ofBits_inf`: the 32-bit word 0x7F800000 is +∞.
    * `ofBool_eq_one`: the one-bit word made from a truth value is 1 only when the value is true.
    * `real_of_abs_lt_top`: an extended real x with max x (-x) < +∞ is a real.
    * `real_of_cmp`: the same, from the comparison bit "max x (-x) < the word of +∞" being 1 — the form in which a test
      "every entry is finite" states it.
-/
import Idealize.ShloMosaic.PureOps.Ideal

noncomputable section

namespace Cert.LibRealEntries

open Idealize.ShloMosaic

/-- A finite sum of reals is a real: the sum of the reals, by induction on the index set. -/
theorem sum_real {ι : Type} (s : Finset ι) (f : ι → EReal) (hf : ∀ k, ∃ r : ℝ, f k = (r : EReal)) :
    ∃ r : ℝ, ∑ k ∈ s, f k = (r : EReal) := by
  classical
  refine Finset.induction_on s ⟨0, by simp⟩ ?_
  intro k t hk ih
  obtain ⟨r, hr⟩ := ih
  obtain ⟨q, hq⟩ := hf k
  exact ⟨q + r, by rw [Finset.sum_insert hk, hr, hq, EReal.coe_add]⟩

/-- The word 0x7F800000 is +∞. -/
theorem ofBits_inf : Ideal.ofBits .f32 0x7F800000#32 = ⊤ := by simp [Ideal.ofBits, Ideal.ieee]

/-- A one-bit word made from a truth value is 1 only when the value is true. -/
theorem ofBool_eq_one (b : Bool) (h : BitVec.ofBool b = 1#1) : b = true := by
  cases b
  · exact absurd h (by decide)
  · rfl

/-- An extended real whose absolute value max x (-x) is below +∞ is a real: at -∞ and at +∞ that maximum is +∞. -/
theorem real_of_abs_lt_top (x : EReal) (h : max x (-x) < ⊤) : ∃ r : ℝ, x = (r : EReal) := by
  induction x using EReal.rec with
  | bot => simp at h
  | coe r => exact ⟨r, rfl⟩
  | top => simp at h

/-- The same, from the comparison bit |x| < (the word of +∞) being 1. -/
theorem real_of_cmp (x : EReal)
    (hx : Ideal.cmp .olt (max x (-x)) (Ideal.ofBits .f32 0x7F800000#32) = 1#1) : ∃ r : ℝ, x = (r : EReal) := by
  have hlt : max x (-x) < Ideal.ofBits .f32 0x7F800000#32 := of_decide_eq_true (ofBool_eq_one _ hx)
  rw [ofBits_inf] at hlt
  exact real_of_abs_lt_top x hlt

end Cert.LibRealEntries

end
-- ==== Proof.FiniteInputs.lean ====
/-
  Every float input is finite: what the precondition says, read back entry by entry.

  The precondition tests each of the six argument arrays in the same way: it takes the absolute value |x| of every entry,
  compares it with +∞ (the 32-bit word 0x7F800000) by "less than", and folds all the comparison bits of the array by "and",
  starting from true. The six folded bits are and-ed once more, and the precondition states that the result is true.

  An "and" of bits is true only if every bit is true, so every comparison bit of every array is true: |x| < +∞ for every
  entry x. On the extended reals |x| = max x (-x), and max x (-x) < +∞ excludes both x = +∞ and x = -∞: every entry is a real
  number.
-/
import proofs.«119227_g12171937316930_cont_fleet_1064_14_alg».proof.Pre_finite_inputs
import proofs.«119227_g12171937316930_cont_fleet_1064_14_alg».proof.Proof.Gen.Pre_finite_inputs
import proofs.«119227_g12171937316930_cont_fleet_1064_14_alg».proof.Proof.Spec
import proofs.«119227_g12171937316930_cont_fleet_1064_14_alg».proof.Proof.LibRealEntries
import Idealize.ShloMosaic.Lib.ReduceAll
import Idealize.ShloMosaic.Lib.ValueIdx
import Idealize.ShloMosaic.Lib.IdealHost

noncomputable section

namespace Cert.Finite

open Idealize.ShloMosaic Idealize.ShloMosaic.ValueIdx

/-- The scalar shape has a single index. -/
instance : Subsingleton Cert.Pre_finite_inputs.S_.Idx := ⟨fun a b => funext fun d => d.elim0⟩

/-- One array's test: if the "and" over all axes of the bits "|x i| < +∞" is true, every entry x i is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) :
    ∀ i, Cert.Spec.IsReal (x i) := by
  intro i
  have hi := Host.reduce_andi_all _ _ hr hu ix0 e i
  rw [cmpf_apply, broadcastInDim_scalar_apply, constant_apply] at hi
  exact Cert.LibRealEntries.real_of_cmp (x i) hi

/-- The precondition "every float input is finite" makes every entry of every argument a real number. -/
theorem inputs_real [hPre_finite_inputs : Cert.Pre_finite_inputs.Facts]
    (a0 a1 : FVec Ideal Cert.Pre_finite_inputs.S8x65536x3 .f32) (a2 : FVec Ideal Cert.Pre_finite_inputs.S3x64 .f32)
    (a3 : FVec Ideal Cert.Pre_finite_inputs.S64 .f32) (a4 : FVec Ideal Cert.Pre_finite_inputs.S64x1 .f32)
    (a5 : FVec Ideal Cert.Pre_finite_inputs.S1 .f32)
    (h : Cert.Pre_finite_inputs.fn (F := Ideal) a0 a1 a2 a3 a4 a5 = fun _ => 1#1) :
    (∀ i, Cert.Spec.IsReal (a0 i)) ∧ (∀ i, Cert.Spec.IsReal (a1 i)) ∧ (∀ i, Cert.Spec.IsReal (a2 i)) ∧
      (∀ i, Cert.Spec.IsReal (a3 i)) ∧ (∀ i, Cert.Spec.IsReal (a4 i)) ∧ (∀ i, Cert.Spec.IsReal (a5 i)) := by
  have h0 := congrFun h ix0
  dsimp only [Cert.Pre_finite_inputs.fn, Cert.Pre_finite_inputs.fn_part1, andi] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨real_of_all a0 _ _ _ e0, real_of_all a1 _ _ _ e1, real_of_all a2 _ _ _ e2, real_of_all a3 _ _ _ e3,
    real_of_all a4 _ _ _ e4, real_of_all a5 _ _ _ e5⟩

end Cert.Finite

end
-- ==== Proof.lean ====
/-
  A fused two-layer perceptron loss against its plain reference.

  Both programs take a student and a teacher cloud (8 diagrams of 65 536 points in 3 coordinates) and the weights of a
  tiny perceptron, map every point to a scalar  max(max(x·W1 + b1, 0)·W2 + b2, 0), sum the scalars of each diagram, and
  return the mean over the diagrams of the squared difference of the student's and the teacher's sums.

  The reference does this cloud by cloud.  The kernel streams both clouds once, coordinate-major, in two blocks of
  32 768 points: for each diagram it runs ONE packed 128×7 product on the student and teacher coordinates side by side
  (zero blocks keep the two apart, a ones row carries the first bias), one packed 2×128 product, and adds the lane sum of
  (student scalar − teacher scalar) to an 8×1 accumulator kept across the two grid points; the last point squares,
  sums and divides by 8.

  On the extended reals the two agree whenever the inputs are real numbers, which the precondition states: a zero
  weight times anything is zero and a bias times one is itself on every extended real, and, the scalars being reals, a
  sum of differences is the difference of the sums and the two half-sums of a diagram add up to its whole sum.

  The frames: the reference's is its generated run with the result dropped; the two kernel programs' are proved in
  their own modules over the library's launch theorem, the region's invariant carrying the accumulator from the first
  grid point to the last.  The idealization rewrote nothing, so it is preserved trivially.
-/
import proofs.«119227_g12171937316930_cont_fleet_1064_14_alg».proof.Defs
import proofs.«119227_g12171937316930_cont_fleet_1064_14_alg».proof.Proof.Gen.Kernel
import proofs.«119227_g12171937316930_cont_fleet_1064_14_alg».proof.Proof.Gen.KernelIdeal
import proofs.«119227_g12171937316930_cont_fleet_1064_14_alg».proof.Proof.Gen.ReferenceIdeal
import proofs.«119227_g12171937316930_cont_fleet_1064_14_alg».proof.Proof.Gen.Pre_finite_inputs
import proofs.«119227_g12171937316930_cont_fleet_1064_14_alg».proof.Proof.KernelFrame
import proofs.«119227_g12171937316930_cont_fleet_1064_14_alg».proof.Proof.KernelIdealResult
import proofs.«119227_g12171937316930_cont_fleet_1064_14_alg».proof.Proof.RefValue
import proofs.«119227_g12171937316930_cont_fleet_1064_14_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs to its end and leaves its arguments unchanged. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- With finite inputs both idealized programs end at the loss of the six arguments. -/
theorem algebraic : Cert.algebraic_KernelIdeal_ReferenceIdeal := by
  intro m ρ m' ρ' hpre hagree
  refine ⟨fun c => Cert.Spec.lossArr (Cert.KernelIdeal.Fr.A0 m c) (Cert.KernelIdeal.Fr.A1 m c) (Cert.KernelIdeal.Fr.A2 m c)
      (Cert.KernelIdeal.Fr.A3 m c) (Cert.KernelIdeal.Fr.A4 m c) (Cert.KernelIdeal.Fr.A5 m c),
    Cert.KernelIdeal.Fr.run_value m ρ (fun c => Cert.Finite.inputs_real _ _ _ _ _ _ (hpre c)), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v25_eq _ _ _ _ _ _).trans (Cert.ReferenceIdeal.RefValue.ref_is_loss _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
